-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S256x256 : Shape := ⟨2, ![256, 256]⟩
abbrev S256 : Shape := ⟨1, ![256]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_arg8 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S4096 .f32) (main_arg8 : FVec F S4096 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S4096x4096 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S4096 .f32) (main_arg8 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S4096x4096 : Shape := ⟨2, ![4096, 4096]⟩
abbrev S256x256 : Shape := ⟨2, ![256, 256]⟩
abbrev S256 : Shape := ⟨1, ![256]⟩
abbrev S4096 : Shape := ⟨1, ![4096]⟩
abbrev S1x4096 : Shape := ⟨2, ![1, 4096]⟩
abbrev S256x768 : Shape := ⟨2, ![256, 768]⟩
abbrev S768 : Shape := ⟨1, ![768]⟩
abbrev S1x768 : Shape := ⟨2, ![1, 768]⟩
abbrev S2x1x4096 : Shape := ⟨3, ![2, 1, 4096]⟩
abbrev S512x4096 : Shape := ⟨2, ![512, 4096]⟩
abbrev S1x1x4096 : Shape := ⟨3, ![1, 1, 4096]⟩
abbrev S_ : Shape := ⟨0, ![]⟩
abbrev S4096x256x16 : Shape := ⟨3, ![4096, 256, 16]⟩
abbrev S32x4096 : Shape := ⟨2, ![32, 4096]⟩
abbrev S32x256x16 : Shape := ⟨3, ![32, 256, 16]⟩
abbrev S512x256 : Shape := ⟨2, ![512, 256]⟩
abbrev S512x768 : Shape := ⟨2, ![512, 768]⟩
abbrev S32x16x256 : Shape := ⟨3, ![32, 16, 256]⟩
abbrev S32x256x256 : Shape := ⟨3, ![32, 256, 256]⟩
abbrev S32x256 : Shape := ⟨2, ![32, 256]⟩
abbrev S32x256x1 : Shape := ⟨3, ![32, 256, 1]⟩

abbrev nBuf : Space → Nat
  | .hbm => 46
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S4096, .f32⟩
  | .hbm, ⟨8, _⟩ => ⟨S4096, .f32⟩
  | .hbm, ⟨9, _⟩ => ⟨S1x4096, .f32⟩
  | .hbm, ⟨10, _⟩ => ⟨S1x4096, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x768, .f32⟩
  | .hbm, ⟨15, _⟩ => ⟨S256x768, .bf16⟩
  | .hbm, ⟨16, _⟩ => ⟨S768, .f32⟩
  | .hbm, ⟨17, _⟩ => ⟨S1x768, .f32⟩
  | .hbm, ⟨18, _⟩ => ⟨S2x1x4096, .f32⟩
  | .hbm, ⟨19, _⟩ => ⟨S2x1x4096, .f32⟩
  | .hbm, ⟨20, _⟩ => ⟨S1x1x4096, .f32⟩
  | .hbm, ⟨21, _⟩ => ⟨S4096, .f32⟩
  | .hbm, ⟨22, _⟩ => ⟨S1x1x4096, .f32⟩
  | .hbm, ⟨23, _⟩ => ⟨S4096, .f32⟩
  | .hbm, ⟨24, _⟩ => ⟨S4096, .f32⟩
  | .hbm, ⟨25, _⟩ => ⟨S1x1x4096, .f32⟩
  | .hbm, ⟨26, _⟩ => ⟨S4096, .f32⟩
  | .hbm, ⟨27, _⟩ => ⟨S1x1x4096, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S1x4096, .f32⟩
  | .hbm, ⟨42, _⟩ => ⟨S1x4096, .f32⟩
  | .hbm, ⟨43, _⟩ => ⟨S4096x256x16, .f32⟩
  | .hbm, ⟨44, _⟩ => ⟨S4096x4096, .f32⟩
  | .hbm, ⟨45, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S32x4096, .f32⟩
  | .local _ .vmem, ⟨7, _⟩ => ⟨S32x4096, .f32⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S256x768, .bf16⟩
  | .local _ .vmem, ⟨13, _⟩ => ⟨S1x768, .f32⟩
  | .local _ .vmem, ⟨14, _⟩ => ⟨S32x256x16, .f32⟩
  | .local _ .vmem, ⟨15, _⟩ => ⟨S32x256x16, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x768 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S32x256x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S4096_S1x4096 : S4096.ShapeCasts S1x4096
  transposes_S256x256_S256x256_1_0 : S256x256.Transposes [1, 0] S256x256
  concatenates_S256x256_S256x256_S256x256_S256x768_d1 : Shape.Concatenates [S256x256, S256x256, S256x256] S256x768 1
  bitsLt_bf16_f32 : FTy.bits .bf16 < FTy.bits .f32
  concatenates_S256_S256_S256_S768_d0 : Shape.Concatenates [S256, S256, S256] S768 0
  shapeCasts_S768_S1x768 : S768.ShapeCasts S1x768
  inb_S1x1x4096_S1x1x4096_0_0_0 : ∀ a, (![0, 0, 0] : Fin 3 → Nat) a + S1x1x4096.size a ≤ S1x1x4096.size a
  h_S1x1x4096 : 0 < S1x1x4096.numel
  inb_S512x4096_S512x4096_0_0 : ∀ a, (![0, 0] : Fin 2 → Nat) a + S512x4096.size a ≤ S512x4096.size a
  h_S512x4096 : 0 < S512x4096.numel
  reduces_S512x4096_S4096 : S512x4096.Reduces [0] S4096
  shapeCasts_S1x1x4096_S1x1x4096 : S1x1x4096.ShapeCasts S1x1x4096
  shapeCasts_S1x4096_S1x1x4096 : S1x4096.ShapeCasts S1x1x4096
  slices_S2x1x4096_S1x1x4096_0_0_0 : S2x1x4096.Slices ![0, 0, 0] S1x1x4096
  shapeCasts_S1x1x4096_S4096 : S1x1x4096.ShapeCasts S4096
  slices_S2x1x4096_S1x1x4096_1_0_0 : S2x1x4096.Slices ![1, 0, 0] S1x1x4096
  bcast_S_S4096 : S_.BroadcastsInDim S4096 (![] : Fin 0 → Fin S4096.rank)
  inb_S32x4096_S32x4096_0_0 : ∀ a, (![0, 0] : Fin 2 → Nat) a + S32x4096.size a ≤ S32x4096.size a
  h_S32x4096 : 0 < S32x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S32x4096 : S1x4096.Broadcasts S32x4096
  shapeCasts_S32x4096_S512x256 : S32x4096.ShapeCasts S512x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  slices_S512x768_o0_0_S512x256 : S512x768.Slices ![0, 0] S512x256
  slices_S512x768_o0_256_S512x256 : S512x768.Slices ![0, 256] S512x256
  slices_S512x768_o0_512_S512x256 : S512x768.Slices ![0, 512] S512x256
  shapeCasts_S512x256_S32x16x256 : S512x256.ShapeCasts S32x16x256
  reduces_S32x256x256_S32x256 : S32x256x256.Reduces [2] S32x256
  shapeCasts_S32x256_S32x256x1 : S32x256.ShapeCasts S32x256x1
  broadcasts_S32x256x1_S32x256x256 : S32x256x1.Broadcasts S32x256x256
  inb_S32x256x16_S32x256x16_0_0_0 : ∀ a, (![0, 0, 0] : Fin 3 → Nat) a + S32x256x16.size a ≤ S32x256x16.size a
  h_S32x256x16 : 0 < S32x256x16.numel
  shapeCasts_S4096x256x16_S4096x4096 : S4096x256x16.ShapeCasts S4096x4096
  dot_S512x256_S256x768_S512x768_1_0_0_1_n_n_wf : DotDims.WF S512x256 S256x768 S512x768 [1] [0] [0] [1] [] []
  dot_S32x16x256_S32x16x256_S32x256x256_1_1_2_2_0_0_wf : DotDims.WF S32x16x256 S32x16x256 S32x256x256 [1] [1] [2] [2] [0] [0]
  dot_S32x256x256_S32x16x256_S32x256x16_2_2_1_1_0_0_wf : DotDims.WF S32x256x256 S32x16x256 S32x256x16 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S2x1x4096.size a
  hwx0_1 : ∀ i : grid0.Coords, EltTy.bits .f32 = 32 ∨ (Rect.block (s := S2x1x4096) S1x1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S2x1x4096.size a
  hwx0_2 : ∀ i : grid0.Coords, EltTy.bits .f32 = 32 ∨ (Rect.block (s := S2x1x4096) S1x1x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x4096.size a ≤ S4096x4096.size a
  hwx1_0 : ∀ i : grid1.Coords, EltTy.bits .f32 = 32 ∨ (Rect.block (s := S4096x4096) S32x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x768.size a ≤ S256x768.size a
  hwx1_5 : ∀ i : grid1.Coords, EltTy.bits .bf16 = 32 ∨ (Rect.block (s := S256x768) S256x768.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x768.size a ≤ S1x768.size a
  hwx1_6 : ∀ i : grid1.Coords, EltTy.bits .f32 = 32 ∨ (Rect.block (s := S1x768) S1x768.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S32x256x16.size a ≤ S4096x256x16.size a
  hwx1_7 : ∀ i : grid1.Coords, EltTy.bits .f32 = 32 ∨ (Rect.block (s := S4096x256x16) S32x256x16.size (cc1_transform_7 i) (hinb1_7 i)).WholeWords (EltTy.packing .f32)

variable [Facts₀]

def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S32x16x256_S32x16x256_S32x256x256_1_1_2_2_0_0 : DotDims S32x16x256 S32x16x256 S32x256x256 where
  lhsContracting := [1]
  rhsContracting := [1]
  lhsNonContracting := [2]
  rhsNonContracting := [2]
  lhsBatch := [0]
  rhsBatch := [0]
  wf := dot_S32x16x256_S32x16x256_S32x256x256_1_1_2_2_0_0_wf
def dot_S32x256x256_S32x16x256_S32x256x16_2_2_1_1_0_0 : DotDims S32x256x256 S32x16x256 S32x256x16 where
  lhsContracting := [2]
  rhsContracting := [2]
  lhsNonContracting := [1]
  rhsNonContracting := [1]
  lhsBatch := [0]
  rhsBatch := [0]
  wf := dot_S32x256x256_S32x16x256_S32x256x16_2_2_1_1_0_0_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9_0) S1x1x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9_1) S1x1x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S32x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S256x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x768.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S32x256x16.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S256x256 : Shape := ⟨2, ![256, 256]⟩
abbrev S256 : Shape := ⟨1, ![256]⟩
abbrev S4096 : Shape := ⟨1, ![4096]⟩
abbrev S_ : Shape := ⟨0, ![]⟩
abbrev S1x4096 : Shape := ⟨2, ![1, 4096]⟩
abbrev S4096x16x256 : Shape := ⟨3, ![4096, 16, 256]⟩
abbrev S256x4096x16 : Shape := ⟨3, ![256, 4096, 16]⟩
abbrev S4096x256x16 : Shape := ⟨3, ![4096, 256, 16]⟩
abbrev S1x256x1 : Shape := ⟨3, ![1, 256, 1]⟩
abbrev S4096x256x256 : Shape := ⟨3, ![4096, 256, 256]⟩
abbrev S4096x256 : Shape := ⟨2, ![4096, 256]⟩
abbrev S4096x256x1 : Shape := ⟨3, ![4096, 256, 1]⟩

abbrev nBuf : Space → Nat
  | .hbm => 76
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S1x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S1x4096, .f32⟩
  | .hbm, ⟨31, _⟩ => ⟨S4096x4096, .f32⟩
  | .hbm, ⟨32, _⟩ => ⟨S4096x4096, .f32⟩
  | .hbm, ⟨33, _⟩ => ⟨S1x4096, .f32⟩
  | .hbm, ⟨34, _⟩ => ⟨S4096x4096, .f32⟩
  | .hbm, ⟨35, _⟩ => ⟨S4096x4096, .f32⟩
  | .hbm, ⟨36, _⟩ => ⟨S1x4096, .f32⟩
  | .hbm, ⟨37, _⟩ => ⟨S4096x4096, .f32⟩
  | .hbm, ⟨38, _⟩ => ⟨S4096x4096, .f32⟩
  | .hbm, ⟨39, _⟩ => ⟨S4096x16x256, .f32⟩
  | .hbm, ⟨40, _⟩ => ⟨S256x4096x16, .f32⟩
  | .hbm, ⟨41, _⟩ => ⟨S4096x256x16, .f32⟩
  | .hbm, ⟨42, _⟩ => ⟨S1x256x1, .f32⟩
  | .hbm, ⟨43, _⟩ => ⟨S4096x256x16, .f32⟩
  | .hbm, ⟨44, _⟩ => ⟨S4096x256x16, .f32⟩
  | .hbm, ⟨45, _⟩ => ⟨S256x4096x16, .f32⟩
  | .hbm, ⟨46, _⟩ => ⟨S4096x256x16, .f32⟩
  | .hbm, ⟨47, _⟩ => ⟨S1x256x1, .f32⟩
  | .hbm, ⟨48, _⟩ => ⟨S4096x256x16, .f32⟩
  | .hbm, ⟨49, _⟩ => ⟨S4096x256x16, .f32⟩
  | .hbm, ⟨50, _⟩ => ⟨S256x4096x16, .f32⟩
  | .hbm, ⟨51, _⟩ => ⟨S4096x256x16, .f32⟩
  | .hbm, ⟨52, _⟩ => ⟨S1x256x1, .f32⟩
  | .hbm, ⟨53, _⟩ => ⟨S4096x256x16, .f32⟩
  | .hbm, ⟨54, _⟩ => ⟨S4096x256x16, .f32⟩
  | .hbm, ⟨55, _⟩ => ⟨S4096x256x256, .f32⟩
  | .hbm, ⟨56, _⟩ => ⟨S_, .f32⟩
  | .hbm, ⟨57, _⟩ => ⟨S4096x256x256, .f32⟩
  | .hbm, ⟨58, _⟩ => ⟨S4096x256x256, .f32⟩
  | .hbm, ⟨59, _⟩ => ⟨S_, .f32⟩
  | .hbm, ⟨60, _⟩ => ⟨S4096x256, .f32⟩
  | .hbm, ⟨61, _⟩ => ⟨S_, .f32⟩
  | .hbm, ⟨62, _⟩ => ⟨S4096x256, .f32⟩
  | .hbm, ⟨63, _⟩ => ⟨S4096x256, .f32⟩
  | .hbm, ⟨64, _⟩ => ⟨S4096x256x1, .f32⟩
  | .hbm, ⟨65, _⟩ => ⟨S4096x256x256, .f32⟩
  | .hbm, ⟨66, _⟩ => ⟨S4096x256x256, .f32⟩
  | .hbm, ⟨67, _⟩ => ⟨S4096x256x256, .f32⟩
  | .hbm, ⟨68, _⟩ => ⟨S_, .f32⟩
  | .hbm, ⟨69, _⟩ => ⟨S4096x256, .f32⟩
  | .hbm, ⟨70, _⟩ => ⟨S4096x256x1, .f32⟩
  | .hbm, ⟨71, _⟩ => ⟨S4096x256x256, .f32⟩
  | .hbm, ⟨72, _⟩ => ⟨S4096x256x256, .f32⟩
  | .hbm, ⟨73, _⟩ => ⟨S4096x256x16, .f32⟩
  | .hbm, ⟨74, _⟩ => ⟨S4096x4096, .f32⟩
  | .hbm, ⟨75, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]

class Facts₀ : Prop where
  reducesTo_S4096x4096_S4096_d0 : S4096x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S4096x16x256 : S4096x4096.ShapeCasts S4096x16x256
  transposes_S256x4096x16_S4096x256x16_1_0_2 : S256x4096x16.Transposes [1, 0, 2] S4096x256x16
  bcast_S256_S1x256x1_1 : S256.BroadcastsInDim S1x256x1 (![1] : Fin 1 → Fin S1x256x1.rank)
  bcast_S1x256x1_S4096x256x16_0_1_2 : S1x256x1.BroadcastsInDim S4096x256x16 (![0, 1, 2] : Fin 3 → Fin S4096x256x16.rank)
  bcast_S_S4096x256x256 : S_.BroadcastsInDim S4096x256x256 (![] : Fin 0 → Fin S4096x256x256.rank)
  reducesTo_S4096x256x256_S4096x256_d2 : S4096x256x256.ReducesTo [2] S4096x256
  bcast_S_S4096x256 : S_.BroadcastsInDim S4096x256 (![] : Fin 0 → Fin S4096x256.rank)
  bcast_S4096x256_S4096x256x1_0_1 : S4096x256.BroadcastsInDim S4096x256x1 (![0, 1] : Fin 2 → Fin S4096x256x1.rank)
  bcast_S4096x256x1_S4096x256x256_0_1_2 : S4096x256x1.BroadcastsInDim S4096x256x256 (![0, 1, 2] : Fin 3 → Fin S4096x256x256.rank)
  shapeCasts_S4096x256x16_S4096x4096 : S4096x256x16.ShapeCasts S4096x4096
  dot_S256x256_S4096x16x256_S256x4096x16_1_2_0_01_n_n_wf : DotDims.WF S256x256 S4096x16x256 S256x4096x16 [1] [2] [0] [0, 1] [] []
  dot_S4096x256x16_S4096x256x16_S4096x256x256_2_2_1_1_0_0_wf : DotDims.WF S4096x256x16 S4096x256x16 S4096x256x256 [2] [2] [1] [1] [0] [0]
  dot_S4096x256x256_S4096x256x16_S4096x256x16_2_1_1_2_0_0_wf : DotDims.WF S4096x256x256 S4096x256x16 S4096x256x16 [2] [1] [1] [2] [0] [0]

variable [Facts₀]

def dot_S256x256_S4096x16x256_S256x4096x16_1_2_0_01_n_n : DotDims S256x256 S4096x16x256 S256x4096x16 where
  lhsContracting := [1]
  rhsContracting := [2]
  lhsNonContracting := [0]
  rhsNonContracting := [0, 1]
  lhsBatch := []
  rhsBatch := []
  wf := dot_S256x256_S4096x16x256_S256x4096x16_1_2_0_01_n_n_wf
def dot_S4096x256x16_S4096x256x16_S4096x256x256_2_2_1_1_0_0 : DotDims S4096x256x16 S4096x256x16 S4096x256x256 where
  lhsContracting := [2]
  rhsContracting := [2]
  lhsNonContracting := [1]
  rhsNonContracting := [1]
  lhsBatch := [0]
  rhsBatch := [0]
  wf := dot_S4096x256x16_S4096x256x16_S4096x256x256_2_2_1_1_0_0_wf
def dot_S4096x256x256_S4096x256x16_S4096x256x16_2_1_1_2_0_0 : DotDims S4096x256x256 S4096x256x16 S4096x256x16 where
  lhsContracting := [2]
  rhsContracting := [1]
  lhsNonContracting := [1]
  rhsNonContracting := [2]
  lhsBatch := [0]
  rhsBatch := [0]
  wf := dot_S4096x256x256_S4096x256x16_S4096x256x16_2_1_1_2_0_0_wf

class Facts : Prop extends Facts₀ where

variable [Facts]
-- ==== Proof.K.Stats.lean ====
import proofs.«113718_j18957985645187_2_alg».proof.Proof.Gen.Kernel.Launch
import proofs.«113718_j18957985645187_2_alg».proof.Proof.Gen.Kernel.Skeleton
import proofs.«113718_j18957985645187_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! # Region 0: the column statistics (pipeline 0, grid 2 × 4), at the entry contents `V`

Point `t` has coordinates `(t / 4, t % 4)`. Window 0 is the 512 × 4096 row block `4 · (t / 4) + t % 4` of the input, fetched at
every point. Windows 1 and 2 are the column sums and the column sums of squares of one half of the rows: accumulators, set to
zero at the first point of a row of the grid (`t % 4 = 0`), added to at every point, written back at the last (`t % 4 = 3`). -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is `V`'s and
    whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional, from the grid coordinates: the second coordinate is zero. -/
abbrev cond0_0 (i : grid0.Coords) : Prop := (Scalar.cmpi .ne (Scalar.extui (Scalar.cmpi .eq (BitVec.ofNat 32 (i 1).val) 0#32)) 0#32) = 1#1
/-- It holds at the first point of each row of the grid only — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs -/

/-- One staging buffer of each output window, through which its contents are stated (the choice does not matter). -/
abbrev VO0_1 : View sig .tc .vmem S1x1x4096 .f32 := (Memref.whole cc0_stg1_0 : Memref sig .tc .vmem S1x1x4096 .f32).view
abbrev VO0_2 : View sig .tc .vmem S1x1x4096 .f32 := (Memref.whole cc0_stg2_0 : Memref sig .tc .vmem S1x1x4096 .f32).view
/-- Each window's current staging memref at point `t`, spelled as the pipeline passes it, and its wholeness. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096 .f32 := win0_2.stage (cfg0.slots t 2)
abbrev hs0_2 (t : Fin cfg0.N) : (ms0_2 t).IsWhole := hstage0_2 ((cfg0.slots t 2).cast nbuf0_2)

/-! ## The body's triple, case by case -/

set_option maxHeartbeats 1000000 in
/-- CASE A (the condition holds: the accumulators are reset). What the body's stores leave in each accumulator's staging
    memref, as pieces (last first), with the proof that on whole staging memrefs — the input's at its block, the accumulators'
    at anything — the body runs to the continuation holding the input's as it was and each accumulator's with its pieces
    written. -/
noncomputable def kernelRun0_A (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : cond0_0 i)
    (x0 : Vec F S512x4096 .f32) :
    Σ' (L1 : List (View.Piece (Elt F) S1x1x4096 .f32)), { L2 : List (View.Piece (Elt F) S1x1x4096 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact H2

set_option maxHeartbeats 1000000 in
/-- CASE B (the condition fails: the accumulators carry on). The same, the accumulators' memrefs at their running contents
    `xo1`, `xo2`. -/
noncomputable def kernelRun0_B (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : ¬cond0_0 i)
    (x0 : Vec F S512x4096 .f32) (xo1 : Vec F S1x1x4096 .f32) (xo2 : Vec F S1x1x4096 .f32) :
    Σ' (L1 : List (View.Piece (Elt F) S1x1x4096 .f32)), { L2 : List (View.Piece (Elt F) S1x1x4096 .f32) //
      ∀ (E : Set ℕ) (K : PUnit → sProp 𝕄),
        iprop(owns (c : Thread nD τ) arg2 fullShare x0 ∗ owns (c : Thread nD τ) arg3 fullShare xo1 ∗ owns (c : Thread nD τ) arg4 fullShare xo2
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; iexact H1
    iexists _; iexact H2

/-! ## What each case leaves in the accumulators' buffers -/

/-- Case A's pieces for each accumulator tile its block, so they cover it. -/
theorem cover0_A_1 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : cond0_0 i)
    (x0 : Vec F S512x4096 .f32) (y : S1x1x4096.Idx) :
    ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S1x1x4096.size (by sl_kernel_rfl) y
theorem cover0_A_2 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : cond0_0 i)
    (x0 : Vec F S512x4096 .f32) (y : S1x1x4096.Idx) :
    ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S1x1x4096.size (by sl_kernel_rfl) y

/-- What case A leaves in each accumulator's staging buffer: its pieces read back over junk. -/
def out0_A_1 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : cond0_0 i)
    (x0 : Vec F S512x4096 .f32) : Vec F S1x1x4096 .f32 :=
  VO0_1.read (Elt F) (VO0_1.writes (Elt F) VO0_1.junk (kernelRun0_A c i arg2 harg2 arg3 harg3 arg4 harg4 hc0 x0).1)
def out0_A_2 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : cond0_0 i)
    (x0 : Vec F S512x4096 .f32) : Vec F S1x1x4096 .f32 :=
  VO0_2.read (Elt F) (VO0_2.writes (Elt F) VO0_2.junk (kernelRun0_A c i arg2 harg2 arg3 harg3 arg4 harg4 hc0 x0).2.1)

/-- Case B's pieces for each accumulator tile its block, so they cover it. -/
theorem cover0_B_1 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : ¬cond0_0 i)
    (x0 : Vec F S512x4096 .f32) (xo1 xo2 : Vec F S1x1x4096 .f32) (y : S1x1x4096.Idx) :
    ∃ pc ∈ (kernelRun0_B c i arg2 harg2 arg3 harg3 arg4 harg4 hc0 x0 xo1 xo2).1, y ∈ pc.1.set :=
  View.cover_of_tiledL (kernelRun0_B c i arg2 harg2 arg3 harg3 arg4 harg4 hc0 x0 xo1 xo2).1 S1x1x4096.size (by sl_kernel_rfl) y
theorem cover0_B_2 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : ¬cond0_0 i)
    (x0 : Vec F S512x4096 .f32) (xo1 xo2 : Vec F S1x1x4096 .f32) (y : S1x1x4096.Idx) :
    ∃ pc ∈ (kernelRun0_B c i arg2 harg2 arg3 harg3 arg4 harg4 hc0 x0 xo1 xo2).2.1, y ∈ pc.1.set :=
  View.cover_of_tiledL (kernelRun0_B c i arg2 harg2 arg3 harg3 arg4 harg4 hc0 x0 xo1 xo2).2.1 S1x1x4096.size (by sl_kernel_rfl) y

/-- What case B leaves in each accumulator's staging buffer: its pieces read back over junk. -/
def out0_B_1 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : ¬cond0_0 i)
    (x0 : Vec F S512x4096 .f32) (xo1 xo2 : Vec F S1x1x4096 .f32) : Vec F S1x1x4096 .f32 :=
  VO0_1.read (Elt F) (VO0_1.writes (Elt F) VO0_1.junk (kernelRun0_B c i arg2 harg2 arg3 harg3 arg4 harg4 hc0 x0 xo1 xo2).1)
def out0_B_2 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : ¬cond0_0 i)
    (x0 : Vec F S512x4096 .f32) (xo1 xo2 : Vec F S1x1x4096 .f32) : Vec F S1x1x4096 .f32 :=
  VO0_2.read (Elt F) (VO0_2.writes (Elt F) VO0_2.junk (kernelRun0_B c i arg2 harg2 arg3 harg3 arg4 harg4 hc0 x0 xo1 xo2).2.1)

/-! ## What the accumulators hold after each point -/

/-- The two accumulators after a point of case A: that case's contents, at the point's memrefs and input block. -/
def outA0 (c : Dev nD) (t : Fin cfg0.N) (h0 : t.val % 4 = 0) : Vec F S1x1x4096 .f32 × Vec F S1x1x4096 .f32 :=
  (out0_A_1 c (grid0.coords t) (ms0_0 t) (hs0_0 t) (ms0_1 t) (hs0_1 t) (ms0_2 t) (hs0_2 t) ((hcond0_0 t).mpr h0) (iblk0 V c 0 t),
   out0_A_2 c (grid0.coords t) (ms0_0 t) (hs0_0 t) (ms0_1 t) (hs0_1 t) (ms0_2 t) (hs0_2 t) ((hcond0_0 t).mpr h0) (iblk0 V c 0 t))
/-- The two accumulators after a point of case B: that case's contents, over what they held before (`xo1`, `xo2`). -/
def outB0 (c : Dev nD) (t : Fin cfg0.N) (h0 : ¬t.val % 4 = 0) (xo1 xo2 : Vec F S1x1x4096 .f32) : Vec F S1x1x4096 .f32 × Vec F S1x1x4096 .f32 :=
  (out0_B_1 c (grid0.coords t) (ms0_0 t) (hs0_0 t) (ms0_1 t) (hs0_1 t) (ms0_2 t) (hs0_2 t) (fun h => h0 ((hcond0_0 t).mp h)) (iblk0 V c 0 t) xo1 xo2,
   out0_B_2 c (grid0.coords t) (ms0_0 t) (hs0_0 t) (ms0_1 t) (hs0_1 t) (ms0_2 t) (hs0_2 t) (fun h => h0 ((hcond0_0 t).mp h)) (iblk0 V c 0 t) xo1 xo2)

/-- THE ACCUMULATION. What the two accumulators' staging buffers hold after the body at position `n`: at the first point of a
    row of the grid case A's contents; at any other case B's, over what this leaves at `n - 1` (the buffers are not
    written back between). -/
def outsAt0 (c : Dev nD) : (n : ℕ) → n < cfg0.N → Vec F S1x1x4096 .f32 × Vec F S1x1x4096 .f32
  | 0, hn => outA0 V c ⟨0, hn⟩ (Nat.zero_mod _)
  | n + 1, hn =>
    if h0 : (n + 1) % 4 = 0 then outA0 V c ⟨n + 1, hn⟩ h0
    else outB0 V c ⟨n + 1, hn⟩ h0 (outsAt0 c n (Nat.lt_of_succ_lt hn)).1 (outsAt0 c n (Nat.lt_of_succ_lt hn)).2

/-- `outsAt0` at a point of case A: that case's contents. -/
theorem outsAt0_A (c : Dev nD) (t : Fin cfg0.N) (h0 : t.val % 4 = 0) :
    outsAt0 V c t.val t.isLt = outA0 V c t h0 := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 V c t.val t.isLt = outB0 V c t h0
      (outsAt0 V c (t.val - 1) (Nat.lt_of_le_of_lt (Nat.sub_le _ _) t.isLt)).1
      (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at point `t` the
    input's buffer at its block and the accumulators' at `outsAt0`; the class's invariant (the scoped rest and the generator
    register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d
/-- At a point of case B each accumulator's current staging buffer holds what the body left at the point before: the point
    is not the first, the buffer was not written back between, the window is live and uncut. -/
theorem before0_1_B (c : Dev nD) (t : Fin cfg0.N) (h0 : ¬t.val % 4 = 0) (d) :
    (dat0 V c).before 1 t d = (outsAt0 V c (t.val - 1) (Nat.lt_of_le_of_lt (Nat.sub_le _ _) t.isLt)).1 := by
  have hN : t.val < 8 := lt_of_lt_of_eq t.isLt (show cfg0.N = 8 from N_0)
  rw [Dat.before_out_kept _ 1 rfl t (by omega) (Bool.eq_false_iff.mpr fun h => by have := (flush0_1 _).mp h; dsimp only at this; omega)
    (fun _ => rfl) (fun _ _ => rfl)]
  dsimp only [dat0]
theorem before0_2_B (c : Dev nD) (t : Fin cfg0.N) (h0 : ¬t.val % 4 = 0) (d) :
    (dat0 V c).before 2 t d = (outsAt0 V c (t.val - 1) (Nat.lt_of_le_of_lt (Nat.sub_le _ _) t.isLt)).2 := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The accumulators' buffers after a case, read through any view -/

/-- Whatever view the pieces of a case are written through, and over whatever contents, they read back as the case's
    contents: the pieces cover the block. -/
theorem read0_A_1 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : cond0_0 i)
    (x0 : Vec F S512x4096 .f32) (v : View sig .tc .vmem S1x1x4096 .f32) (f : v.ty.Contents (Elt F)) :
    v.read (Elt F) (v.writes (Elt F) f (kernelRun0_A c i arg2 harg2 arg3 harg3 arg4 harg4 hc0 x0).1) = out0_A_1 c i arg2 harg2 arg3 harg3 arg4 harg4 hc0 x0 :=
  View.read_writes_of_cover _ _ _ _ _ (cover0_A_1 c i arg2 harg2 arg3 harg3 arg4 harg4 hc0 x0)
theorem read0_A_2 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : cond0_0 i)
    (x0 : Vec F S512x4096 .f32) (v : View sig .tc .vmem S1x1x4096 .f32) (f : v.ty.Contents (Elt F)) :
    v.read (Elt F) (v.writes (Elt F) f (kernelRun0_A c i arg2 harg2 arg3 harg3 arg4 harg4 hc0 x0).2.1) = out0_A_2 c i arg2 harg2 arg3 harg3 arg4 harg4 hc0 x0 :=
  View.read_writes_of_cover _ _ _ _ _ (cover0_A_2 c i arg2 harg2 arg3 harg3 arg4 harg4 hc0 x0)
theorem read0_B_1 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : ¬cond0_0 i)
    (x0 : Vec F S512x4096 .f32) (xo1 xo2 : Vec F S1x1x4096 .f32) (v : View sig .tc .vmem S1x1x4096 .f32) (f : v.ty.Contents (Elt F)) :
    v.read (Elt F) (v.writes (Elt F) f (kernelRun0_B c i arg2 harg2 arg3 harg3 arg4 harg4 hc0 x0 xo1 xo2).1) = out0_B_1 c i arg2 harg2 arg3 harg3 arg4 harg4 hc0 x0 xo1 xo2 :=
  View.read_writes_of_cover _ _ _ _ _ (cover0_B_1 c i arg2 harg2 arg3 harg3 arg4 harg4 hc0 x0 xo1 xo2)
theorem read0_B_2 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : ¬cond0_0 i)
    (x0 : Vec F S512x4096 .f32) (xo1 xo2 : Vec F S1x1x4096 .f32) (v : View sig .tc .vmem S1x1x4096 .f32) (f : v.ty.Contents (Elt F)) :
    v.read (Elt F) (v.writes (Elt F) f (kernelRun0_B c i arg2 harg2 arg3 harg3 arg4 harg4 hc0 x0 xo1 xo2).2.1) = out0_B_2 c i arg2 harg2 arg3 harg3 arg4 harg4 hc0 x0 xo1 xo2 :=
  View.read_writes_of_cover _ _ _ _ _ (cover0_B_2 c i arg2 harg2 arg3 harg3 arg4 harg4 hc0 x0 xo1 xo2)

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
/-- The body at a point of case A: the input's memref holds its block, the accumulators' anything; case A's run applies; the
    invariant passes through unread; the core owes nothing throughout. -/
theorem sound_body0_A (c : Dev nD) (t : Fin cfg0.N) (h0 : t.val % 4 = 0) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, outsAt0_A V c t h0]
  unfold outA0
  dsimp only
  iintro ⟨HΦ, Ho, ⟨%d0, H0⟩, ⟨%d1, H1⟩, ⟨%d2, H2⟩⟩
  iapply ((kernelRun0_A c (grid0.coords t) _ _ _ _ _ _ ((hcond0_0 t).mpr h0) (iblk0 V c 0 t)).2.2 Set.univ _)
  isplitl [H0]; · iexact H0
  isplitl [H1]; · iexists _; iexact H1
  isplitl [H2]; · iexists _; iexact H2
  iintro ⟨H0, ⟨%e1, H1⟩, ⟨%e2, H2⟩⟩
  isplitl [HΦ]; · iexact HΦ
  isplitl [Ho]; · iexact Ho
  isplitl [H0]; · iexact H0
  unfold owns
  isplitl [H1]
  · iexists _; isplitr
    swap; · iexact H1
    ipureintro; exact read0_A_1 c _ _ _ _ _ _ _ _ _ _ _
  · iexists _; isplitr
    swap; · iexact H2
    ipureintro; exact read0_A_2 c _ _ _ _ _ _ _ _ _ _ _

set_option maxHeartbeats 1600000 in
/-- The body at a point of case B: each accumulator's memref holds what the point before left; case B's run applies. -/
theorem sound_body0_B (c : Dev nD) (t : Fin cfg0.N) (h0 : ¬t.val % 4 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1_B V c t h0, before0_2_B V c t h0]
  rw [show (dat0 V c).Φ t.succ = (dat0 V c).Φ t.castSucc from rfl,
    show (dat0 V c).owesAt () t.succ = (dat0 V c).owesAt () t.castSucc from rfl,
    after0_0, after0_1, after0_2, outsAt0_B V c t h0]
  unfold outB0
  dsimp only
  iintro ⟨HΦ, Ho, ⟨%d0, H0⟩, ⟨%d1, H1⟩, ⟨%d2, H2⟩⟩
  iapply ((kernelRun0_B c (grid0.coords t) _ _ _ _ _ _ (fun h => h0 ((hcond0_0 t).mp h)) (iblk0 V c 0 t) _ _).2.2 Set.univ _)
  isplitl [H0]; · iexact H0
  isplitl [H1]; · iexact H1
  isplitl [H2]; · iexact H2
  iintro ⟨H0, ⟨%e1, H1⟩, ⟨%e2, H2⟩⟩
  isplitl [HΦ]; · iexact HΦ
  isplitl [Ho]; · iexact Ho
  isplitl [H0]; · iexact H0
  unfold owns
  isplitl [H1]
  · iexists _; isplitr
    swap; · iexact H1
    ipureintro; exact read0_B_1 c _ _ _ _ _ _ _ _ _ _ _ _ _
  · iexists _; isplitr
    swap; · iexact H2
    ipureintro; exact read0_B_2 c _ _ _ _ _ _ _ _ _ _ _ _ _

/-- The body at any point: the closed form says which case the point is in. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 4 = 0
  · exact sound_body0_A V c t h0
  · exact sound_body0_B V c t h0

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Attn.lean ====
import proofs.«113718_j18957985645187_2_alg».proof.Proof.Gen.Kernel.Launch
import proofs.«113718_j18957985645187_2_alg».proof.Proof.Gen.Kernel.Skeleton
import proofs.«113718_j18957985645187_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (the attention kernel on its grid of 128 row blocks): the frame half

Every point of the grid reads its seven input windows whole — the 32×4096 row block of the input at
block index (t,0), and six whole arrays (mean, variance, scale, shift, the three projection weights side
by side, the three biases side by side) at block index 0 — and stores one whole 32×256×16 block, a pure
function of the seven blocks read. So the staging buffer of the output after the body is that function of
the input blocks, each input's buffer is left as found, and the body obligation follows at every point. -/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where it is not fetched the block
    index has not moved, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where it is not fetched the block
    index has not moved, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where it is not fetched the block
    index has not moved, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: where it is not fetched the block
    index has not moved, and the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: where it is not fetched the block
    index has not moved, and the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: where it is not fetched the block
    index has not moved, and the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: where it is not fetched the block
    index has not moved, and the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_0 : Rect S32x4096 := Rect.unit (s := S32x4096) ![0, 0] S32x4096.size inb_S32x4096_S32x4096_0_0
abbrev r1_1 : Rect S1x4096 := Rect.unit (s := S1x4096) ![0, 0] S1x4096.size inb_S1x4096_S1x4096_0_0
abbrev r1_2 : Rect S256x768 := Rect.unit (s := S256x768) ![0, 0] S256x768.size inb_S256x768_S256x768_0_0
abbrev r1_3 : Rect S1x768 := Rect.unit (s := S1x768) ![0, 0] S1x768.size inb_S1x768_S1x768_0_0
abbrev r1_4 : Rect S32x256x16 := Rect.unit (s := S32x256x16) ![0, 0, 0] S32x256x16.size inb_S32x256x16_S32x256x16_0_0_0

/-! ## What the body leaves in the output window's buffer -/

/-- Window 7's staging buffer after the body, from the input windows' blocks: its one store, of the whole block. -/
def out1_7 (x0 : Vec F S32x4096 .f32) (x1 : Vec F S1x4096 .f32) (x2 : Vec F S1x4096 .f32) (x3 : Vec F S1x4096 .f32) (x4 : Vec F S1x4096 .f32) (x5 : Vec F S256x768 .bf16) (x6 : Vec F S1x768 .f32) : Vec F S32x256x16 .f32 :=
  View.canon [⟨r1_4, k1_pay1 (k1_pay3 (View.ld x0 r1_0) (View.ld x1 r1_1) (View.ld x2 r1_1) (View.ld x3 r1_1) (View.ld x4 r1_1) (View.ld x5 r1_2) (View.ld x6 r1_3)) (k1_pay4 (View.ld x0 r1_0) (View.ld x1 r1_1) (View.ld x2 r1_1) (View.ld x3 r1_1) (View.ld x4 r1_1) (View.ld x5 r1_2) (View.ld x6 r1_3))⟩]

/-- The store's rectangle is the whole buffer, so it covers it. -/
theorem cover1_7 (p0 : Vec F S32x256x16 .f32) (y : S32x256x16.Idx) :
    ∃ pc ∈ ([⟨r1_4, p0⟩] : List (View.Piece (Elt F) S32x256x16 .f32)), y ∈ pc.1.set :=
  View.cover_of_tiled [⟨r1_4, p0⟩] S32x256x16.size (by rfl) y

/-! ## The body's triple -/

set_option maxHeartbeats 4000000 in
/-- The kernel body on whole staging memrefs, the inputs' at read contents `xW` and the output's at anything, runs to
    the continuation holding the inputs' as they were and the output's at `out1_7` of the inputs'. -/
theorem sound_kernel1 (c : Dev nD) (E : Set ℕ) (i : grid1.Coords) (arg1 : Memref sig .tc .vmem S32x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S256x768 .bf16) (harg6 : arg6.IsWhole) (arg7 : Memref sig .tc .vmem S1x768 .f32) (harg7 : arg7.IsWhole) (arg8 : Memref sig .tc .vmem S32x256x16 .f32) (harg8 : arg8.IsWhole)
    (x0 : Vec F S32x4096 .f32) (x1 : Vec F S1x4096 .f32) (x2 : Vec F S1x4096 .f32) (x3 : Vec F S1x4096 .f32) (x4 : Vec F S1x4096 .f32) (x5 : Vec F S256x768 .bf16) (x6 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__attn_kernel i arg1 harg1 arg2 harg2 arg3 harg3 arg4 harg4 arg5 harg5 arg6 harg6 arg7 harg7 arg8 harg8) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The pipeline's proof data -/

/-- The proof data of the pipeline on core `c`: the arrays as the region finds them (`V`); after the body at
    point `t` each input's buffer at its block and the output's at `out1_7` of the input blocks; the class's
    invariant (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of the kernel's program: its @main is three stretches of host operations around two kernel regions (the batch statistics, then
  the attention). What every unscoped buffer holds at each boundary between two items is a fold from the launch memory — a stretch applies
  its operations; a region leaves its arrays at what its write-backs leave and every other buffer alone. Each item is a segment over the
  thread state "every unscoped buffer at the boundary's contents, the generator register at some state, nothing owed", and the launch
  theorem for a list of segments gives: every weakly fair execution terminates, nothing faulting, and at the end every unscoped buffer
  holds the last boundary's contents. The frame claim (the arguments end as launched) and the program's result are read off that.
-/
import proofs.«113718_j18957985645187_2_alg».proof.Proof.Gen.Kernel.Regions
import proofs.«113718_j18957985645187_2_alg».proof.Proof.K.Stats
import proofs.«113718_j18957985645187_2_alg».proof.Proof.K.Attn

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: three stretches of host operations around the two kernel regions

## What every unscoped buffer holds at each boundary between two items of @main -/

/-- Core `c`'s buffers at launch. -/
abbrev bnd0 : Dev nD → Valuation τ sig (Elt F) := fun c b => (s₀ m ρ).mem ((c : Dev nD), b)
/-- After the first stretch of host operations (the statistics kernel's entry). -/
abbrev bnd1 : Dev nD → Valuation τ sig (Elt F) := fun c => StableHlo.after hostOps0 (bnd0 m ρ c)
/-- The same read at the TensorCore's references: what the statistics kernel finds. -/
abbrev ent0 : (c : Dev nD) → (b : Ref sig .tc) → Buf (Elt F) ((c : Thread nD τ).loc b) := fun c b => bnd1 m ρ c b
/-- At the statistics kernel's exit: its arrays at what its write-backs leave, every other buffer as entered. -/
def bnd2 (c : Dev nD) : Valuation τ sig (Elt F) :=
  Pipeline.withArrays spec0 c (bnd1 m ρ c) fun w => (dat0 (ent0 m ρ) c).arrAt w cfg0.N
theorem bnd2_arr (c : Dev nD) (w : Fin cfg0.W) :
    bnd2 m ρ c (Proc.devRef .tc (Pipeline.arrRef spec0 w)) = (dat0 (ent0 m ρ) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m ρ c (Proc.devRef .tc b) = bnd1 m ρ c (Proc.devRef .tc b) := by
  unfold bnd2; exact Pipeline.withArrays_of_ne spec0 c _ _ b hb
abbrev ext0 : (c : Dev nD) → (b : Ref sig .tc) → Buf (Elt F) ((c : Thread nD τ).loc b) := fun c b => bnd2 m ρ c b
theorem hF0 (c : Dev nD) (w : Fin cfg0.W) : (dat0 (ent0 m ρ) c).arrAt w cfg0.N = ext0 m ρ c (Pipeline.arrRef spec0 w) :=
  (bnd2_arr m ρ c w).symm
theorem hrest0 (c : Dev nD) : ∀ b, b ∉ Finset.univ.image (Pipeline.arrRef spec0) → ext0 m ρ c b = ent0 m ρ c b :=
  fun b hb => bnd2_of_ne m ρ c b fun w e => hb (Finset.mem_image.mpr ⟨w, Finset.mem_univ _, e⟩)

/-- After the second stretch of host operations (the attention kernel's entry). -/
abbrev bnd3 : Dev nD → Valuation τ sig (Elt F) := fun c => StableHlo.after hostOps1 (bnd2 m ρ c)
abbrev ent1 : (c : Dev nD) → (b : Ref sig .tc) → Buf (Elt F) ((c : Thread nD τ).loc b) := fun c b => bnd3 m ρ c b
/-- At the attention kernel's exit. -/
def bnd4 (c : Dev nD) : Valuation τ sig (Elt F) :=
  Pipeline.withArrays spec1 c (bnd3 m ρ c) fun w => (dat1 (ent1 m ρ) c).arrAt w cfg1.N
theorem bnd4_arr (c : Dev nD) (w : Fin cfg1.W) :
    bnd4 m ρ c (Proc.devRef .tc (Pipeline.arrRef spec1 w)) = (dat1 (ent1 m ρ) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m ρ c (Proc.devRef .tc b) = bnd3 m ρ c (Proc.devRef .tc b) := by
  unfold bnd4; exact Pipeline.withArrays_of_ne spec1 c _ _ b hb
abbrev ext1 : (c : Dev nD) → (b : Ref sig .tc) → Buf (Elt F) ((c : Thread nD τ).loc b) := fun c b => bnd4 m ρ c b
theorem hF1 (c : Dev nD) (w : Fin cfg1.W) : (dat1 (ent1 m ρ) c).arrAt w cfg1.N = ext1 m ρ c (Pipeline.arrRef spec1 w) :=
  (bnd4_arr m ρ c w).symm
theorem hrest1 (c : Dev nD) : ∀ b, b ∉ Finset.univ.image (Pipeline.arrRef spec1) → ext1 m ρ c b = ent1 m ρ c b :=
  fun b hb => bnd4_of_ne m ρ c b fun w e => hb (Finset.mem_image.mpr ⟨w, Finset.mem_univ _, e⟩)
/-- After the last stretch of host operations: what the program returns with. -/
abbrev bnd5 : Dev nD → Valuation τ sig (Elt F) := fun c => StableHlo.after hostOps2 (bnd4 m ρ c)

/-! ### An argument array ends as launched: no host operation writes one; a region reads `main_arg0` through an input
    window (which the pipeline leaves as entered) and bypasses the others -/

theorem bnd1_of (c : Dev nD) (r : Ref sig .tc) (h : r ∉ hostOps0_W) : bnd1 m ρ c r = bnd0 m ρ c r :=
  StableHlo.after_of_writes_sub hostOps0 _ hostOps0_writes h
theorem bnd3_of (c : Dev nD) (r : Ref sig .tc) (h : r ∉ hostOps1_W) : bnd3 m ρ c r = bnd2 m ρ c r :=
  StableHlo.after_of_writes_sub hostOps1 _ hostOps1_writes h
theorem bnd5_of (c : Dev nD) (r : Ref sig .tc) (h : r ∉ hostOps2_W) : bnd5 m ρ c r = bnd4 m ρ c r :=
  StableHlo.after_of_writes_sub hostOps2 _ hostOps2_writes h

/-- An array no window of either region names and no host operation writes holds its launch contents at the end. -/
theorem bnd5_untouched (c : Dev nD) (r : Ref sig .tc) (h0 : r ∉ hostOps0_W) (h1 : r ∉ hostOps1_W) (h2 : r ∉ hostOps2_W)
    (hw0 : ∀ w, Pipeline.arrRef spec0 w ≠ r) (hw1 : ∀ w, Pipeline.arrRef spec1 w ≠ r) :
    bnd5 m ρ c r = m ((c : Thread nD τ).loc r) :=
  (bnd5_of m ρ c r h2).trans <| (bnd4_of_ne m ρ c r hw1).trans <| (bnd3_of m ρ c r h1).trans <|
    (bnd2_of_ne m ρ c r hw0).trans <| (bnd1_of m ρ c r h0).trans rfl

theorem bnd5_main_arg0 (c : Dev nD) : bnd5 m ρ c main_arg0 = m ((c : Thread nD τ).loc main_arg0) :=
  calc bnd5 m ρ c main_arg0
    _ = bnd4 m ρ c main_arg0 := bnd5_of m ρ c main_arg0 (by decide)
    _ = bnd3 m ρ c main_arg0 := (bnd4_arr m ρ c 0).trans (((dat1 (ent1 m ρ) c).arrAt_in 0 rfl _).trans (A_eq1 (ent1 m ρ) c 0))
    _ = bnd2 m ρ c main_arg0 := bnd3_of m ρ c main_arg0 (by decide)
    _ = bnd1 m ρ c main_arg0 := (bnd2_arr m ρ c 0).trans (((dat0 (ent0 m ρ) c).arrAt_in 0 rfl _).trans (A_eq0 (ent0 m ρ) c 0))
    _ = bnd0 m ρ c main_arg0 := bnd1_of m ρ c main_arg0 (by decide)
    _ = m ((c : Thread nD τ).loc main_arg0) := rfl
theorem bnd5_main_arg1 (c : Dev nD) : bnd5 m ρ c main_arg1 = m ((c : Thread nD τ).loc main_arg1) :=
  bnd5_untouched m ρ c main_arg1 (by decide) (by decide) (by decide) (by decide) (by decide)
theorem bnd5_main_arg2 (c : Dev nD) : bnd5 m ρ c main_arg2 = m ((c : Thread nD τ).loc main_arg2) :=
  bnd5_untouched m ρ c main_arg2 (by decide) (by decide) (by decide) (by decide) (by decide)
theorem bnd5_main_arg3 (c : Dev nD) : bnd5 m ρ c main_arg3 = m ((c : Thread nD τ).loc main_arg3) :=
  bnd5_untouched m ρ c main_arg3 (by decide) (by decide) (by decide) (by decide) (by decide)
theorem bnd5_main_arg4 (c : Dev nD) : bnd5 m ρ c main_arg4 = m ((c : Thread nD τ).loc main_arg4) :=
  bnd5_untouched m ρ c main_arg4 (by decide) (by decide) (by decide) (by decide) (by decide)
theorem bnd5_main_arg5 (c : Dev nD) : bnd5 m ρ c main_arg5 = m ((c : Thread nD τ).loc main_arg5) :=
  bnd5_untouched m ρ c main_arg5 (by decide) (by decide) (by decide) (by decide) (by decide)
theorem bnd5_main_arg6 (c : Dev nD) : bnd5 m ρ c main_arg6 = m ((c : Thread nD τ).loc main_arg6) :=
  bnd5_untouched m ρ c main_arg6 (by decide) (by decide) (by decide) (by decide) (by decide)
theorem bnd5_main_arg7 (c : Dev nD) : bnd5 m ρ c main_arg7 = m ((c : Thread nD τ).loc main_arg7) :=
  bnd5_untouched m ρ c main_arg7 (by decide) (by decide) (by decide) (by decide) (by decide)
theorem bnd5_main_arg8 (c : Dev nD) : bnd5 m ρ c main_arg8 = m ((c : Thread nD τ).loc main_arg8) :=
  bnd5_untouched m ρ c main_arg8 (by decide) (by decide) (by decide) (by decide) (by decide)

/-! ## The proof data family and the thread state -/

/-- No pipeline has a prefetched table. -/
abbrev admH : (p : Fin 2) → (pcfgs (F := F) p).Adm := fun p => (cfgs p).toPCfg_adm
/-- Each pipeline's proof data at its region's entry contents: a literal match on the pipeline's number. -/
def pdats : (p : Fin 2) → (c : Dev nD) → Dat τ (Elt F) Unit ℕ (UR sig nD τ) ℕ (Pipeline.pin (pcfgs (F := F)) admH p) c
  | ⟨0, _⟩ => fun c => dat0 (ent0 m ρ) c
  | ⟨1, _⟩ => fun c => dat1 (ent1 m ρ) c
abbrev 𝒱H : Variants := Variants.none
/-- No core owes another anything. -/
abbrev LH : GSem nD τ sig → Finset Unit := fun _ => ∅
abbrev lvH : GSem nD τ sig → Unit → ℕ := fun _ _ => 0
/-- What rides beside the buffers through every item: the generator register at some state, and nothing owed. -/
abbrev RH (c : Dev nD) : sProp 𝕄 := iprop((∃ r, prngReg c r) ∗ ∃ W, owes (c : Thread nD τ) (0 : CellTallies nD τ sig Unit) W)
/-- A stretch of host operations as a segment from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (bnd5 m ρ c) ∗ ∃ r, prngReg c r)

/-! ## The regions as segments -/

set_option backward.isDefEq.respectTransparency.types false in
/-- The statistics kernel's region: entered from every unscoped buffer at `bnd1`, left at `bnd2`. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (ent0 m ρ) c).loose
  hwaits := Pipeline.hwaits_of_owed_zero _ _ _ _ LH lvH 0 fun _ _ => rfl
  pre c := iprop(StableHlo.held (c : Thread nD τ) (Pipeline.ucRefs τ sig) (bnd1 m ρ c) ∗ RH c)
  post c := iprop(StableHlo.held (c : Thread nD τ) (Pipeline.ucRefs τ sig) (bnd2 m ρ c) ∗ RH c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (ent0 m ρ c) (ext0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel's region: entered from every unscoped buffer at `bnd3`, left at `bnd4`. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (ent1 m ρ) c).loose
  hwaits := Pipeline.hwaits_of_owed_zero _ _ _ _ LH lvH 1 fun _ _ => rfl
  pre c := iprop(StableHlo.held (c : Thread nD τ) (Pipeline.ucRefs τ sig) (bnd3 m ρ c) ∗ RH c)
  post c := iprop(StableHlo.held (c : Thread nD τ) (Pipeline.ucRefs τ sig) (bnd4 m ρ c) ∗ RH c)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (ent1 m ρ c) (ext1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev segsH : List (Pipeline.Seg (pcfgs (F := F)) admH (pdats m ρ) () defs₀ 𝒱H LH lvH) :=
  [ .host (hsegH hostOps0 hostOps0_sub hostOps0_fresh (bnd0 m ρ)),
    .region (reg0 m ρ),
    .host (hsegH hostOps1 hostOps1_sub hostOps1_fresh (bnd2 m ρ)),
    .region (reg1 m ρ),
    .host (hsegH hostOps2 hostOps2_sub hostOps2_fresh (bnd4 m ρ)) ]
/-- @main is the run of the segments. -/
theorem main_run (c : Dev nD) : main (F := F) c = Pipeline.Seg.run (segsH m ρ) := (main_chain c).trans (by chain_rfl)

set_option backward.isDefEq.respectTransparency.types false in
/-- THE RUN: from any memory with zero counters every weakly fair execution of @main on the TensorCores terminates, nothing
    faulting, and in every final state each unscoped buffer holds the last boundary's contents `bnd5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bnd5 m ρ c b) :=
  Pipeline.θ_run_regions_kit (pcfgs (F := F)) admH (pdats m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m ρ c) ∗ RH c)) (Tₙ := TnH m ρ)
    (hch := ⟨fun _ => .rfl, fun _ => .rfl, fun _ => .rfl, fun _ => .rfl, fun _ => .rfl, fun c => by
      show iprop(StableHlo.held (c : Thread nD τ) (Pipeline.ucRefs τ sig) (bnd5 m ρ c) ∗ RH c)
        ⊢ iprop(TnH m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (bnd0 m ρ c)
        from Pipeline.unscopedBufs_held c (bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd5 m ρ c b)
    (hfin := fun c s' => by
      iintro ⟨⟨Hh, -⟩, HSI⟩
      unfold StableHlo.held
      imodintro
      iapply (pointsTo_read_all (Pipeline.ucRefs τ sig) (fun b => (((c : Thread nD τ)).1, b)) (bnd5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (bnd5_main_arg0 m ρ c),
     (h c _ (mem_uc main_arg1 (by decide))).trans (bnd5_main_arg1 m ρ c),
     (h c _ (mem_uc main_arg2 (by decide))).trans (bnd5_main_arg2 m ρ c),
     (h c _ (mem_uc main_arg3 (by decide))).trans (bnd5_main_arg3 m ρ c),
     (h c _ (mem_uc main_arg4 (by decide))).trans (bnd5_main_arg4 m ρ c),
     (h c _ (mem_uc main_arg5 (by decide))).trans (bnd5_main_arg5 m ρ c),
     (h c _ (mem_uc main_arg6 (by decide))).trans (bnd5_main_arg6 m ρ c),
     (h c _ (mem_uc main_arg7 (by decide))).trans (bnd5_main_arg7 m ρ c),
     (h c _ (mem_uc main_arg8 (by decide))).trans (bnd5_main_arg8 m ρ c)⟩) (run_all m ρ)

end Cert.Kernel.Hand

end
-- ==== Proof.KI.Stats.lean ====
import proofs.«113718_j18957985645187_2_alg».proof.Proof.Gen.KernelIdeal.Launch
import proofs.«113718_j18957985645187_2_alg».proof.Proof.Gen.KernelIdeal.Skeleton
import proofs.«113718_j18957985645187_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! # Region 0: the column statistics (pipeline 0, grid 2 × 4), at the entry contents `V`

Point `t` has coordinates `(t / 4, t % 4)`. Window 0 is the 512 × 4096 row block `4 · (t / 4) + t % 4` of the input, fetched at
every point. Windows 1 and 2 are the column sums and the column sums of squares of one half of the rows: accumulators, set to
zero at the first point of a row of the grid (`t % 4 = 0`), added to at every point, written back at the last (`t % 4 = 3`). -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is `V`'s and
    whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional, from the grid coordinates: the second coordinate is zero. -/
abbrev cond0_0 (i : grid0.Coords) : Prop := (Scalar.cmpi .ne (Scalar.extui (Scalar.cmpi .eq (BitVec.ofNat 32 (i 1).val) 0#32)) 0#32) = 1#1
/-- It holds at the first point of each row of the grid only — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs -/

/-- One staging buffer of each output window, through which its contents are stated (the choice does not matter). -/
abbrev VO0_1 : View sig .tc .vmem S1x1x4096 .f32 := (Memref.whole cc0_stg1_0 : Memref sig .tc .vmem S1x1x4096 .f32).view
abbrev VO0_2 : View sig .tc .vmem S1x1x4096 .f32 := (Memref.whole cc0_stg2_0 : Memref sig .tc .vmem S1x1x4096 .f32).view
/-- Each window's current staging memref at point `t`, spelled as the pipeline passes it, and its wholeness. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096 .f32 := win0_2.stage (cfg0.slots t 2)
abbrev hs0_2 (t : Fin cfg0.N) : (ms0_2 t).IsWhole := hstage0_2 ((cfg0.slots t 2).cast nbuf0_2)

/-! ## The body's triple, case by case -/

set_option maxHeartbeats 1000000 in
/-- CASE A (the condition holds: the accumulators are reset). What the body's stores leave in each accumulator's staging
    memref, as pieces (last first), with the proof that on whole staging memrefs — the input's at its block, the accumulators'
    at anything — the body runs to the continuation holding the input's as it was and each accumulator's with its pieces
    written. -/
noncomputable def kernelRun0_A (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : cond0_0 i)
    (x0 : Vec F S512x4096 .f32) :
    Σ' (L1 : List (View.Piece (Elt F) S1x1x4096 .f32)), { L2 : List (View.Piece (Elt F) S1x1x4096 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact H2

set_option maxHeartbeats 1000000 in
/-- CASE B (the condition fails: the accumulators carry on). The same, the accumulators' memrefs at their running contents
    `xo1`, `xo2`. -/
noncomputable def kernelRun0_B (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : ¬cond0_0 i)
    (x0 : Vec F S512x4096 .f32) (xo1 : Vec F S1x1x4096 .f32) (xo2 : Vec F S1x1x4096 .f32) :
    Σ' (L1 : List (View.Piece (Elt F) S1x1x4096 .f32)), { L2 : List (View.Piece (Elt F) S1x1x4096 .f32) //
      ∀ (E : Set ℕ) (K : PUnit → sProp 𝕄),
        iprop(owns (c : Thread nD τ) arg2 fullShare x0 ∗ owns (c : Thread nD τ) arg3 fullShare xo1 ∗ owns (c : Thread nD τ) arg4 fullShare xo2
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; iexact H1
    iexists _; iexact H2

/-! ## What each case leaves in the accumulators' buffers -/

/-- Case A's pieces for each accumulator tile its block, so they cover it. -/
theorem cover0_A_1 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : cond0_0 i)
    (x0 : Vec F S512x4096 .f32) (y : S1x1x4096.Idx) :
    ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S1x1x4096.size (by sl_kernel_rfl) y
theorem cover0_A_2 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : cond0_0 i)
    (x0 : Vec F S512x4096 .f32) (y : S1x1x4096.Idx) :
    ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S1x1x4096.size (by sl_kernel_rfl) y

/-- What case A leaves in each accumulator's staging buffer: its pieces read back over junk. -/
def out0_A_1 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : cond0_0 i)
    (x0 : Vec F S512x4096 .f32) : Vec F S1x1x4096 .f32 :=
  VO0_1.read (Elt F) (VO0_1.writes (Elt F) VO0_1.junk (kernelRun0_A c i arg2 harg2 arg3 harg3 arg4 harg4 hc0 x0).1)
def out0_A_2 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : cond0_0 i)
    (x0 : Vec F S512x4096 .f32) : Vec F S1x1x4096 .f32 :=
  VO0_2.read (Elt F) (VO0_2.writes (Elt F) VO0_2.junk (kernelRun0_A c i arg2 harg2 arg3 harg3 arg4 harg4 hc0 x0).2.1)

/-- Case B's pieces for each accumulator tile its block, so they cover it. -/
theorem cover0_B_1 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : ¬cond0_0 i)
    (x0 : Vec F S512x4096 .f32) (xo1 xo2 : Vec F S1x1x4096 .f32) (y : S1x1x4096.Idx) :
    ∃ pc ∈ (kernelRun0_B c i arg2 harg2 arg3 harg3 arg4 harg4 hc0 x0 xo1 xo2).1, y ∈ pc.1.set :=
  View.cover_of_tiledL (kernelRun0_B c i arg2 harg2 arg3 harg3 arg4 harg4 hc0 x0 xo1 xo2).1 S1x1x4096.size (by sl_kernel_rfl) y
theorem cover0_B_2 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : ¬cond0_0 i)
    (x0 : Vec F S512x4096 .f32) (xo1 xo2 : Vec F S1x1x4096 .f32) (y : S1x1x4096.Idx) :
    ∃ pc ∈ (kernelRun0_B c i arg2 harg2 arg3 harg3 arg4 harg4 hc0 x0 xo1 xo2).2.1, y ∈ pc.1.set :=
  View.cover_of_tiledL (kernelRun0_B c i arg2 harg2 arg3 harg3 arg4 harg4 hc0 x0 xo1 xo2).2.1 S1x1x4096.size (by sl_kernel_rfl) y

/-- What case B leaves in each accumulator's staging buffer: its pieces read back over junk. -/
def out0_B_1 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : ¬cond0_0 i)
    (x0 : Vec F S512x4096 .f32) (xo1 xo2 : Vec F S1x1x4096 .f32) : Vec F S1x1x4096 .f32 :=
  VO0_1.read (Elt F) (VO0_1.writes (Elt F) VO0_1.junk (kernelRun0_B c i arg2 harg2 arg3 harg3 arg4 harg4 hc0 x0 xo1 xo2).1)
def out0_B_2 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : ¬cond0_0 i)
    (x0 : Vec F S512x4096 .f32) (xo1 xo2 : Vec F S1x1x4096 .f32) : Vec F S1x1x4096 .f32 :=
  VO0_2.read (Elt F) (VO0_2.writes (Elt F) VO0_2.junk (kernelRun0_B c i arg2 harg2 arg3 harg3 arg4 harg4 hc0 x0 xo1 xo2).2.1)

/-! ## What the accumulators hold after each point -/

/-- The two accumulators after a point of case A: that case's contents, at the point's memrefs and input block. -/
def outA0 (c : Dev nD) (t : Fin cfg0.N) (h0 : t.val % 4 = 0) : Vec F S1x1x4096 .f32 × Vec F S1x1x4096 .f32 :=
  (out0_A_1 c (grid0.coords t) (ms0_0 t) (hs0_0 t) (ms0_1 t) (hs0_1 t) (ms0_2 t) (hs0_2 t) ((hcond0_0 t).mpr h0) (iblk0 V c 0 t),
   out0_A_2 c (grid0.coords t) (ms0_0 t) (hs0_0 t) (ms0_1 t) (hs0_1 t) (ms0_2 t) (hs0_2 t) ((hcond0_0 t).mpr h0) (iblk0 V c 0 t))
/-- The two accumulators after a point of case B: that case's contents, over what they held before (`xo1`, `xo2`). -/
def outB0 (c : Dev nD) (t : Fin cfg0.N) (h0 : ¬t.val % 4 = 0) (xo1 xo2 : Vec F S1x1x4096 .f32) : Vec F S1x1x4096 .f32 × Vec F S1x1x4096 .f32 :=
  (out0_B_1 c (grid0.coords t) (ms0_0 t) (hs0_0 t) (ms0_1 t) (hs0_1 t) (ms0_2 t) (hs0_2 t) (fun h => h0 ((hcond0_0 t).mp h)) (iblk0 V c 0 t) xo1 xo2,
   out0_B_2 c (grid0.coords t) (ms0_0 t) (hs0_0 t) (ms0_1 t) (hs0_1 t) (ms0_2 t) (hs0_2 t) (fun h => h0 ((hcond0_0 t).mp h)) (iblk0 V c 0 t) xo1 xo2)

/-- THE ACCUMULATION. What the two accumulators' staging buffers hold after the body at position `n`: at the first point of a
    row of the grid case A's contents; at any other case B's, over what this leaves at `n - 1` (the buffers are not
    written back between). -/
def outsAt0 (c : Dev nD) : (n : ℕ) → n < cfg0.N → Vec F S1x1x4096 .f32 × Vec F S1x1x4096 .f32
  | 0, hn => outA0 V c ⟨0, hn⟩ (Nat.zero_mod _)
  | n + 1, hn =>
    if h0 : (n + 1) % 4 = 0 then outA0 V c ⟨n + 1, hn⟩ h0
    else outB0 V c ⟨n + 1, hn⟩ h0 (outsAt0 c n (Nat.lt_of_succ_lt hn)).1 (outsAt0 c n (Nat.lt_of_succ_lt hn)).2

/-- `outsAt0` at a point of case A: that case's contents. -/
theorem outsAt0_A (c : Dev nD) (t : Fin cfg0.N) (h0 : t.val % 4 = 0) :
    outsAt0 V c t.val t.isLt = outA0 V c t h0 := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 V c t.val t.isLt = outB0 V c t h0
      (outsAt0 V c (t.val - 1) (Nat.lt_of_le_of_lt (Nat.sub_le _ _) t.isLt)).1
      (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at point `t` the
    input's buffer at its block and the accumulators' at `outsAt0`; the class's invariant (the scoped rest and the generator
    register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d
/-- At a point of case B each accumulator's current staging buffer holds what the body left at the point before: the point
    is not the first, the buffer was not written back between, the window is live and uncut. -/
theorem before0_1_B (c : Dev nD) (t : Fin cfg0.N) (h0 : ¬t.val % 4 = 0) (d) :
    (dat0 V c).before 1 t d = (outsAt0 V c (t.val - 1) (Nat.lt_of_le_of_lt (Nat.sub_le _ _) t.isLt)).1 := by
  have hN : t.val < 8 := lt_of_lt_of_eq t.isLt (show cfg0.N = 8 from N_0)
  rw [Dat.before_out_kept _ 1 rfl t (by omega) (Bool.eq_false_iff.mpr fun h => by have := (flush0_1 _).mp h; dsimp only at this; omega)
    (fun _ => rfl) (fun _ _ => rfl)]
  dsimp only [dat0]
theorem before0_2_B (c : Dev nD) (t : Fin cfg0.N) (h0 : ¬t.val % 4 = 0) (d) :
    (dat0 V c).before 2 t d = (outsAt0 V c (t.val - 1) (Nat.lt_of_le_of_lt (Nat.sub_le _ _) t.isLt)).2 := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The accumulators' buffers after a case, read through any view -/

/-- Whatever view the pieces of a case are written through, and over whatever contents, they read back as the case's
    contents: the pieces cover the block. -/
theorem read0_A_1 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : cond0_0 i)
    (x0 : Vec F S512x4096 .f32) (v : View sig .tc .vmem S1x1x4096 .f32) (f : v.ty.Contents (Elt F)) :
    v.read (Elt F) (v.writes (Elt F) f (kernelRun0_A c i arg2 harg2 arg3 harg3 arg4 harg4 hc0 x0).1) = out0_A_1 c i arg2 harg2 arg3 harg3 arg4 harg4 hc0 x0 :=
  View.read_writes_of_cover _ _ _ _ _ (cover0_A_1 c i arg2 harg2 arg3 harg3 arg4 harg4 hc0 x0)
theorem read0_A_2 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : cond0_0 i)
    (x0 : Vec F S512x4096 .f32) (v : View sig .tc .vmem S1x1x4096 .f32) (f : v.ty.Contents (Elt F)) :
    v.read (Elt F) (v.writes (Elt F) f (kernelRun0_A c i arg2 harg2 arg3 harg3 arg4 harg4 hc0 x0).2.1) = out0_A_2 c i arg2 harg2 arg3 harg3 arg4 harg4 hc0 x0 :=
  View.read_writes_of_cover _ _ _ _ _ (cover0_A_2 c i arg2 harg2 arg3 harg3 arg4 harg4 hc0 x0)
theorem read0_B_1 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : ¬cond0_0 i)
    (x0 : Vec F S512x4096 .f32) (xo1 xo2 : Vec F S1x1x4096 .f32) (v : View sig .tc .vmem S1x1x4096 .f32) (f : v.ty.Contents (Elt F)) :
    v.read (Elt F) (v.writes (Elt F) f (kernelRun0_B c i arg2 harg2 arg3 harg3 arg4 harg4 hc0 x0 xo1 xo2).1) = out0_B_1 c i arg2 harg2 arg3 harg3 arg4 harg4 hc0 x0 xo1 xo2 :=
  View.read_writes_of_cover _ _ _ _ _ (cover0_B_1 c i arg2 harg2 arg3 harg3 arg4 harg4 hc0 x0 xo1 xo2)
theorem read0_B_2 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc0 : ¬cond0_0 i)
    (x0 : Vec F S512x4096 .f32) (xo1 xo2 : Vec F S1x1x4096 .f32) (v : View sig .tc .vmem S1x1x4096 .f32) (f : v.ty.Contents (Elt F)) :
    v.read (Elt F) (v.writes (Elt F) f (kernelRun0_B c i arg2 harg2 arg3 harg3 arg4 harg4 hc0 x0 xo1 xo2).2.1) = out0_B_2 c i arg2 harg2 arg3 harg3 arg4 harg4 hc0 x0 xo1 xo2 :=
  View.read_writes_of_cover _ _ _ _ _ (cover0_B_2 c i arg2 harg2 arg3 harg3 arg4 harg4 hc0 x0 xo1 xo2)

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
/-- The body at a point of case A: the input's memref holds its block, the accumulators' anything; case A's run applies; the
    invariant passes through unread; the core owes nothing throughout. -/
theorem sound_body0_A (c : Dev nD) (t : Fin cfg0.N) (h0 : t.val % 4 = 0) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, outsAt0_A V c t h0]
  unfold outA0
  dsimp only
  iintro ⟨HΦ, Ho, ⟨%d0, H0⟩, ⟨%d1, H1⟩, ⟨%d2, H2⟩⟩
  iapply ((kernelRun0_A c (grid0.coords t) _ _ _ _ _ _ ((hcond0_0 t).mpr h0) (iblk0 V c 0 t)).2.2 Set.univ _)
  isplitl [H0]; · iexact H0
  isplitl [H1]; · iexists _; iexact H1
  isplitl [H2]; · iexists _; iexact H2
  iintro ⟨H0, ⟨%e1, H1⟩, ⟨%e2, H2⟩⟩
  isplitl [HΦ]; · iexact HΦ
  isplitl [Ho]; · iexact Ho
  isplitl [H0]; · iexact H0
  unfold owns
  isplitl [H1]
  · iexists _; isplitr
    swap; · iexact H1
    ipureintro; exact read0_A_1 c _ _ _ _ _ _ _ _ _ _ _
  · iexists _; isplitr
    swap; · iexact H2
    ipureintro; exact read0_A_2 c _ _ _ _ _ _ _ _ _ _ _

set_option maxHeartbeats 1600000 in
/-- The body at a point of case B: each accumulator's memref holds what the point before left; case B's run applies. -/
theorem sound_body0_B (c : Dev nD) (t : Fin cfg0.N) (h0 : ¬t.val % 4 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1_B V c t h0, before0_2_B V c t h0]
  rw [show (dat0 V c).Φ t.succ = (dat0 V c).Φ t.castSucc from rfl,
    show (dat0 V c).owesAt () t.succ = (dat0 V c).owesAt () t.castSucc from rfl,
    after0_0, after0_1, after0_2, outsAt0_B V c t h0]
  unfold outB0
  dsimp only
  iintro ⟨HΦ, Ho, ⟨%d0, H0⟩, ⟨%d1, H1⟩, ⟨%d2, H2⟩⟩
  iapply ((kernelRun0_B c (grid0.coords t) _ _ _ _ _ _ (fun h => h0 ((hcond0_0 t).mp h)) (iblk0 V c 0 t) _ _).2.2 Set.univ _)
  isplitl [H0]; · iexact H0
  isplitl [H1]; · iexact H1
  isplitl [H2]; · iexact H2
  iintro ⟨H0, ⟨%e1, H1⟩, ⟨%e2, H2⟩⟩
  isplitl [HΦ]; · iexact HΦ
  isplitl [Ho]; · iexact Ho
  isplitl [H0]; · iexact H0
  unfold owns
  isplitl [H1]
  · iexists _; isplitr
    swap; · iexact H1
    ipureintro; exact read0_B_1 c _ _ _ _ _ _ _ _ _ _ _ _ _
  · iexists _; isplitr
    swap; · iexact H2
    ipureintro; exact read0_B_2 c _ _ _ _ _ _ _ _ _ _ _ _ _

/-- The body at any point: the closed form says which case the point is in. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 4 = 0
  · exact sound_body0_A V c t h0
  · exact sound_body0_B V c t h0

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Attn.lean ====
import proofs.«113718_j18957985645187_2_alg».proof.Proof.Gen.KernelIdeal.Launch
import proofs.«113718_j18957985645187_2_alg».proof.Proof.Gen.KernelIdeal.Skeleton
import proofs.«113718_j18957985645187_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (the attention kernel on its grid of 128 row blocks): the frame half

Every point of the grid reads its seven input windows whole — the 32×4096 row block of the input at
block index (t,0), and six whole arrays (mean, variance, scale, shift, the three projection weights side
by side, the three biases side by side) at block index 0 — and stores one whole 32×256×16 block, a pure
function of the seven blocks read. So the staging buffer of the output after the body is that function of
the input blocks, each input's buffer is left as found, and the body obligation follows at every point. -/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where it is not fetched the block
    index has not moved, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where it is not fetched the block
    index has not moved, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where it is not fetched the block
    index has not moved, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: where it is not fetched the block
    index has not moved, and the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: where it is not fetched the block
    index has not moved, and the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: where it is not fetched the block
    index has not moved, and the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: where it is not fetched the block
    index has not moved, and the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_0 : Rect S32x4096 := Rect.unit (s := S32x4096) ![0, 0] S32x4096.size inb_S32x4096_S32x4096_0_0
abbrev r1_1 : Rect S1x4096 := Rect.unit (s := S1x4096) ![0, 0] S1x4096.size inb_S1x4096_S1x4096_0_0
abbrev r1_2 : Rect S256x768 := Rect.unit (s := S256x768) ![0, 0] S256x768.size inb_S256x768_S256x768_0_0
abbrev r1_3 : Rect S1x768 := Rect.unit (s := S1x768) ![0, 0] S1x768.size inb_S1x768_S1x768_0_0
abbrev r1_4 : Rect S32x256x16 := Rect.unit (s := S32x256x16) ![0, 0, 0] S32x256x16.size inb_S32x256x16_S32x256x16_0_0_0

/-! ## What the body leaves in the output window's buffer -/

/-- Window 7's staging buffer after the body, from the input windows' blocks: its one store, of the whole block. -/
def out1_7 (x0 : Vec F S32x4096 .f32) (x1 : Vec F S1x4096 .f32) (x2 : Vec F S1x4096 .f32) (x3 : Vec F S1x4096 .f32) (x4 : Vec F S1x4096 .f32) (x5 : Vec F S256x768 .bf16) (x6 : Vec F S1x768 .f32) : Vec F S32x256x16 .f32 :=
  View.canon [⟨r1_4, k1_pay1 (k1_pay3 (View.ld x0 r1_0) (View.ld x1 r1_1) (View.ld x2 r1_1) (View.ld x3 r1_1) (View.ld x4 r1_1) (View.ld x5 r1_2) (View.ld x6 r1_3)) (k1_pay4 (View.ld x0 r1_0) (View.ld x1 r1_1) (View.ld x2 r1_1) (View.ld x3 r1_1) (View.ld x4 r1_1) (View.ld x5 r1_2) (View.ld x6 r1_3))⟩]

/-- The store's rectangle is the whole buffer, so it covers it. -/
theorem cover1_7 (p0 : Vec F S32x256x16 .f32) (y : S32x256x16.Idx) :
    ∃ pc ∈ ([⟨r1_4, p0⟩] : List (View.Piece (Elt F) S32x256x16 .f32)), y ∈ pc.1.set :=
  View.cover_of_tiled [⟨r1_4, p0⟩] S32x256x16.size (by rfl) y

/-! ## The body's triple -/

set_option maxHeartbeats 4000000 in
/-- The kernel body on whole staging memrefs, the inputs' at read contents `xW` and the output's at anything, runs to
    the continuation holding the inputs' as they were and the output's at `out1_7` of the inputs'. -/
theorem sound_kernel1 (c : Dev nD) (E : Set ℕ) (i : grid1.Coords) (arg1 : Memref sig .tc .vmem S32x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S256x768 .bf16) (harg6 : arg6.IsWhole) (arg7 : Memref sig .tc .vmem S1x768 .f32) (harg7 : arg7.IsWhole) (arg8 : Memref sig .tc .vmem S32x256x16 .f32) (harg8 : arg8.IsWhole)
    (x0 : Vec F S32x4096 .f32) (x1 : Vec F S1x4096 .f32) (x2 : Vec F S1x4096 .f32) (x3 : Vec F S1x4096 .f32) (x4 : Vec F S1x4096 .f32) (x5 : Vec F S256x768 .bf16) (x6 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__attn_kernel i arg1 harg1 arg2 harg2 arg3 harg3 arg4 harg4 arg5 harg5 arg6 harg6 arg7 harg7 arg8 harg8) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The pipeline's proof data -/

/-- The proof data of the pipeline on core `c`: the arrays as the region finds them (`V`); after the body at
    point `t` each input's buffer at its block and the output's at `out1_7` of the input blocks; the class's
    invariant (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the kernel's program: its @main is three stretches of host operations around two kernel regions (the batch statistics, then
  the attention). What every unscoped buffer holds at each boundary between two items is a fold from the launch memory — a stretch applies
  its operations; a region leaves its arrays at what its write-backs leave and every other buffer alone. Each item is a segment over the
  thread state "every unscoped buffer at the boundary's contents, the generator register at some state, nothing owed", and the launch
  theorem for a list of segments gives: every weakly fair execution terminates, nothing faulting, and at the end every unscoped buffer
  holds the last boundary's contents. The frame claim (the arguments end as launched) and the program's result are read off that.
-/
import proofs.«113718_j18957985645187_2_alg».proof.Proof.Gen.KernelIdeal.Regions
import proofs.«113718_j18957985645187_2_alg».proof.Proof.KI.Stats
import proofs.«113718_j18957985645187_2_alg».proof.Proof.KI.Attn

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: three stretches of host operations around the two kernel regions

## What every unscoped buffer holds at each boundary between two items of @main -/

/-- Core `c`'s buffers at launch. -/
abbrev bnd0 : Dev nD → Valuation τ sig (Elt F) := fun c b => (s₀ m ρ).mem ((c : Dev nD), b)
/-- After the first stretch of host operations (the statistics kernel's entry). -/
abbrev bnd1 : Dev nD → Valuation τ sig (Elt F) := fun c => StableHlo.after hostOps0 (bnd0 m ρ c)
/-- The same read at the TensorCore's references: what the statistics kernel finds. -/
abbrev ent0 : (c : Dev nD) → (b : Ref sig .tc) → Buf (Elt F) ((c : Thread nD τ).loc b) := fun c b => bnd1 m ρ c b
/-- At the statistics kernel's exit: its arrays at what its write-backs leave, every other buffer as entered. -/
def bnd2 (c : Dev nD) : Valuation τ sig (Elt F) :=
  Pipeline.withArrays spec0 c (bnd1 m ρ c) fun w => (dat0 (ent0 m ρ) c).arrAt w cfg0.N
theorem bnd2_arr (c : Dev nD) (w : Fin cfg0.W) :
    bnd2 m ρ c (Proc.devRef .tc (Pipeline.arrRef spec0 w)) = (dat0 (ent0 m ρ) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m ρ c (Proc.devRef .tc b) = bnd1 m ρ c (Proc.devRef .tc b) := by
  unfold bnd2; exact Pipeline.withArrays_of_ne spec0 c _ _ b hb
abbrev ext0 : (c : Dev nD) → (b : Ref sig .tc) → Buf (Elt F) ((c : Thread nD τ).loc b) := fun c b => bnd2 m ρ c b
theorem hF0 (c : Dev nD) (w : Fin cfg0.W) : (dat0 (ent0 m ρ) c).arrAt w cfg0.N = ext0 m ρ c (Pipeline.arrRef spec0 w) :=
  (bnd2_arr m ρ c w).symm
theorem hrest0 (c : Dev nD) : ∀ b, b ∉ Finset.univ.image (Pipeline.arrRef spec0) → ext0 m ρ c b = ent0 m ρ c b :=
  fun b hb => bnd2_of_ne m ρ c b fun w e => hb (Finset.mem_image.mpr ⟨w, Finset.mem_univ _, e⟩)

/-- After the second stretch of host operations (the attention kernel's entry). -/
abbrev bnd3 : Dev nD → Valuation τ sig (Elt F) := fun c => StableHlo.after hostOps1 (bnd2 m ρ c)
abbrev ent1 : (c : Dev nD) → (b : Ref sig .tc) → Buf (Elt F) ((c : Thread nD τ).loc b) := fun c b => bnd3 m ρ c b
/-- At the attention kernel's exit. -/
def bnd4 (c : Dev nD) : Valuation τ sig (Elt F) :=
  Pipeline.withArrays spec1 c (bnd3 m ρ c) fun w => (dat1 (ent1 m ρ) c).arrAt w cfg1.N
theorem bnd4_arr (c : Dev nD) (w : Fin cfg1.W) :
    bnd4 m ρ c (Proc.devRef .tc (Pipeline.arrRef spec1 w)) = (dat1 (ent1 m ρ) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m ρ c (Proc.devRef .tc b) = bnd3 m ρ c (Proc.devRef .tc b) := by
  unfold bnd4; exact Pipeline.withArrays_of_ne spec1 c _ _ b hb
abbrev ext1 : (c : Dev nD) → (b : Ref sig .tc) → Buf (Elt F) ((c : Thread nD τ).loc b) := fun c b => bnd4 m ρ c b
theorem hF1 (c : Dev nD) (w : Fin cfg1.W) : (dat1 (ent1 m ρ) c).arrAt w cfg1.N = ext1 m ρ c (Pipeline.arrRef spec1 w) :=
  (bnd4_arr m ρ c w).symm
theorem hrest1 (c : Dev nD) : ∀ b, b ∉ Finset.univ.image (Pipeline.arrRef spec1) → ext1 m ρ c b = ent1 m ρ c b :=
  fun b hb => bnd4_of_ne m ρ c b fun w e => hb (Finset.mem_image.mpr ⟨w, Finset.mem_univ _, e⟩)
/-- After the last stretch of host operations: what the program returns with. -/
abbrev bnd5 : Dev nD → Valuation τ sig (Elt F) := fun c => StableHlo.after hostOps2 (bnd4 m ρ c)

/-! ### An argument array ends as launched: no host operation writes one; a region reads `main_arg0` through an input
    window (which the pipeline leaves as entered) and bypasses the others -/

theorem bnd1_of (c : Dev nD) (r : Ref sig .tc) (h : r ∉ hostOps0_W) : bnd1 m ρ c r = bnd0 m ρ c r :=
  StableHlo.after_of_writes_sub hostOps0 _ hostOps0_writes h
theorem bnd3_of (c : Dev nD) (r : Ref sig .tc) (h : r ∉ hostOps1_W) : bnd3 m ρ c r = bnd2 m ρ c r :=
  StableHlo.after_of_writes_sub hostOps1 _ hostOps1_writes h
theorem bnd5_of (c : Dev nD) (r : Ref sig .tc) (h : r ∉ hostOps2_W) : bnd5 m ρ c r = bnd4 m ρ c r :=
  StableHlo.after_of_writes_sub hostOps2 _ hostOps2_writes h

/-- An array no window of either region names and no host operation writes holds its launch contents at the end. -/
theorem bnd5_untouched (c : Dev nD) (r : Ref sig .tc) (h0 : r ∉ hostOps0_W) (h1 : r ∉ hostOps1_W) (h2 : r ∉ hostOps2_W)
    (hw0 : ∀ w, Pipeline.arrRef spec0 w ≠ r) (hw1 : ∀ w, Pipeline.arrRef spec1 w ≠ r) :
    bnd5 m ρ c r = m ((c : Thread nD τ).loc r) :=
  (bnd5_of m ρ c r h2).trans <| (bnd4_of_ne m ρ c r hw1).trans <| (bnd3_of m ρ c r h1).trans <|
    (bnd2_of_ne m ρ c r hw0).trans <| (bnd1_of m ρ c r h0).trans rfl

theorem bnd5_main_arg0 (c : Dev nD) : bnd5 m ρ c main_arg0 = m ((c : Thread nD τ).loc main_arg0) :=
  calc bnd5 m ρ c main_arg0
    _ = bnd4 m ρ c main_arg0 := bnd5_of m ρ c main_arg0 (by decide)
    _ = bnd3 m ρ c main_arg0 := (bnd4_arr m ρ c 0).trans (((dat1 (ent1 m ρ) c).arrAt_in 0 rfl _).trans (A_eq1 (ent1 m ρ) c 0))
    _ = bnd2 m ρ c main_arg0 := bnd3_of m ρ c main_arg0 (by decide)
    _ = bnd1 m ρ c main_arg0 := (bnd2_arr m ρ c 0).trans (((dat0 (ent0 m ρ) c).arrAt_in 0 rfl _).trans (A_eq0 (ent0 m ρ) c 0))
    _ = bnd0 m ρ c main_arg0 := bnd1_of m ρ c main_arg0 (by decide)
    _ = m ((c : Thread nD τ).loc main_arg0) := rfl
theorem bnd5_main_arg1 (c : Dev nD) : bnd5 m ρ c main_arg1 = m ((c : Thread nD τ).loc main_arg1) :=
  bnd5_untouched m ρ c main_arg1 (by decide) (by decide) (by decide) (by decide) (by decide)
theorem bnd5_main_arg2 (c : Dev nD) : bnd5 m ρ c main_arg2 = m ((c : Thread nD τ).loc main_arg2) :=
  bnd5_untouched m ρ c main_arg2 (by decide) (by decide) (by decide) (by decide) (by decide)
theorem bnd5_main_arg3 (c : Dev nD) : bnd5 m ρ c main_arg3 = m ((c : Thread nD τ).loc main_arg3) :=
  bnd5_untouched m ρ c main_arg3 (by decide) (by decide) (by decide) (by decide) (by decide)
theorem bnd5_main_arg4 (c : Dev nD) : bnd5 m ρ c main_arg4 = m ((c : Thread nD τ).loc main_arg4) :=
  bnd5_untouched m ρ c main_arg4 (by decide) (by decide) (by decide) (by decide) (by decide)
theorem bnd5_main_arg5 (c : Dev nD) : bnd5 m ρ c main_arg5 = m ((c : Thread nD τ).loc main_arg5) :=
  bnd5_untouched m ρ c main_arg5 (by decide) (by decide) (by decide) (by decide) (by decide)
theorem bnd5_main_arg6 (c : Dev nD) : bnd5 m ρ c main_arg6 = m ((c : Thread nD τ).loc main_arg6) :=
  bnd5_untouched m ρ c main_arg6 (by decide) (by decide) (by decide) (by decide) (by decide)
theorem bnd5_main_arg7 (c : Dev nD) : bnd5 m ρ c main_arg7 = m ((c : Thread nD τ).loc main_arg7) :=
  bnd5_untouched m ρ c main_arg7 (by decide) (by decide) (by decide) (by decide) (by decide)
theorem bnd5_main_arg8 (c : Dev nD) : bnd5 m ρ c main_arg8 = m ((c : Thread nD τ).loc main_arg8) :=
  bnd5_untouched m ρ c main_arg8 (by decide) (by decide) (by decide) (by decide) (by decide)

/-! ## The proof data family and the thread state -/

/-- No pipeline has a prefetched table. -/
abbrev admH : (p : Fin 2) → (pcfgs (F := F) p).Adm := fun p => (cfgs p).toPCfg_adm
/-- Each pipeline's proof data at its region's entry contents: a literal match on the pipeline's number. -/
def pdats : (p : Fin 2) → (c : Dev nD) → Dat τ (Elt F) Unit ℕ (UR sig nD τ) ℕ (Pipeline.pin (pcfgs (F := F)) admH p) c
  | ⟨0, _⟩ => fun c => dat0 (ent0 m ρ) c
  | ⟨1, _⟩ => fun c => dat1 (ent1 m ρ) c
abbrev 𝒱H : Variants := Variants.none
/-- No core owes another anything. -/
abbrev LH : GSem nD τ sig → Finset Unit := fun _ => ∅
abbrev lvH : GSem nD τ sig → Unit → ℕ := fun _ _ => 0
/-- What rides beside the buffers through every item: the generator register at some state, and nothing owed. -/
abbrev RH (c : Dev nD) : sProp 𝕄 := iprop((∃ r, prngReg c r) ∗ ∃ W, owes (c : Thread nD τ) (0 : CellTallies nD τ sig Unit) W)
/-- A stretch of host operations as a segment from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (bnd5 m ρ c) ∗ ∃ r, prngReg c r)

/-! ## The regions as segments -/

set_option backward.isDefEq.respectTransparency.types false in
/-- The statistics kernel's region: entered from every unscoped buffer at `bnd1`, left at `bnd2`. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (ent0 m ρ) c).loose
  hwaits := Pipeline.hwaits_of_owed_zero _ _ _ _ LH lvH 0 fun _ _ => rfl
  pre c := iprop(StableHlo.held (c : Thread nD τ) (Pipeline.ucRefs τ sig) (bnd1 m ρ c) ∗ RH c)
  post c := iprop(StableHlo.held (c : Thread nD τ) (Pipeline.ucRefs τ sig) (bnd2 m ρ c) ∗ RH c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (ent0 m ρ c) (ext0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel's region: entered from every unscoped buffer at `bnd3`, left at `bnd4`. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (ent1 m ρ) c).loose
  hwaits := Pipeline.hwaits_of_owed_zero _ _ _ _ LH lvH 1 fun _ _ => rfl
  pre c := iprop(StableHlo.held (c : Thread nD τ) (Pipeline.ucRefs τ sig) (bnd3 m ρ c) ∗ RH c)
  post c := iprop(StableHlo.held (c : Thread nD τ) (Pipeline.ucRefs τ sig) (bnd4 m ρ c) ∗ RH c)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (ent1 m ρ c) (ext1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev segsH : List (Pipeline.Seg (pcfgs (F := F)) admH (pdats m ρ) () defs₀ 𝒱H LH lvH) :=
  [ .host (hsegH hostOps0 hostOps0_sub hostOps0_fresh (bnd0 m ρ)),
    .region (reg0 m ρ),
    .host (hsegH hostOps1 hostOps1_sub hostOps1_fresh (bnd2 m ρ)),
    .region (reg1 m ρ),
    .host (hsegH hostOps2 hostOps2_sub hostOps2_fresh (bnd4 m ρ)) ]
/-- @main is the run of the segments. -/
theorem main_run (c : Dev nD) : main (F := F) c = Pipeline.Seg.run (segsH m ρ) := (main_chain c).trans (by chain_rfl)

set_option backward.isDefEq.respectTransparency.types false in
/-- THE RUN: from any memory with zero counters every weakly fair execution of @main on the TensorCores terminates, nothing
    faulting, and in every final state each unscoped buffer holds the last boundary's contents `bnd5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bnd5 m ρ c b) :=
  Pipeline.θ_run_regions_kit (pcfgs (F := F)) admH (pdats m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m ρ c) ∗ RH c)) (Tₙ := TnH m ρ)
    (hch := ⟨fun _ => .rfl, fun _ => .rfl, fun _ => .rfl, fun _ => .rfl, fun _ => .rfl, fun c => by
      show iprop(StableHlo.held (c : Thread nD τ) (Pipeline.ucRefs τ sig) (bnd5 m ρ c) ∗ RH c)
        ⊢ iprop(TnH m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (bnd0 m ρ c)
        from Pipeline.unscopedBufs_held c (bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd5 m ρ c b)
    (hfin := fun c s' => by
      iintro ⟨⟨Hh, -⟩, HSI⟩
      unfold StableHlo.held
      imodintro
      iapply (pointsTo_read_all (Pipeline.ucRefs τ sig) (fun b => (((c : Thread nD τ)).1, b)) (bnd5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (bnd5_main_arg0 m ρ c),
     (h c _ (mem_uc main_arg1 (by decide))).trans (bnd5_main_arg1 m ρ c),
     (h c _ (mem_uc main_arg2 (by decide))).trans (bnd5_main_arg2 m ρ c),
     (h c _ (mem_uc main_arg3 (by decide))).trans (bnd5_main_arg3 m ρ c),
     (h c _ (mem_uc main_arg4 (by decide))).trans (bnd5_main_arg4 m ρ c),
     (h c _ (mem_uc main_arg5 (by decide))).trans (bnd5_main_arg5 m ρ c),
     (h c _ (mem_uc main_arg6 (by decide))).trans (bnd5_main_arg6 m ρ c),
     (h c _ (mem_uc main_arg7 (by decide))).trans (bnd5_main_arg7 m ρ c),
     (h c _ (mem_uc main_arg8 (by decide))).trans (bnd5_main_arg8 m ρ c)⟩) (run_all m ρ)

end Cert.KernelIdeal.Hand

end
-- ==== Proof.KI.HostReads.lean ====
/-
  The three stretches of host operations of the kernel's program, read back as terms: what each array a kernel region is handed, and the
  program's result, hold as pure functions of the arrays before the stretch.
-/
import proofs.«113718_j18957985645187_2_alg».proof.Proof.Gen.KernelIdeal.Launch
import Idealize.ShloMosaic.Lib.StableHlo.Run

noncomputable section

namespace Cert.KernelIdeal.Hand

open Cert.KernelIdeal Cert.KernelIdeal.Facts₀
open Idealize.ShloMosaic Idealize.ShloMosaic.TcCoe Idealize.SL.Sem Idealize.ShloMosaic.StableHlo

variable {F : FTy → Type} [FloatOps F] (V : Valuation τ sig (Elt F))

/-- The rewriting loop of `after_results` by itself, for a goal whose fold is already unfolded: each operation's result at its own
    buffer is its function's value, at any other buffer what was there before. -/
local macro "after_more" : tactic =>
  `(tactic| repeat (first
      | rw [nullary_result] | rw [unary_result] | rw [binary_result] | rw [reshape_result] | rw [nary_result]
      | (rw [nullary_result_ne]; rotate_left; decide)
      | (rw [unary_result_ne]; rotate_left; decide)
      | (rw [binary_result_ne]; rotate_left; decide)
      | (rw [reshape_result_ne]; rotate_left; decide)
      | (rw [nary_result_ne]; rotate_left; decide)))

/-! ## Before the statistics kernel: γ and β as rows, the three weight matrices transposed and laid side by side, the three bias
    vectors end to end as a row -/

theorem host0_gamma : after Gen.hostOps0 V (main_v0 : DevRef τ sig)
    = shapeCast S1x4096 (V (main_arg7 : DevRef τ sig)) shapeCasts_S4096_S1x4096 := by
  after_results; rfl

theorem host0_beta : after Gen.hostOps0 V (main_v1 : DevRef τ sig)
    = shapeCast S1x4096 (V (main_arg8 : DevRef τ sig)) shapeCasts_S4096_S1x4096 := by
  after_results; rfl

theorem host0_weights : after Gen.hostOps0 V (main_v6 : DevRef τ sig)
    = truncf .bf16 (concatenate S256x768 1
        [⟨S256x256, transpose S256x256 [1, 0] (V (main_arg1 : DevRef τ sig)) transposes_S256x256_S256x256_1_0⟩,
         ⟨S256x256, transpose S256x256 [1, 0] (V (main_arg3 : DevRef τ sig)) transposes_S256x256_S256x256_1_0⟩,
         ⟨S256x256, transpose S256x256 [1, 0] (V (main_arg5 : DevRef τ sig)) transposes_S256x256_S256x256_1_0⟩]
        concatenates_S256x256_S256x256_S256x256_S256x768_d1) bitsLt_bf16_f32 := by
  after_results
  beta_reduce
  after_more
  rfl

theorem host0_biases : after Gen.hostOps0 V (main_v8 : DevRef τ sig)
    = shapeCast S1x768 (concatenate S768 0
        [⟨S256, V (main_arg2 : DevRef τ sig)⟩, ⟨S256, V (main_arg4 : DevRef τ sig)⟩, ⟨S256, V (main_arg6 : DevRef τ sig)⟩]
        concatenates_S256_S256_S256_S768_d0) shapeCasts_S768_S1x768 := by
  after_results
  beta_reduce
  after_more
  rfl

/-! ## Between the kernels: the two halves' column sums added and scaled to the mean; the mean of squares less the squared mean,
    clamped at zero, as the variance -/

/-- Row `k` of a two-row accumulator, as a vector. -/
def halfRow0 (a : FVec F S2x1x4096 .f32) : FVec F S4096 .f32 :=
  shapeCast S4096 (extractStridedSlice S1x1x4096 ![0, 0, 0] a slices_S2x1x4096_S1x1x4096_0_0_0) shapeCasts_S1x1x4096_S4096
def halfRow1 (a : FVec F S2x1x4096 .f32) : FVec F S4096 .f32 :=
  shapeCast S4096 (extractStridedSlice S1x1x4096 ![1, 0, 0] a slices_S2x1x4096_S1x1x4096_1_0_0) shapeCasts_S1x1x4096_S4096
/-- The literal 2⁻¹² on every column. -/
def invB : FVec F S4096 .f32 := broadcastInDim S4096 ![] bcast_S_S4096 (constant S_ .f32 0x39800000#32)
/-- The kernel's column means from the two halves' column sums. -/
def kMeanVec (s : FVec F S2x1x4096 .f32) : FVec F S4096 .f32 := mulf (addf (halfRow0 s) (halfRow1 s)) invB
/-- The kernel's column variances from the two halves' column sums and sums of squares. -/
def kVarVec (s ss : FVec F S2x1x4096 .f32) : FVec F S4096 .f32 :=
  maximumf (subf (mulf (addf (halfRow0 ss) (halfRow1 ss)) invB) (mulf (kMeanVec s) (kMeanVec s)))
    (broadcastInDim S4096 ![] bcast_S_S4096 (constant S_ .f32 0x00000000#32))

theorem host1_mean : after Gen.hostOps1 V (main_v28 : DevRef τ sig)
    = shapeCast S1x4096 (kMeanVec (V (main_v9_0 : DevRef τ sig))) shapeCasts_S4096_S1x4096 := by
  after_results; rfl

theorem host1_var : after Gen.hostOps1 V (main_v29 : DevRef τ sig)
    = shapeCast S1x4096 (kVarVec (V (main_v9_0 : DevRef τ sig)) (V (main_v9_1 : DevRef τ sig))) shapeCasts_S4096_S1x4096 := by
  after_results; rfl

/-! ## After the attention kernel: its output flattened row by row, plus x -/

theorem host2_result : after Gen.hostOps2 V (main_v32 : DevRef τ sig)
    = addf (shapeCast S4096x4096 (V (main_v30 : DevRef τ sig)) shapeCasts_S4096x256x16_S4096x4096) (V (main_arg0 : DevRef τ sig)) := by
  after_results; rfl

end Cert.KernelIdeal.Hand

end
-- ==== Proof.KI.Entries.lean ====
/-
  What the two kernels are handed, and what the program returns, traced back through the boundaries between @main's items: x reaches
  both kernels as launched; γ, β, the fused weights and biases are the first stretch's functions of the launched arguments (no later item
  writes them before the attention kernel reads them); the mean and the variance are the second stretch's functions of the two
  accumulators the statistics kernel leaves; the result is the last stretch's function of the attention kernel's output and x.
-/
import proofs.«113718_j18957985645187_2_alg».proof.Proof.KI.Run
import proofs.«113718_j18957985645187_2_alg».proof.Proof.KI.HostReads

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- x as the statistics kernel finds it. -/
theorem ent0_x : ent0 m ρ c main_arg0 = m ((c : Thread nD τ).loc main_arg0) :=
  (bnd1_of m ρ c main_arg0 (by decide)).trans rfl

/-- x as the attention kernel finds it. -/
theorem ent1_x : ent1 m ρ c main_arg0 = m ((c : Thread nD τ).loc main_arg0) :=
  (bnd3_of m ρ c main_arg0 (by decide)).trans <|
    ((bnd2_arr m ρ c 0).trans (((dat0 (ent0 m ρ) c).arrAt_in 0 rfl _).trans (A_eq0 (ent0 m ρ) c 0))).trans (ent0_x m ρ c)

/-- x at the attention kernel's exit. -/
theorem bnd4_x : bnd4 m ρ c main_arg0 = m ((c : Thread nD τ).loc main_arg0) :=
  ((bnd4_arr m ρ c 0).trans (((dat1 (ent1 m ρ) c).arrAt_in 0 rfl _).trans (A_eq1 (ent1 m ρ) c 0))).trans (ent1_x m ρ c)

/-- An array the first stretch writes and nothing later touches before the attention kernel. -/
theorem ent1_of_first (r : Ref sig .tc) (h1 : r ∉ hostOps1_W) (hw0 : ∀ w, Pipeline.arrRef spec0 w ≠ r) :
    ent1 m ρ c r = bnd1 m ρ c r :=
  (bnd3_of m ρ c r h1).trans (bnd2_of_ne m ρ c r hw0)

theorem ent1_gamma : ent1 m ρ c main_v0 = shapeCast S1x4096 (m ((c : Thread nD τ).loc main_arg7)) Facts₀.shapeCasts_S4096_S1x4096 :=
  (ent1_of_first m ρ c main_v0 (by decide) (by decide)).trans (host0_gamma (bnd0 m ρ c))

theorem ent1_beta : ent1 m ρ c main_v1 = shapeCast S1x4096 (m ((c : Thread nD τ).loc main_arg8)) Facts₀.shapeCasts_S4096_S1x4096 :=
  (ent1_of_first m ρ c main_v1 (by decide) (by decide)).trans (host0_beta (bnd0 m ρ c))

theorem ent1_weights : ent1 m ρ c main_v6
    = truncf .bf16 (concatenate S256x768 1
        [⟨S256x256, transpose S256x256 [1, 0] (m ((c : Thread nD τ).loc main_arg1)) Facts₀.transposes_S256x256_S256x256_1_0⟩,
         ⟨S256x256, transpose S256x256 [1, 0] (m ((c : Thread nD τ).loc main_arg3)) Facts₀.transposes_S256x256_S256x256_1_0⟩,
         ⟨S256x256, transpose S256x256 [1, 0] (m ((c : Thread nD τ).loc main_arg5)) Facts₀.transposes_S256x256_S256x256_1_0⟩]
        Facts₀.concatenates_S256x256_S256x256_S256x256_S256x768_d1) Facts₀.bitsLt_bf16_f32 :=
  (ent1_of_first m ρ c main_v6 (by decide) (by decide)).trans (host0_weights (bnd0 m ρ c))

theorem ent1_biases : ent1 m ρ c main_v8
    = shapeCast S1x768 (concatenate S768 0
        [⟨S256, m ((c : Thread nD τ).loc main_arg2)⟩, ⟨S256, m ((c : Thread nD τ).loc main_arg4)⟩, ⟨S256, m ((c : Thread nD τ).loc main_arg6)⟩]
        Facts₀.concatenates_S256_S256_S256_S768_d0) Facts₀.shapeCasts_S768_S1x768 :=
  (ent1_of_first m ρ c main_v8 (by decide) (by decide)).trans (host0_biases (bnd0 m ρ c))

/-- The two accumulators as the statistics kernel leaves them. -/
theorem bnd2_sums : bnd2 m ρ c main_v9_0 = (dat0 (ent0 m ρ) c).arrAt 1 cfg0.N := bnd2_arr m ρ c 1
theorem bnd2_sumsqs : bnd2 m ρ c main_v9_1 = (dat0 (ent0 m ρ) c).arrAt 2 cfg0.N := bnd2_arr m ρ c 2

theorem ent1_mean : ent1 m ρ c main_v28
    = shapeCast S1x4096 (kMeanVec ((dat0 (ent0 m ρ) c).arrAt 1 cfg0.N)) Facts₀.shapeCasts_S4096_S1x4096 :=
  (host1_mean (bnd2 m ρ c)).trans (by rw [bnd2_sums])

theorem ent1_var : ent1 m ρ c main_v29
    = shapeCast S1x4096 (kVarVec ((dat0 (ent0 m ρ) c).arrAt 1 cfg0.N) ((dat0 (ent0 m ρ) c).arrAt 2 cfg0.N)) Facts₀.shapeCasts_S4096_S1x4096 :=
  (host1_var (bnd2 m ρ c)).trans (by rw [bnd2_sums, bnd2_sumsqs])

/-- The program's result: the attention kernel's output flattened, plus x. -/
theorem result_eq : bnd5 m ρ c main_v32
    = addf (shapeCast S4096x4096 ((dat1 (ent1 m ρ) c).arrAt 7 cfg1.N) Facts₀.shapeCasts_S4096x256x16_S4096x4096) (m ((c : Thread nD τ).loc main_arg0)) :=
  (host2_result (bnd4 m ρ c)).trans (by rw [bnd4_x]; exact congrArg (fun o => addf (shapeCast S4096x4096 o Facts₀.shapeCasts_S4096x256x16_S4096x4096) _) (bnd4_arr m ρ c 7))

end Cert.KernelIdeal.Hand

end
-- ==== Proof.Spec.lean ====
/-
  The function both programs compute, written once, index by index, over the extended reals.

  x is a 4096 × 4096 array; its 4096 feature columns are 16 partitions of 256 features, column 256·p + d being feature d of
  partition p. Per column j the batch statistics are a mean and a variance; the normalized array is
  (x − mean) · (var + ε)^(−1/2) · γ + β. One 256 × 256 linear map per role (query, key, value) is applied to every partition of every
  row: Q r e p = Σ_d Wq e d · xn r (256 p + d) + bq e. Row r's 256 × 256 score matrix is (Σ_p Q r e p · K r f p) / 16; each of its
  rows is soft-maxed (shifted by the row's maximum) and applied to the values: out r e p = Σ_f attn r e f · V r f p. The result
  array puts out r e p at column 16·e + p and adds x back.

  The mean and the variance are PARAMETERS here: the reference computes the variance as the mean of squared deviations, the kernel
  as the mean of squares minus the squared mean, and that these agree on finite data is proved apart from this file.
-/
import Idealize.ShloMosaic.PureOps.Ideal
import Idealize.ShloMosaic.Lib.ValueIdx

noncomputable section

namespace Cert.Spec

open Idealize.ShloMosaic

/-- The variance's regularizer, as the float literal both programs print. -/
def eps : EReal := Ideal.ofBits .f32 0x3727C5AC#32
/-- Sixteen (the square root of the feature count 256), as the reference's float literal. -/
def c16 : EReal := Ideal.ofBits .f32 0x41800000#32
/-- 4096, as the reference's float literal. -/
def c4096 : EReal := Ideal.ofBits .f32 0x45800000#32

/-- Feature d of partition p is column 256·p + d. -/
def col (p : Fin 16) (d : Fin 256) : Fin 4096 := ⟨256 * p.val + d.val, by omega⟩
/-- Output feature e of partition p lands in column 16·e + p. -/
def flat (e : Fin 256) (p : Fin 16) : Fin 4096 := ⟨16 * e.val + p.val, by omega⟩

/-- The reference's batch mean of column j: the column's sum over the 4096 rows, divided by 4096. -/
def refMean (x : Fin 4096 → Fin 4096 → EReal) (j : Fin 4096) : EReal :=
  Ideal.div (∑ r : Fin 4096, x r j) c4096
/-- The reference's (biased) batch variance of column j: the mean of the squared deviations from the mean. -/
def refVar (x : Fin 4096 → Fin 4096 → EReal) (j : Fin 4096) : EReal :=
  Ideal.div (∑ r : Fin 4096, (x r j - refMean x j) * (x r j - refMean x j)) c4096

/-- The normalized array, given the columns' means and variances. -/
def xn (x : Fin 4096 → Fin 4096 → EReal) (mean var γ β : Fin 4096 → EReal) (r j : Fin 4096) : EReal :=
  (x r j - mean j) * Ideal.rsqrt (var j + eps) * γ j + β j

/-- One role's linear map applied to partition p of row r: Σ_d W e d · y r (256 p + d) + b e. -/
def proj (y : Fin 4096 → Fin 4096 → EReal) (W : Fin 256 → Fin 256 → EReal) (b : Fin 256 → EReal)
    (r : Fin 4096) (e : Fin 256) (p : Fin 16) : EReal :=
  (∑ d : Fin 256, W e d * y r (col p d)) + b e

/-- Row r's score of query feature e against key feature f: the inner product over the 16 partitions, divided by 16. -/
def score (Q K : Fin 4096 → Fin 256 → Fin 16 → EReal) (r : Fin 4096) (e f : Fin 256) : EReal :=
  Ideal.div (∑ p : Fin 16, Q r e p * K r f p) c16

/-- The largest entry of a row of 256 scores (the bottom element −∞ is the supremum's unit). -/
def rowmax (s : Fin 256 → EReal) : EReal := Finset.univ.sup s

/-- The soft-max of a row of 256 scores, shifted by the row's maximum. -/
def softmax (s : Fin 256 → EReal) (f : Fin 256) : EReal :=
  Ideal.div (Ideal.exp (s f - rowmax s)) (∑ g : Fin 256, Ideal.exp (s g - rowmax s))

/-- The attention output, before the residual: out r e p = Σ_f softmax(score r e ·) f · V r f p. -/
def attnOut (x : Fin 4096 → Fin 4096 → EReal) (mean var γ β : Fin 4096 → EReal)
    (Wq : Fin 256 → Fin 256 → EReal) (bq : Fin 256 → EReal) (Wk : Fin 256 → Fin 256 → EReal) (bk : Fin 256 → EReal)
    (Wv : Fin 256 → Fin 256 → EReal) (bv : Fin 256 → EReal) (r : Fin 4096) (e : Fin 256) (p : Fin 16) : EReal :=
  ∑ f : Fin 256,
    softmax (fun f' => score (proj (xn x mean var γ β) Wq bq) (proj (xn x mean var γ β) Wk bk) r e f') f
      * proj (xn x mean var γ β) Wv bv r f p

/-- The whole result at row r, column 16·e + p: the attention output plus the residual x. -/
def result (x : Fin 4096 → Fin 4096 → EReal) (mean var γ β : Fin 4096 → EReal)
    (Wq : Fin 256 → Fin 256 → EReal) (bq : Fin 256 → EReal) (Wk : Fin 256 → Fin 256 → EReal) (bk : Fin 256 → EReal)
    (Wv : Fin 256 → Fin 256 → EReal) (bv : Fin 256 → EReal) (r : Fin 4096) (e : Fin 256) (p : Fin 16) : EReal :=
  attnOut x mean var γ β Wq bq Wk bk Wv bv r e p + x r (flat e p)

end Cert.Spec

end
-- ==== Proof.KI.HostIndex.lean ====
/-
  The host operations around the two kernels, read at an index over the extended reals: the flattening of the attention output, a vector as
  a one-row matrix, a row of a two-row accumulator, the kernel's mean and variance from the accumulated sums, the three transposed weight
  matrices side by side, the three bias vectors end to end.
-/
import proofs.«113718_j18957985645187_2_alg».proof.Proof.KI.HostReads
import proofs.«113718_j18957985645187_2_alg».proof.Proof.Spec
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Facts₀
open Idealize.ShloMosaic Idealize.ShloMosaic.ValueIdx

/-- The attention output [4096, 256, 16] flattened to [4096, 4096] and added to x: entry (r, 16 e + p) is output (r, e, p) plus x (r, 16 e + p). -/
theorem result_apply (o : FVec Ideal S4096x256x16 .f32) (x : FVec Ideal S4096x4096 .f32) (r : Fin 4096) (e : Fin 256) (p : Fin 16) :
    addf (shapeCast S4096x4096 o shapeCasts_S4096x256x16_S4096x4096) x (ix2 r (Cert.Spec.flat e p))
      = o (ix3 r e p) + x (ix2 r (Cert.Spec.flat e p)) := by
  rw [addf_apply]
  congr 1
  refine shapeCast_apply o _ _ (ix3 r e p) ?_
  rw [Shape.rowMajor_val_three, Shape.rowMajor_val_two]
  show (r.val * 256 + e.val) * 16 + p.val = r.val * 4096 + (16 * e.val + p.val)
  omega

/-- A length-4096 vector as a one-row matrix reads, at (0, j), the vector at j. -/
theorem row4096_apply {α : Type} (v : S4096.Idx → α) (j : Fin 4096) :
    shapeCast S1x4096 v shapeCasts_S4096_S1x4096 (ix2 (0 : Fin 1) j) = v (ix1 j) := by
  refine shapeCast_apply v _ _ (ix1 j) ?_
  rw [Shape.rowMajor_val_one, Shape.rowMajor_val_two]
  show j.val = 0 * 4096 + j.val
  omega

/-- A length-768 vector as a one-row matrix reads, at (0, n), the vector at n. -/
theorem row768_apply {α : Type} (v : S768.Idx → α) (n : Fin 768) :
    shapeCast S1x768 v shapeCasts_S768_S1x768 (ix2 (0 : Fin 1) n) = v (ix1 n) := by
  refine shapeCast_apply v _ _ (ix1 n) ?_
  rw [Shape.rowMajor_val_one, Shape.rowMajor_val_two]
  show n.val = 0 * 768 + n.val
  omega

/-- Row 0 of a two-row accumulator, as a vector, at j. -/
theorem halfRow0_apply {F : FTy → Type} [FloatOps F] (a : FVec F S2x1x4096 .f32) (j : Fin 4096) :
    halfRow0 a (ix1 j) = a (ix3 (0 : Fin 2) (0 : Fin 1) j) := by
  unfold halfRow0
  refine (shapeCast_apply _ _ _ (ix3 (0 : Fin 1) (0 : Fin 1) j) ?_).trans ?_
  · rw [Shape.rowMajor_val_three, Shape.rowMajor_val_one]
    show (0 * 1 + 0) * 4096 + j.val = j.val
    omega
  · exact extractStridedSlice_apply _ a _ _ (ix3 (0 : Fin 2) (0 : Fin 1) j) fun b => match b with
      | ⟨0, _⟩ => rfl | ⟨1, _⟩ => rfl | ⟨2, _⟩ => by show j.val = 0 + j.val; omega

/-- Row 1 of a two-row accumulator, as a vector, at j. -/
theorem halfRow1_apply {F : FTy → Type} [FloatOps F] (a : FVec F S2x1x4096 .f32) (j : Fin 4096) :
    halfRow1 a (ix1 j) = a (ix3 (1 : Fin 2) (0 : Fin 1) j) := by
  unfold halfRow1
  refine (shapeCast_apply _ _ _ (ix3 (0 : Fin 1) (0 : Fin 1) j) ?_).trans ?_
  · rw [Shape.rowMajor_val_three, Shape.rowMajor_val_one]
    show (0 * 1 + 0) * 4096 + j.val = j.val
    omega
  · exact extractStridedSlice_apply _ a _ _ (ix3 (1 : Fin 2) (0 : Fin 1) j) fun b => match b with
      | ⟨0, _⟩ => rfl | ⟨1, _⟩ => rfl | ⟨2, _⟩ => by show j.val = 0 + j.val; omega

/-- The kernel's column mean at j: the two halves' sums added, times 2⁻¹². -/
theorem kMeanVec_apply (s : FVec Ideal S2x1x4096 .f32) (j : Fin 4096) :
    kMeanVec s (ix1 j) = (s (ix3 (0 : Fin 2) (0 : Fin 1) j) + s (ix3 (1 : Fin 2) (0 : Fin 1) j)) * Ideal.ofBits .f32 0x39800000#32 := by
  unfold kMeanVec
  rw [mulf_apply, addf_apply, halfRow0_apply, halfRow1_apply]
  rfl

/-- The kernel's column variance at j. -/
theorem kVarVec_apply (s ss : FVec Ideal S2x1x4096 .f32) (j : Fin 4096) :
    kVarVec s ss (ix1 j)
      = max ((ss (ix3 (0 : Fin 2) (0 : Fin 1) j) + ss (ix3 (1 : Fin 2) (0 : Fin 1) j)) * Ideal.ofBits .f32 0x39800000#32
              - kMeanVec s (ix1 j) * kMeanVec s (ix1 j)) (Ideal.ofBits .f32 0x00000000#32) := by
  unfold kVarVec
  rw [maximumf_apply, subf_apply, mulf_apply, mulf_apply, addf_apply, halfRow0_apply, halfRow1_apply]
  rfl

/-- The fused weights at (d, 256 k + e), k = 0, 1, 2: entry (e, d) of the k-th weight matrix (transposed, then laid side by side; the
    change of float format is the identity here). -/
theorem weights_apply (W0 W1 W2 : FVec Ideal S256x256 .f32) (k : Fin 3) (d e : Fin 256) (n : Fin 768) (hn : n.val = 256 * k.val + e.val) :
    truncf .bf16 (concatenate S256x768 1
        [⟨S256x256, transpose S256x256 [1, 0] W0 transposes_S256x256_S256x256_1_0⟩,
         ⟨S256x256, transpose S256x256 [1, 0] W1 transposes_S256x256_S256x256_1_0⟩,
         ⟨S256x256, transpose S256x256 [1, 0] W2 transposes_S256x256_S256x256_1_0⟩]
        concatenates_S256x256_S256x256_S256x256_S256x768_d1) bitsLt_bf16_f32 (ix2 d n)
      = (![W0, W1, W2] k) (ix2 e d) := by
  rw [show n = (⟨256 * k.val + e.val, by omega⟩ : Fin 768) from Fin.ext hn]
  rw [truncf_apply]
  have hi : ∀ (n : Fin 768) (b : Fin S256x256.rank), b.cast (rfl : S256x256.rank = S256x768.rank) ≠ (1 : Fin 2) →
      ((ix2 d e : S256x256.Idx) b).val = ((ix2 d n : S256x768.Idx) (b.cast rfl)).val :=
    fun n b hb => match b with | ⟨0, _⟩ => rfl | ⟨1, _⟩ => absurd rfl hb
  match k with
  | ⟨0, _⟩ =>
    refine (concatenate_apply_piece (t := S256x768) (1 : Fin 2)
      [⟨S256x256, transpose S256x256 [1, 0] W0 transposes_S256x256_S256x256_1_0⟩,
       ⟨S256x256, transpose S256x256 [1, 0] W1 transposes_S256x256_S256x256_1_0⟩,
       ⟨S256x256, transpose S256x256 [1, 0] W2 transposes_S256x256_S256x256_1_0⟩]
      concatenates_S256x256_S256x256_S256x256_S256x768_d1 (ix2 d (⟨256 * 0 + e.val, by omega⟩ : Fin 768))
      0 (by show (0 : ℕ) < 3; omega) S256x256 _ rfl rfl 0 rfl (ix2 d e) (hi _) (by show 0 + e.val = 256 * 0 + e.val; omega)).trans ?_
    exact transpose_ix2_apply W0 _ d e
  | ⟨1, _⟩ =>
    refine (concatenate_apply_piece (t := S256x768) (1 : Fin 2)
      [⟨S256x256, transpose S256x256 [1, 0] W0 transposes_S256x256_S256x256_1_0⟩,
       ⟨S256x256, transpose S256x256 [1, 0] W1 transposes_S256x256_S256x256_1_0⟩,
       ⟨S256x256, transpose S256x256 [1, 0] W2 transposes_S256x256_S256x256_1_0⟩]
      concatenates_S256x256_S256x256_S256x256_S256x768_d1 (ix2 d (⟨256 * 1 + e.val, by omega⟩ : Fin 768))
      1 (by show (1 : ℕ) < 3; omega) S256x256 _ rfl rfl 256 rfl (ix2 d e) (hi _) (by show 256 + e.val = 256 * 1 + e.val; omega)).trans ?_
    exact transpose_ix2_apply W1 _ d e
  | ⟨2, _⟩ =>
    refine (concatenate_apply_piece (t := S256x768) (1 : Fin 2)
      [⟨S256x256, transpose S256x256 [1, 0] W0 transposes_S256x256_S256x256_1_0⟩,
       ⟨S256x256, transpose S256x256 [1, 0] W1 transposes_S256x256_S256x256_1_0⟩,
       ⟨S256x256, transpose S256x256 [1, 0] W2 transposes_S256x256_S256x256_1_0⟩]
      concatenates_S256x256_S256x256_S256x256_S256x768_d1 (ix2 d (⟨256 * 2 + e.val, by omega⟩ : Fin 768))
      2 (by show (2 : ℕ) < 3; omega) S256x256 _ rfl rfl 512 rfl (ix2 d e) (hi _) (by show 512 + e.val = 256 * 2 + e.val; omega)).trans ?_
    exact transpose_ix2_apply W2 _ d e

/-- The fused biases at (0, 256 k + e): entry e of the k-th bias vector. -/
theorem biases_apply (b0 b1 b2 : FVec Ideal S256 .f32) (k : Fin 3) (e : Fin 256) (n : Fin 768) (hn : n.val = 256 * k.val + e.val) :
    shapeCast S1x768 (concatenate S768 0 [⟨S256, b0⟩, ⟨S256, b1⟩, ⟨S256, b2⟩] concatenates_S256_S256_S256_S768_d0)
        shapeCasts_S768_S1x768 (ix2 (0 : Fin 1) n)
      = (![b0, b1, b2] k) (ix1 e) := by
  rw [show n = (⟨256 * k.val + e.val, by omega⟩ : Fin 768) from Fin.ext hn]
  rw [row768_apply]
  have hi : ∀ (n : Fin 768) (b : Fin S256.rank), b.cast (rfl : S256.rank = S768.rank) ≠ (0 : Fin 1) →
      ((ix1 e : S256.Idx) b).val = ((ix1 n : S768.Idx) (b.cast rfl)).val :=
    fun n b hb => match b with | ⟨0, _⟩ => absurd rfl hb
  match k with
  | ⟨0, _⟩ =>
    exact concatenate_apply_piece (t := S768) (0 : Fin 1) [⟨S256, b0⟩, ⟨S256, b1⟩, ⟨S256, b2⟩] concatenates_S256_S256_S256_S768_d0
      (ix1 (⟨256 * 0 + e.val, by omega⟩ : Fin 768)) 0 (by show (0 : ℕ) < 3; omega) S256 _ rfl rfl 0 rfl (ix1 e) (hi _)
      (by show 0 + e.val = 256 * 0 + e.val; omega)
  | ⟨1, _⟩ =>
    exact concatenate_apply_piece (t := S768) (0 : Fin 1) [⟨S256, b0⟩, ⟨S256, b1⟩, ⟨S256, b2⟩] concatenates_S256_S256_S256_S768_d0
      (ix1 (⟨256 * 1 + e.val, by omega⟩ : Fin 768)) 1 (by show (1 : ℕ) < 3; omega) S256 _ rfl rfl 256 rfl (ix1 e) (hi _)
      (by show 256 + e.val = 256 * 1 + e.val; omega)
  | ⟨2, _⟩ =>
    exact concatenate_apply_piece (t := S768) (0 : Fin 1) [⟨S256, b0⟩, ⟨S256, b1⟩, ⟨S256, b2⟩] concatenates_S256_S256_S256_S768_d0
      (ix1 (⟨256 * 2 + e.val, by omega⟩ : Fin 768)) 2 (by show (2 : ℕ) < 3; omega) S256 _ rfl rfl 512 rfl (ix1 e) (hi _)
      (by show 512 + e.val = 256 * 2 + e.val; omega)

end Cert.KernelIdeal.Hand

end
-- ==== Proof.KI.StatsValue.lean ====
/-
  The value of region 0, over the extended reals: after the region, the two result arrays of the column-statistics kernel hold,
  at (k, 0, j), the sum — resp. the sum of squares — of column j of the input over the 2048 rows of half k.

  Each point of the grid adds the column sums of its 512 × 4096 row block to an accumulator that the first point of a row of the
  grid sets to zero; the four points of a row of the grid cover the 2048 rows of one half; the last of them writes the
  accumulator back. Over the extended reals the order of the additions does not matter, so the fold over the four points is the
  sum over the 2048 rows.
-/
import proofs.«113718_j18957985645187_2_alg».proof.Proof.KI.Stats
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Stats

/-! ## What each case leaves in the accumulators, through the payloads (any float instance) -/

section AnyInstance
variable {F : FTy → Type} [FloatOps F]
variable (V : (c : Dev nD) → (b : Ref sig .tc) → Buf (Elt F) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- CASE B leaves in window 1's buffer, holding `xo1`, the sum payload of the block and `xo1`: its one covering store's payload,
    whose loads read the whole buffers. -/
theorem out_B_1 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc : ¬cond0_0 i)
    (x : Vec F S512x4096 .f32) (xo1 xo2 : Vec F S1x1x4096 .f32) :
    out0_B_1 c i arg2 harg2 arg3 harg3 arg4 harg4 hc x xo1 xo2 = k0_pay3 x xo1 := by
  unfold out0_B_1
  rw [View.read_writes_eq_canon _ _ _ (cover0_B_1 c i arg2 harg2 arg3 harg3 arg4 harg4 hc x xo1 xo2)]
  unfold kernelRun0_B
  dsimp only
  rw [View.canon_unit_zero hz3]
  simp only [View.readAt_eq_ld, harg2.read_unread, harg3.read_unread, harg4.read_unread, View.ld_unit_zero (S := S512x4096) hz2, View.ld_unit_zero (S := S1x1x4096) hz3]

/-- and in window 2's, holding `xo2`, the sum-of-squares payload of the block and `xo2`. -/
theorem out_B_2 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc : ¬cond0_0 i)
    (x : Vec F S512x4096 .f32) (xo1 xo2 : Vec F S1x1x4096 .f32) :
    out0_B_2 c i arg2 harg2 arg3 harg3 arg4 harg4 hc x xo1 xo2 = k0_pay4 x xo2 := by
  unfold out0_B_2
  rw [View.read_writes_eq_canon _ _ _ (cover0_B_2 c i arg2 harg2 arg3 harg3 arg4 harg4 hc x xo1 xo2)]
  unfold kernelRun0_B
  dsimp only
  rw [View.canon_unit_zero hz3]
  simp only [View.readAt_eq_ld, harg2.read_unread, harg3.read_unread, harg4.read_unread, View.ld_unit_zero (S := S512x4096) hz2, View.ld_unit_zero (S := S1x1x4096) hz3]

/-- CASE A stores the zero block, reads it back, and leaves the sum payload of the block and the zero block; -/
theorem out_A_1 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc : cond0_0 i)
    (x : Vec F S512x4096 .f32) :
    out0_A_1 c i arg2 harg2 arg3 harg3 arg4 harg4 hc x = k0_pay3 x k0_pay1 := by
  unfold out0_A_1
  rw [View.read_writes_eq_canon _ _ _ (cover0_A_1 c i arg2 harg2 arg3 harg3 arg4 harg4 hc x)]
  unfold kernelRun0_A
  dsimp only
  sl_unfold_words
  rw [View.canon_cons_unit_zero (S := S1x1x4096) hz3, View.readCov_unit_zero (S := S1x1x4096) _ hz3]
  simp only [View.readAt_eq_ld, harg2.read_unread, View.ld_unit_zero (S := S512x4096) hz2]

/-- likewise for window 2, with the sum-of-squares payload. -/
theorem out_A_2 (c : Dev nD) (i : grid0.Coords) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (hc : cond0_0 i)
    (x : Vec F S512x4096 .f32) :
    out0_A_2 c i arg2 harg2 arg3 harg3 arg4 harg4 hc x = k0_pay4 x k0_pay2 := by
  unfold out0_A_2
  rw [View.read_writes_eq_canon _ _ _ (cover0_A_2 c i arg2 harg2 arg3 harg3 arg4 harg4 hc x)]
  unfold kernelRun0_A
  dsimp only
  sl_unfold_words
  rw [View.canon_cons_unit_zero (S := S1x1x4096) hz3, View.readCov_unit_zero (S := S1x1x4096) _ hz3]
  simp only [View.readAt_eq_ld, harg2.read_unread, View.ld_unit_zero (S := S512x4096) hz2]

/-! ## The two accumulators after a point, through the payloads -/

/-- After a point of case A the accumulators hold the column sums, resp. sums of squares, of the point's block added to the
    zero block. -/
theorem outA0_eq (c : Dev nD) (t : Fin cfg0.N) (h0 : t.val % 4 = 0) :
    outA0 V c t h0 = (k0_pay3 (iblk0 V c 0 t) k0_pay1, k0_pay4 (iblk0 V c 0 t) k0_pay2) := by
  unfold outA0; rw [out_A_1, out_A_2]

/-- After a point of case B they hold those of the point's block added to what they held. -/
theorem outB0_eq (c : Dev nD) (t : Fin cfg0.N) (h0 : ¬t.val % 4 = 0) (xo1 xo2 : Vec F S1x1x4096 .f32) :
    outB0 V c t h0 xo1 xo2 = (k0_pay3 (iblk0 V c 0 t) xo1, k0_pay4 (iblk0 V c 0 t) xo2) := by
  unfold outB0; rw [out_B_1, out_B_2]

/-- Window 1's accumulator after point `t` is the fold over the run of points from the first of `t`'s row of the grid: the
    reset value at the first, each later point's block added to what the point before left. -/
theorem acc1_eq (c : Dev nD) (t : Fin cfg0.N) (h' : 4 * (t.val / 4) + t.val % 4 < cfg0.N) :
    (outsAt0 V c t.val t.isLt).1 = Pipeline.accAt (N := cfg0.N)
      (fun n h => k0_pay3 (iblk0 V c 0 ⟨n, h⟩) k0_pay1)
      (fun n h acc => k0_pay3 (iblk0 V c 0 ⟨n, h⟩) acc) (4 * (t.val / 4)) (t.val % 4) h' :=
  Pipeline.eq_accAt_of_mod (fun n h => (outsAt0 V c n h).1) 4 _ _
    (fun n h hn => congrArg Prod.fst ((outsAt0_A V c ⟨n, h⟩ hn).trans (outA0_eq V c ⟨n, h⟩ hn)))
    (fun n h hn => congrArg Prod.fst ((outsAt0_B V c ⟨n + 1, h⟩ hn).trans (outB0_eq V c ⟨n + 1, h⟩ hn _ _)))
    (by decide) t.val t.isLt h'

/-- Window 2's likewise. -/
theorem acc2_eq (c : Dev nD) (t : Fin cfg0.N) (h' : 4 * (t.val / 4) + t.val % 4 < cfg0.N) :
    (outsAt0 V c t.val t.isLt).2 = Pipeline.accAt (N := cfg0.N)
      (fun n h => k0_pay4 (iblk0 V c 0 ⟨n, h⟩) k0_pay2)
      (fun n h acc => k0_pay4 (iblk0 V c 0 ⟨n, h⟩) acc) (4 * (t.val / 4)) (t.val % 4) h' :=
  Pipeline.eq_accAt_of_mod (fun n h => (outsAt0 V c n h).2) 4 _ _
    (fun n h hn => congrArg Prod.snd ((outsAt0_A V c ⟨n, h⟩ hn).trans (outA0_eq V c ⟨n, h⟩ hn)))
    (fun n h hn => congrArg Prod.snd ((outsAt0_B V c ⟨n + 1, h⟩ hn).trans (outB0_eq V c ⟨n + 1, h⟩ hn _ _)))
    (by decide) t.val t.isLt h'

/-! ## The payloads read at an index, over the extended reals -/

end AnyInstance

section AtIdeal
open Idealize.ShloMosaic.ValueIdx

/-- The lane of an index of a [1, 1, 4096] block. -/
def lane (i : S1x1x4096.Idx) : Fin 4096 := ⟨(i 2).val, (i 2).isLt⟩

/-- The zero blocks the reset stores are zero everywhere. -/
theorem pay1_apply (i : S1x1x4096.Idx) : k0_pay1 (F := Ideal) i = 0 := by
  unfold k0_pay1
  exact Ideal.ofBits_zero_f32
theorem pay2_apply (i : S1x1x4096.Idx) : k0_pay2 (F := Ideal) i = 0 := by
  unfold k0_pay2
  exact Ideal.ofBits_zero_f32

/-- The reduction over the rows of a 512 × 4096 block, read at a lane: the sum over the 512 rows. -/
theorem colred_apply (x : FVec Ideal S512x4096 .f32) (hφ : FKind.Formats .f32)
    (hacc : (0x00000000#32 : BitVec 32) = FKind.add.neutral .f32 hφ) (i : S1x1x4096.Idx) :
    shapeCast S1x1x4096 (shapeCast S1x4096 (multiReduction .add [0] S4096 x 0x00000000#32 reduces_S512x4096_S4096 hφ hacc)
      shapeCasts_S4096_S1x4096) shapeCasts_S1x4096_S1x1x4096 i = ∑ r : Fin 512, x (ix2 r (lane i)) := by
  refine (shapeCast_addUnit_apply (n := 2) ![1, 4096] _ _ i).trans ?_
  refine (shapeCast_addUnit_apply (n := 1) ![4096] _ _ (fun a => i a.succ)).trans ?_
  refine (Ideal.multiReduction_add_single x _ reduces_S512x4096_S4096 hφ hacc _).trans ?_
  exact Finset.sum_congr rfl fun r _ => congrArg x (funext fun a => match a with | ⟨0, _⟩ => rfl | ⟨1, _⟩ => rfl)

/-- The sum payload at an index: what the accumulator held there plus the block's column sum. -/
theorem pay3_apply (x : Vec Ideal S512x4096 .f32) (acc : Vec Ideal S1x1x4096 .f32) (i : S1x1x4096.Idx) :
    k0_pay3 (F := Ideal) x acc i = acc i + ∑ r : Fin 512, x (ix2 r (lane i)) := by
  unfold k0_pay3
  dsimp only
  rw [addf_apply, shapeCast_self]
  exact congrArg (acc i + ·) (colred_apply x _ _ i)

/-- The sum-of-squares payload at an index: what the accumulator held there plus the block's column sum of squares. -/
theorem pay4_apply (x : Vec Ideal S512x4096 .f32) (acc : Vec Ideal S1x1x4096 .f32) (i : S1x1x4096.Idx) :
    k0_pay4 (F := Ideal) x acc i = acc i + ∑ r : Fin 512, x (ix2 r (lane i)) * x (ix2 r (lane i)) := by
  unfold k0_pay4
  dsimp only
  rw [addf_apply, shapeCast_self]
  exact congrArg (acc i + ·) ((colred_apply (mulf x x) _ _ i).trans rfl)

/-! ## A row of the grid's four points: the fold as a sum -/

variable (W : (c : Dev nD) → (b : Ref sig .tc) → Buf (Elt Ideal) ((c : Thread nD τ).loc b))

/-- The column sum of a 512 × 4096 block at the lane of `i`, and its column sum of squares. -/
def colsumOf (x : Vec Ideal S512x4096 .f32) (i : S1x1x4096.Idx) : EReal := ∑ r : Fin 512, x (ix2 r (lane i))
def colsumsqOf (x : Vec Ideal S512x4096 .f32) (i : S1x1x4096.Idx) : EReal := ∑ r : Fin 512, x (ix2 r (lane i)) * x (ix2 r (lane i))

/-- Those of point `n`'s block (zero past the grid: never used). -/
def colsum (c : Dev nD) (n : ℕ) (i : S1x1x4096.Idx) : EReal :=
  if h : n < cfg0.N then colsumOf (iblk0 W c 0 ⟨n, h⟩) i else 0
def colsumsq (c : Dev nD) (n : ℕ) (i : S1x1x4096.Idx) : EReal :=
  if h : n < cfg0.N then colsumsqOf (iblk0 W c 0 ⟨n, h⟩) i else 0

/-- At the last point of a row of the grid window 1's accumulator holds, at each index, the sum of the four blocks' column sums. -/
theorem acc1_apply (c : Dev nD) (t : Fin cfg0.N) (h3 : t.val % 4 = 3) (i : S1x1x4096.Idx) :
    ((outsAt0 W c t.val t.isLt).1 : Vec Ideal S1x1x4096 .f32) i = 0 + ∑ s ∈ Finset.range 4, colsum W c (4 * (t.val / 4) + s) i := by
  have hN : cfg0.N = 8 := N_0
  have h' : 4 * (t.val / 4) + t.val % 4 < cfg0.N := by have := t.isLt; omega
  rw [acc1_eq W c t h']
  have key : ∀ (j : ℕ), j = 3 → ∀ (h : 4 * (t.val / 4) + j < cfg0.N),
      Pipeline.accAt (N := cfg0.N) (fun n h => k0_pay3 (F := Ideal) (iblk0 W c 0 ⟨n, h⟩) (k0_pay1 (F := Ideal)))
        (fun n h acc => k0_pay3 (F := Ideal) (iblk0 W c 0 ⟨n, h⟩) acc) (4 * (t.val / 4)) j h i
        = 0 + ∑ s ∈ Finset.range 4, colsum W c (4 * (t.val / 4) + s) i := by
    intro j hj h; subst hj
    exact Pipeline.accAt_add_apply _ _ (fun _ => 0) (colsum W c) (4 * (t.val / 4)) 3
      (fun h i => by rw [pay3_apply, pay1_apply]; unfold colsum colsumOf; rw [dif_pos h])
      (fun n h acc i _ _ => by rw [pay3_apply]; unfold colsum colsumOf; rw [dif_pos h]) 3 le_rfl h i
  exact key _ h3 h'

/-- Window 2's likewise, of the column sums of squares. -/
theorem acc2_apply (c : Dev nD) (t : Fin cfg0.N) (h3 : t.val % 4 = 3) (i : S1x1x4096.Idx) :
    ((outsAt0 W c t.val t.isLt).2 : Vec Ideal S1x1x4096 .f32) i = 0 + ∑ s ∈ Finset.range 4, colsumsq W c (4 * (t.val / 4) + s) i := by
  have hN : cfg0.N = 8 := N_0
  have h' : 4 * (t.val / 4) + t.val % 4 < cfg0.N := by have := t.isLt; omega
  rw [acc2_eq W c t h']
  have key : ∀ (j : ℕ), j = 3 → ∀ (h : 4 * (t.val / 4) + j < cfg0.N),
      Pipeline.accAt (N := cfg0.N) (fun n h => k0_pay4 (F := Ideal) (iblk0 W c 0 ⟨n, h⟩) (k0_pay2 (F := Ideal)))
        (fun n h acc => k0_pay4 (F := Ideal) (iblk0 W c 0 ⟨n, h⟩) acc) (4 * (t.val / 4)) j h i
        = 0 + ∑ s ∈ Finset.range 4, colsumsq W c (4 * (t.val / 4) + s) i := by
    intro j hj h; subst hj
    exact Pipeline.accAt_add_apply _ _ (fun _ => 0) (colsumsq W c) (4 * (t.val / 4)) 3
      (fun h i => by rw [pay4_apply, pay2_apply]; unfold colsumsq colsumsqOf; rw [dif_pos h])
      (fun n h acc i _ _ => by rw [pay4_apply]; unfold colsumsq colsumsqOf; rw [dif_pos h]) 3 le_rfl h i
  exact key _ h3 h'

/-! ## The blocks, read off the input array -/

/-- The index maps, decided over the grid: the input's block at point `t` is row block `t`; each accumulator's is the
    half `t / 4`. -/
theorem idx0_facts : ∀ t : Fin cfg0.N, win0_0.index t 0 = t.val ∧ win0_0.index t 1 = 0 :=
  (by decide +kernel : ∀ t : Fin grid0.N, win0_0.index t 0 = t.val ∧ win0_0.index t 1 = 0)
theorem idx1_facts : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)
theorem idx2_facts : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- The input array as the region finds it, as a 4096 × 4096 array of extended reals. -/
def xarr (c : Dev nD) : Vec Ideal S4096x4096 .f32 := W c main_arg0
theorem xarr_eq (c : Dev nD) : xarr W c = W c main_arg0 := rfl

/-- Row `r` of point `t`'s block is row `512 t + r` of the input. -/
theorem iblk0_apply (c : Dev nD) (t : Fin cfg0.N) (r : Fin 512) (l : Fin 4096) (hb : 512 * t.val + r.val < 4096) :
    (iblk0 W c 0 t : Vec Ideal S512x4096 .f32) (ix2 r l) = xarr W c (ix2 (⟨512 * t.val + r.val, hb⟩ : Fin 4096) l) := by
  have hi := idx0_facts t
  unfold iblk0 xarr
  rw [View.read_apply]
  show W c main_arg0 _ = W c main_arg0 _
  congr 1
  funext a
  apply Fin.ext
  match a with
  | ⟨0, _⟩ => show win0_0.index t 0 * 512 + 1 * r.val = 512 * t.val + r.val; rw [hi.1]; omega
  | ⟨1, _⟩ => show win0_0.index t 1 * 4096 + 1 * l.val = l.val; rw [hi.2]; omega

/-! ## Four blocks of 512 rows are 2048 rows -/

/-- (block, row in the block) ↔ row of the half. -/
def blockEquiv : Fin 4 × Fin 512 ≃ Fin 2048 := finProdFinEquiv.trans (finCongr (by decide))
theorem blockEquiv_val (s : Fin 4) (r : Fin 512) : (blockEquiv (s, r)).val = r.val + 512 * s.val := rfl

/-- Two rank-2 indices with equal coordinates are equal. -/
theorem ix2_congr {n0 n1 : Nat} {a a' : Fin n0} {b b' : Fin n1} (ha : a.val = a'.val) (hb : b.val = b'.val) :
    (ix2 a b : (⟨2, ![n0, n1]⟩ : Shape).Idx) = ix2 a' b' := by
  rw [Fin.ext ha, Fin.ext hb]

/-- The four column sums of the points of row `q` of the grid add up to the column sum over the 2048 rows of half `q`. -/
theorem colsum_run (c : Dev nD) (q : ℕ) (hq : q < 2) (i : S1x1x4096.Idx) (l : Fin 4096) (hl : l.val = (i 2).val) :
    ∑ s ∈ Finset.range 4, colsum W c (4 * q + s) i
      = ∑ r : Fin 2048, xarr W c (ix2 (⟨2048 * q + r.val, by have := r.isLt; omega⟩ : Fin 4096) l) := by
  have hN : cfg0.N = 8 := N_0
  rw [Finset.sum_range, ← Equiv.sum_comp blockEquiv, Fintype.sum_prod_type]
  refine Finset.sum_congr rfl fun s _ => ?_
  have hs : 4 * q + s.val < cfg0.N := by have := s.isLt; omega
  unfold colsum colsumOf
  rw [dif_pos hs]
  refine Finset.sum_congr rfl fun r _ => ?_
  rw [iblk0_apply W c ⟨4 * q + s.val, hs⟩ r (lane i) (by have := s.isLt; have := r.isLt; show 512 * (4 * q + s.val) + r.val < 4096; omega)]
  refine congrArg _ (ix2_congr ?_ ?_)
  · show 512 * (4 * q + s.val) + r.val = 2048 * q + (blockEquiv (s, r)).val
    rw [blockEquiv_val]; omega
  · exact hl.symm

/-- The same for the sums of squares. -/
theorem colsumsq_run (c : Dev nD) (q : ℕ) (hq : q < 2) (i : S1x1x4096.Idx) (l : Fin 4096) (hl : l.val = (i 2).val) :
    ∑ s ∈ Finset.range 4, colsumsq W c (4 * q + s) i
      = ∑ r : Fin 2048, xarr W c (ix2 (⟨2048 * q + r.val, by have := r.isLt; omega⟩ : Fin 4096) l)
          * xarr W c (ix2 (⟨2048 * q + r.val, by have := r.isLt; omega⟩ : Fin 4096) l) := by
  have hN : cfg0.N = 8 := N_0
  rw [Finset.sum_range, ← Equiv.sum_comp blockEquiv, Fintype.sum_prod_type]
  refine Finset.sum_congr rfl fun s _ => ?_
  have hs : 4 * q + s.val < cfg0.N := by have := s.isLt; omega
  unfold colsumsq colsumsqOf
  rw [dif_pos hs]
  refine Finset.sum_congr rfl fun r _ => ?_
  rw [iblk0_apply W c ⟨4 * q + s.val, hs⟩ r (lane i) (by have := s.isLt; have := r.isLt; show 512 * (4 * q + s.val) + r.val < 4096; omega)]
  have e : (ix2 (⟨512 * (4 * q + s.val) + r.val, by have := s.isLt; have := r.isLt; omega⟩ : Fin 4096) (lane i) : S4096x4096.Idx)
      = ix2 (⟨2048 * q + (blockEquiv (s, r)).val, by have := (blockEquiv (s, r)).isLt; omega⟩ : Fin 4096) l :=
    ix2_congr (by show 512 * (4 * q + s.val) + r.val = 2048 * q + (blockEquiv (s, r)).val; rw [blockEquiv_val]; omega) hl.symm
  exact congrArg (fun j => xarr W c j * xarr W c j) e

/-! ## The result arrays -/

/-- The column sums of each half of the rows, as contents of the first result array. -/
def G1fun (c : Dev nD) : Vec Ideal S2x1x4096 .f32 :=
  fun i => (∑ r : Fin 2048, xarr W c
    (ix2 (⟨2048 * (i 0).val + r.val, by have h0 : (i 0).val < 2 := (i 0).isLt; have := r.isLt; omega⟩ : Fin 4096) (⟨(i 2).val, (i 2).isLt⟩ : Fin 4096)) : EReal)
def G1 (c : Dev nD) : Buf (Elt Ideal) ((c : Thread nD τ).loc main_v9_0) := G1fun W c
/-- The column sums of squares of each half of the rows, as contents of the second result array. -/
def G2fun (c : Dev nD) : Vec Ideal S2x1x4096 .f32 :=
  fun i => (∑ r : Fin 2048, xarr W c
      (ix2 (⟨2048 * (i 0).val + r.val, by have h0 : (i 0).val < 2 := (i 0).isLt; have := r.isLt; omega⟩ : Fin 4096) (⟨(i 2).val, (i 2).isLt⟩ : Fin 4096))
    * xarr W c
      (ix2 (⟨2048 * (i 0).val + r.val, by have h0 : (i 0).val < 2 := (i 0).isLt; have := r.isLt; omega⟩ : Fin 4096) (⟨(i 2).val, (i 2).isLt⟩ : Fin 4096)) : EReal)
def G2 (c : Dev nD) : Buf (Elt Ideal) ((c : Thread nD τ).loc main_v9_1) := G2fun W c

/-- `G1fun`, `G2fun` at an index whose half is `q` and whose lane is `l`. -/
theorem G1fun_eq (c : Dev nD) (i : S2x1x4096.Idx) (q : ℕ) (hq : q < 2) (l : Fin 4096) (h0 : (i 0).val = q) (h2 : (i 2).val = l.val) :
    (∑ r : Fin 2048, xarr W c (ix2 (⟨2048 * q + r.val, by have := r.isLt; omega⟩ : Fin 4096) l) : EReal) = G1fun W c i := by
  unfold G1fun
  exact Finset.sum_congr rfl fun r _ => congrArg _ (ix2_congr (by show 2048 * q + r.val = 2048 * (i 0).val + r.val; rw [h0]) h2.symm)
theorem G2fun_eq (c : Dev nD) (i : S2x1x4096.Idx) (q : ℕ) (hq : q < 2) (l : Fin 4096) (h0 : (i 0).val = q) (h2 : (i 2).val = l.val) :
    (∑ r : Fin 2048, xarr W c (ix2 (⟨2048 * q + r.val, by have := r.isLt; omega⟩ : Fin 4096) l)
      * xarr W c (ix2 (⟨2048 * q + r.val, by have := r.isLt; omega⟩ : Fin 4096) l) : EReal) = G2fun W c i := by
  unfold G2fun
  have e : ∀ r : Fin 2048, (ix2 (⟨2048 * q + r.val, by have := r.isLt; omega⟩ : Fin 4096) l : S4096x4096.Idx)
      = ix2 (⟨2048 * (i 0).val + r.val, by rw [h0]; have := r.isLt; omega⟩ : Fin 4096) (⟨(i 2).val, (i 2).isLt⟩ : Fin 4096) :=
    fun r => ix2_congr (by show 2048 * q + r.val = 2048 * (i 0).val + r.val; rw [h0]) h2.symm
  exact Finset.sum_congr rfl fun r _ => congrArg (fun j => xarr W c j * xarr W c j) (e r)

/-- What the last point of a row of the grid writes back of window 1 is its block of `G1`. -/
theorem flushed1_eq (c : Dev nD) (t : Fin cfg0.N) (hf : (cfg0.win 1).flush t = true) :
    (dat0 W c).flushed 1 t = ((cfg0.win 1).blk t).view.read (Elt Ideal) (G1 W c) := by
  have h3 : t.val % 4 = 3 := (flush0_1 t).mp hf
  have hN : cfg0.N = 8 := N_0
  have hi := idx1_facts t
  funext y
  have e0 : ((((cfg0.win 1).blk t).view.emb y) 0 : ℕ) = t.val / 4 := by
    refine (Window.rect_emb_val win0_1 t y 0).trans ?_
    rw [hi.1]; show t.val / 4 * 1 + (y 0).val = t.val / 4
    have : (y 0).val < 1 := (y 0).isLt
    omega
  have e2 : ((((cfg0.win 1).blk t).view.emb y) 2 : ℕ) = (y 2).val := by
    refine (Window.rect_emb_val win0_1 t y 2).trans ?_
    rw [hi.2.2]; show 0 * 4096 + (y 2).val = (y 2).val
    omega
  show (dat0 W c).after 1 t ((cfg0.win 1).xinj (grid0.coords t) y) = _
  rw [after0_1, acc1_apply W c t h3, zero_add,
    colsum_run W c (t.val / 4) (by have := t.isLt; omega) _ (⟨(y 2).val, (y 2).isLt⟩ : Fin 4096) rfl, View.read_apply]
  exact G1fun_eq W c _ (t.val / 4) (by have := t.isLt; omega) _ e0 e2

/-- What it writes back of window 2 is its block of `G2`. -/
theorem flushed2_eq (c : Dev nD) (t : Fin cfg0.N) (hf : (cfg0.win 2).flush t = true) :
    (dat0 W c).flushed 2 t = ((cfg0.win 2).blk t).view.read (Elt Ideal) (G2 W c) := by
  have h3 : t.val % 4 = 3 := (flush0_2 t).mp hf
  have hN : cfg0.N = 8 := N_0
  have hi := idx2_facts t
  funext y
  have e0 : ((((cfg0.win 2).blk t).view.emb y) 0 : ℕ) = t.val / 4 := by
    refine (Window.rect_emb_val win0_2 t y 0).trans ?_
    rw [hi.1]; show t.val / 4 * 1 + (y 0).val = t.val / 4
    have : (y 0).val < 1 := (y 0).isLt
    omega
  have e2 : ((((cfg0.win 2).blk t).view.emb y) 2 : ℕ) = (y 2).val := by
    refine (Window.rect_emb_val win0_2 t y 2).trans ?_
    rw [hi.2.2]; show 0 * 4096 + (y 2).val = (y 2).val
    omega
  show (dat0 W c).after 2 t ((cfg0.win 2).xinj (grid0.coords t) y) = _
  rw [after0_2, acc2_apply W c t h3, zero_add,
    colsumsq_run W c (t.val / 4) (by have := t.isLt; omega) _ (⟨(y 2).val, (y 2).isLt⟩ : Fin 4096) rfl, View.read_apply]
  exact G2fun_eq W c _ (t.val / 4) (by have := t.isLt; omega) _ e0 e2

/-- The last point of row `k` of the grid covers index `(k, 0, j)` of a result array. -/
theorem mem_blk1 (k : Fin 2) (j : Fin 4096) (t : Fin cfg0.N) (ht : t.val = 4 * k.val + 3) :
    (ix3 k (0 : Fin 1) j : S2x1x4096.Idx) ∈ ((cfg0.win 1).blk t).view.set := by
  have hi := idx1_facts t
  show _ ∈ ((View.whole main_v9_0).slice (win0_1.rect t)).set
  rw [View.set_slice_whole, Rect.mem_set_unit]
  intro a
  match a with
  | ⟨0, _⟩ => show win0_1.index t 0 * 1 ≤ k.val ∧ k.val < win0_1.index t 0 * 1 + 1
              rw [hi.1, ht]; omega
  | ⟨1, _⟩ => show win0_1.index t 1 * 1 ≤ 0 ∧ 0 < win0_1.index t 1 * 1 + 1
              rw [hi.2.1]; omega
  | ⟨2, _⟩ => show win0_1.index t 2 * 4096 ≤ j.val ∧ j.val < win0_1.index t 2 * 4096 + 4096
              rw [hi.2.2]; have := j.isLt; omega
theorem mem_blk2 (k : Fin 2) (j : Fin 4096) (t : Fin cfg0.N) (ht : t.val = 4 * k.val + 3) :
    (ix3 k (0 : Fin 1) j : S2x1x4096.Idx) ∈ ((cfg0.win 2).blk t).view.set := by
  have hi := idx2_facts t
  show _ ∈ ((View.whole main_v9_1).slice (win0_2.rect t)).set
  rw [View.set_slice_whole, Rect.mem_set_unit]
  intro a
  match a with
  | ⟨0, _⟩ => show win0_2.index t 0 * 1 ≤ k.val ∧ k.val < win0_2.index t 0 * 1 + 1
              rw [hi.1, ht]; omega
  | ⟨1, _⟩ => show win0_2.index t 1 * 1 ≤ 0 ∧ 0 < win0_2.index t 1 * 1 + 1
              rw [hi.2.1]; omega
  | ⟨2, _⟩ => show win0_2.index t 2 * 4096 ≤ j.val ∧ j.val < win0_2.index t 2 * 4096 + 4096
              rw [hi.2.2]; have := j.isLt; omega

/-- THE COLUMN SUMS, over the input named `xarr`. -/
theorem sum_x (c : Dev nD) (k : Fin 2) (j : Fin 4096) :
    ((dat0 (F := Ideal) W c).arrAt 1 cfg0.N : Vec Ideal S2x1x4096 .f32) (ix3 k (0 : Fin 1) j)
      = ∑ r : Fin 2048, xarr W c (ix2 (⟨2048 * k.val + r.val, by omega⟩ : Fin 4096) j) := by
  have hN : cfg0.N = 8 := N_0
  have ht : 4 * k.val + 3 < cfg0.N := by have := k.isLt; omega
  exact (dat0 W c).arrAt_apply_of_mem 1 (G1 W c) (flushed1_eq W c) cfg0.N ⟨4 * k.val + 3, ht⟩ _ ht
    ((flush0_1 _).mpr (by show (4 * k.val + 3) % 4 = 3; omega)) (mem_blk1 k j _ rfl)

/-- THE COLUMN SUMS OF SQUARES, over the input named `xarr`. -/
theorem sumsq_x (c : Dev nD) (k : Fin 2) (j : Fin 4096) :
    ((dat0 (F := Ideal) W c).arrAt 2 cfg0.N : Vec Ideal S2x1x4096 .f32) (ix3 k (0 : Fin 1) j)
      = ∑ r : Fin 2048, xarr W c (ix2 (⟨2048 * k.val + r.val, by omega⟩ : Fin 4096) j)
          * xarr W c (ix2 (⟨2048 * k.val + r.val, by omega⟩ : Fin 4096) j) := by
  have hN : cfg0.N = 8 := N_0
  have ht : 4 * k.val + 3 < cfg0.N := by have := k.isLt; omega
  exact (dat0 W c).arrAt_apply_of_mem 2 (G2 W c) (flushed2_eq W c) cfg0.N ⟨4 * k.val + 3, ht⟩ _ ht
    ((flush0_2 _).mpr (by show (4 * k.val + 3) % 4 = 3; omega)) (mem_blk2 k j _ rfl)

end AtIdeal

end Stats

/-! ## The two statements

The input as the region finds it is read through `Stats.xarr V c`, which is `V c main_arg0` at the type of a 4096 × 4096 array of
extended reals (`Stats.xarr_eq`, by definition). -/

open Idealize.ShloMosaic.ValueIdx in
/-- THE COLUMN SUMS. After the region the first result array holds, at `(k, 0, j)`, the sum of column `j` over the 2048 rows
    of half `k` of the input as the region finds it. -/
theorem stats_sum (V : (c : Dev nD) → (b : Ref sig .tc) → Buf (Elt Ideal) ((c : Thread nD τ).loc b)) (c : Dev nD) (k : Fin 2) (j : Fin 4096) :
    ((dat0 (F := Ideal) V c).arrAt 1 cfg0.N : Vec Ideal S2x1x4096 .f32) (ix3 k (0 : Fin 1) j)
      = ∑ r : Fin 2048, Stats.xarr V c (ix2 (⟨2048 * k.val + r.val, by omega⟩ : Fin 4096) j) :=
  Stats.sum_x V c k j

open Idealize.ShloMosaic.ValueIdx in
/-- THE COLUMN SUMS OF SQUARES. After the region the second result array holds, at `(k, 0, j)`, the sum of the squares of
    column `j` over the 2048 rows of half `k` of the input as the region finds it. -/
theorem stats_sumsq (V : (c : Dev nD) → (b : Ref sig .tc) → Buf (Elt Ideal) ((c : Thread nD τ).loc b)) (c : Dev nD) (k : Fin 2) (j : Fin 4096) :
    ((dat0 (F := Ideal) V c).arrAt 2 cfg0.N : Vec Ideal S2x1x4096 .f32) (ix3 k (0 : Fin 1) j)
      = ∑ r : Fin 2048, Stats.xarr V c (ix2 (⟨2048 * k.val + r.val, by omega⟩ : Fin 4096) j)
          * Stats.xarr V c (ix2 (⟨2048 * k.val + r.val, by omega⟩ : Fin 4096) j) :=
  Stats.sumsq_x V c k j

end Cert.KernelIdeal.Hand

end
-- ==== Proof.Consts.lean ====
/-
  The float literals the two programs spell, as the extended reals their patterns denote. Stated once, here: the other
  modules read them and never unfold a pattern themselves.
-/
import Idealize.ShloMosaic.PureOps.Ideal

noncomputable section

namespace Cert.Consts

open Idealize.ShloMosaic

/-- The pattern of 4096.0 (the batch size, the reference's divisor of the column sums) denotes the real 4096. -/
theorem ofBits_4096 : Ideal.ofBits .f32 0x45800000#32 = ((4096 : ℝ) : EReal) := by
  simp [Ideal.ofBits, Ideal.ieee, -EReal.coe_mul]; norm_num

/-- The pattern of 2⁻¹² (the kernel's factor on the column sums) denotes the real 1/4096: a power of two, so exactly. -/
theorem ofBits_inv4096 : Ideal.ofBits .f32 0x39800000#32 = ((1 / 4096 : ℝ) : EReal) := by
  simp [Ideal.ofBits, Ideal.ieee, -EReal.coe_mul]; norm_num

/-- The pattern of 16.0 (the reference's divisor of the scores) denotes the real 16. -/
theorem ofBits_16 : Ideal.ofBits .f32 0x41800000#32 = ((16 : ℝ) : EReal) := by
  simp [Ideal.ofBits, Ideal.ieee, -EReal.coe_mul]; norm_num

/-- The pattern of 2⁻⁴ (the kernel's factor on the scores) denotes the real 1/16, exactly. -/
theorem ofBits_inv16 : Ideal.ofBits .f32 0x3D800000#32 = ((1 / 16 : ℝ) : EReal) := by
  simp [Ideal.ofBits, Ideal.ieee, -EReal.coe_mul]; norm_num

/-- The pattern of −∞ (the unit both programs start a row's maximum from) denotes the bottom element. -/
theorem ofBits_negInf : Ideal.ofBits .f32 0xFF800000#32 = (⊥ : EReal) := by
  simp [Ideal.ofBits, Ideal.ieee]

/-- The pattern of +∞ (the bound the precondition compares absolute values with) denotes the top element. -/
theorem ofBits_posInf : Ideal.ofBits .f32 0x7F800000#32 = (⊤ : EReal) := by
  simp [Ideal.ofBits, Ideal.ieee]

/-- Multiplying by the kernel's 2⁻⁴ is dividing by the reference's 16, on every extended real. -/
theorem mul_inv16 (x : EReal) : x * Ideal.ofBits .f32 0x3D800000#32 = Ideal.div x (Ideal.ofBits .f32 0x41800000#32) := by
  rw [ofBits_inv16, ofBits_16, Ideal.div_coe (by norm_num : (16 : ℝ) ≠ 0)]

/-- Multiplying by the kernel's 2⁻¹² is dividing by the reference's 4096, on every extended real. -/
theorem mul_inv4096 (x : EReal) : x * Ideal.ofBits .f32 0x39800000#32 = Ideal.div x (Ideal.ofBits .f32 0x45800000#32) := by
  rw [ofBits_inv4096, ofBits_4096, Ideal.div_coe (by norm_num : (4096 : ℝ) ≠ 0)]

end Cert.Consts

end
-- ==== Proof.KI.AttnValue.lean ====
import proofs.«113718_j18957985645187_2_alg».proof.Proof.KI.Attn
import proofs.«113718_j18957985645187_2_alg».proof.Proof.Spec
import proofs.«113718_j18957985645187_2_alg».proof.Proof.Consts
import Idealize.ShloMosaic.Lib.Pipeline.Value
import Idealize.ShloMosaic.Lib.ValueIdx
import Idealize.ShloMosaic.Lib.ValueLayout
import Idealize.ShloMosaic.PureOps.Ideal.Laws

/-! # Region 1 (the attention kernel): its value over the extended reals

After the region the 4096 × 256 × 16 output array holds, at (r, e, p), the attention output of the specification,
read off the arrays the region is entered with.

The stored block, index by index. The side-by-side product at row 16·b + p, column c of the block is
Σ_d xn(b, 256·p + d) · W(d, c) + bias(c), where xn is the normalized block (x − mean) · (var + ε)^(−1/2) · γ + β:
reading the 32 × 4096 block as 512 × 256 puts row b's partition p in row 16·b + p. Its three column ranges
[0,256), [256,512), [512,768) are the query, key and value projections; read as 32 × 16 × 256 they are indexed
(b, p, feature). The scores at (b, e, f) are Σ_p Q(b,p,e) · K(b,p,f), times the literal 1/16, which is division by
the literal 16. Each row of scores has its maximum (a fold of the maximum from −∞, which is the supremum)
subtracted, is exponentiated and divided by its sum: the soft-max. The block at (b, e, p) is
Σ_f softmax(b,e,·)(f) · V(b,p,f). The specification multiplies weight by entry where the block multiplies entry by
weight: multiplication of extended reals commutes.

From blocks to the array. Point t of the grid reads rows 32·t … 32·t + 31 of the input and the six other arrays
whole, and writes back block t of the output: rows 32·t … 32·t + 31. So what point t writes back is block t of ONE
function of the entry contents, the blocks cover the array (row r is in block r / 32), and the array ends holding
that function. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The first product: the normalized rows against the three weight matrices side by side -/

theorem lhs1_0 (i : S512x768.Idx) (q : dot_S512x256_S256x768_S512x768_1_0_0_1_n_n.contr.Idx) : (dot_S512x256_S256x768_S512x768_1_0_0_1_n_n.lhsIdx i q 0).val = (i 0).val := by
  unfold DotDims.lhsIdx
  rw [dif_neg (show ¬(0 : Fin S512x256.rank) ∈ dot_S512x256_S256x768_S512x768_1_0_0_1_n_n.lhsBatch by decide), dif_pos (show (0 : Fin S512x256.rank) ∈ dot_S512x256_S256x768_S512x768_1_0_0_1_n_n.lhsNonContracting by decide)]
  rfl
theorem lhs1_1 (i : S512x768.Idx) (q : dot_S512x256_S256x768_S512x768_1_0_0_1_n_n.contr.Idx) : (dot_S512x256_S256x768_S512x768_1_0_0_1_n_n.lhsIdx i q 1).val = (q ⟨0, by decide⟩).val :=
  dot_S512x256_S256x768_S512x768_1_0_0_1_n_n.lhsIdx_val_of_single rfl i q
theorem rhs1_0 (i : S512x768.Idx) (q : dot_S512x256_S256x768_S512x768_1_0_0_1_n_n.contr.Idx) : (dot_S512x256_S256x768_S512x768_1_0_0_1_n_n.rhsIdx i q 0).val = (q ⟨0, by decide⟩).val :=
  dot_S512x256_S256x768_S512x768_1_0_0_1_n_n.rhsIdx_val_of_single rfl i q
theorem rhs1_1 (i : S512x768.Idx) (q : dot_S512x256_S256x768_S512x768_1_0_0_1_n_n.contr.Idx) : (dot_S512x256_S256x768_S512x768_1_0_0_1_n_n.rhsIdx i q 1).val = (i 1).val := by
  unfold DotDims.rhsIdx
  rw [dif_neg (show ¬(1 : Fin S256x768.rank) ∈ dot_S512x256_S256x768_S512x768_1_0_0_1_n_n.rhsBatch by decide), dif_pos (show (1 : Fin S256x768.rank) ∈ dot_S512x256_S256x768_S512x768_1_0_0_1_n_n.rhsNonContracting by decide)]
  rfl

/-- A 32 × 4096 array read as 512 × 256: row 16·b + p, column d is row b, column 256·p + d. -/
theorem cast_32x4096_512x256 {α : Type} (v : S32x4096.Idx → α) (h : S32x4096.ShapeCasts S512x256)
    (b : Fin 32) (p : Fin 16) (d : Fin 256) (R : Fin 512) (hR : R.val = 16 * b.val + p.val) (j : Fin 4096) (hj : j.val = 256 * p.val + d.val) :
    shapeCast S512x256 v h (ix2 R d) = v (ix2 b j) :=
  shapeCast_apply v h _ _ (by
    rw [Shape.rowMajor_val_two, Shape.rowMajor_val_two]
    show b.val * 4096 + j.val = R.val * 256 + d.val
    omega)

/-- The block's normalized entry at row b, column j: (x − mean) · (var + ε)^(−1/2) · γ + β. -/
def xnB (x0 : Vec Ideal S32x4096 .f32) (x1 x3 x5 x7 : Vec Ideal S1x4096 .f32) (b : Fin 32) (j : Fin 4096) : EReal :=
  ((x0 (ix2 b j) : EReal) - (x1 (ix2 (0 : Fin 1) j) : EReal)) * Ideal.rsqrt ((x3 (ix2 (0 : Fin 1) j) : EReal) + Cert.Spec.eps)
    * (x5 (ix2 (0 : Fin 1) j) : EReal) + (x7 (ix2 (0 : Fin 1) j) : EReal)

set_option maxHeartbeats 400000 in
/-- The three projections side by side, at row 16·b + p and column c: the sum over the 256 features of partition p of
    the normalized entry times the weight, plus the bias. -/
theorem pay2_apply (x0 : Vec Ideal S32x4096 .f32) (x1 x3 x5 x7 : Vec Ideal S1x4096 .f32) (x22 : Vec Ideal S256x768 .bf16) (x24 : Vec Ideal S1x768 .f32)
    (b : Fin 32) (p : Fin 16) (c : Fin 768) (R : Fin 512) (hR : R.val = 16 * b.val + p.val) :
    k1_pay2 x0 x1 x3 x5 x7 x22 x24 (ix2 R c)
      = (∑ d : Fin 256, xnB x0 x1 x3 x5 x7 b ⟨256 * p.val + d.val, by omega⟩ * (x22 (ix2 d c) : EReal)) + (x24 (ix2 (0 : Fin 1) c) : EReal) := by
  unfold k1_pay2
  refine (addf_apply _ _ _).trans (congrArg₂ (· + ·) ?_ ?_)
  · refine (Ideal.matmul_constant_zero_apply _ none _ _ _).trans ?_
    rw [← Equiv.sum_comp (contrEquiv1 dot_S512x256_S256x768_S512x768_1_0_0_1_n_n 256 rfl rfl).symm]
    refine Finset.sum_congr rfl fun d _ => ?_
    have hk := contrEquiv1_symm_val dot_S512x256_S256x768_S512x768_1_0_0_1_n_n 256 rfl rfl d
    have el : dot_S512x256_S256x768_S512x768_1_0_0_1_n_n.lhsIdx (ix2 R c) ((contrEquiv1 dot_S512x256_S256x768_S512x768_1_0_0_1_n_n 256 rfl rfl).symm d) = ix2 R d := funext fun a => Fin.ext (by
      match a with
      | ⟨0, _⟩ => exact lhs1_0 _ _
      | ⟨1, _⟩ => exact (lhs1_1 _ _).trans hk)
    have er : dot_S512x256_S256x768_S512x768_1_0_0_1_n_n.rhsIdx (ix2 R c) ((contrEquiv1 dot_S512x256_S256x768_S512x768_1_0_0_1_n_n 256 rfl rfl).symm d) = ix2 d c := funext fun a => Fin.ext (by
      match a with
      | ⟨0, _⟩ => exact (rhs1_0 _ _).trans hk
      | ⟨1, _⟩ => exact rhs1_1 _ _)
    rw [el, er]
    refine congrArg₂ (· * ·) ?_ ?_
    · refine (truncf_apply (φ := .f32) (ψ := .bf16) _ bitsLt_bf16_f32 _).trans ?_
      refine (cast_32x4096_512x256 _ _ b p d R hR ⟨256 * p.val + d.val, by omega⟩ rfl).trans ?_
      unfold xnB
      refine (addf_apply _ _ _).trans (congrArg₂ (· + ·) ?_ ?_)
      · refine (mulf_apply _ _ _).trans (congrArg₂ (· * ·) ?_ ?_)
        · refine (mulf_apply _ _ _).trans (congrArg₂ (· * ·) ?_ ?_)
          · refine (subf_apply _ _ _).trans (congrArg₂ (· - ·) rfl ?_)
            refine (broadcastTo_1b_ab_apply _ _ b _).trans ?_
            exact congrFun (shapeCast_self x1 _) _
          · refine (broadcastTo_1b_ab_apply _ _ b _).trans ?_
            exact congrArg (fun z : EReal => Ideal.rsqrt (z + Cert.Spec.eps)) (congrFun (shapeCast_self x3 _) _)
        · refine (broadcastTo_1b_ab_apply _ _ b _).trans ?_
          exact congrFun (shapeCast_self x5 _) _
      · refine (broadcastTo_1b_ab_apply _ _ b _).trans ?_
        exact congrFun (shapeCast_self x7 _) _
    · exact congrFun (shapeCast_self x22 _) _
  · refine (broadcastTo_1b_ab_apply _ _ R c).trans ?_
    exact congrFun (shapeCast_self x24 _) _

/-! ## The two products batched over the block's 32 rows: their operand indices -/

theorem lhs2_0 (i : S32x256x256.Idx) (q : dot_S32x16x256_S32x16x256_S32x256x256_1_1_2_2_0_0.contr.Idx) :
    (dot_S32x16x256_S32x16x256_S32x256x256_1_1_2_2_0_0.lhsIdx i q 0).val = (i 0).val := by
  unfold DotDims.lhsIdx
  rw [dif_pos (show (0 : Fin S32x16x256.rank) ∈ dot_S32x16x256_S32x16x256_S32x256x256_1_1_2_2_0_0.lhsBatch by decide)]
  rfl

theorem lhs2_1 (i : S32x256x256.Idx) (q : dot_S32x16x256_S32x16x256_S32x256x256_1_1_2_2_0_0.contr.Idx) :
    (dot_S32x16x256_S32x16x256_S32x256x256_1_1_2_2_0_0.lhsIdx i q 1).val = (q ⟨0, by decide⟩).val :=
  dot_S32x16x256_S32x16x256_S32x256x256_1_1_2_2_0_0.lhsIdx_val_of_single rfl i q

theorem lhs2_2 (i : S32x256x256.Idx) (q : dot_S32x16x256_S32x16x256_S32x256x256_1_1_2_2_0_0.contr.Idx) :
    (dot_S32x16x256_S32x16x256_S32x256x256_1_1_2_2_0_0.lhsIdx i q 2).val = (i 1).val := by
  unfold DotDims.lhsIdx
  rw [dif_neg (show ¬(2 : Fin S32x16x256.rank) ∈ dot_S32x16x256_S32x16x256_S32x256x256_1_1_2_2_0_0.lhsBatch by decide), dif_pos (show (2 : Fin S32x16x256.rank) ∈ dot_S32x16x256_S32x16x256_S32x256x256_1_1_2_2_0_0.lhsNonContracting by decide)]
  rfl

theorem rhs2_0 (i : S32x256x256.Idx) (q : dot_S32x16x256_S32x16x256_S32x256x256_1_1_2_2_0_0.contr.Idx) :
    (dot_S32x16x256_S32x16x256_S32x256x256_1_1_2_2_0_0.rhsIdx i q 0).val = (i 0).val := by
  unfold DotDims.rhsIdx
  rw [dif_pos (show (0 : Fin S32x16x256.rank) ∈ dot_S32x16x256_S32x16x256_S32x256x256_1_1_2_2_0_0.rhsBatch by decide)]
  rfl

theorem rhs2_1 (i : S32x256x256.Idx) (q : dot_S32x16x256_S32x16x256_S32x256x256_1_1_2_2_0_0.contr.Idx) :
    (dot_S32x16x256_S32x16x256_S32x256x256_1_1_2_2_0_0.rhsIdx i q 1).val = (q ⟨0, by decide⟩).val :=
  dot_S32x16x256_S32x16x256_S32x256x256_1_1_2_2_0_0.rhsIdx_val_of_single rfl i q

theorem rhs2_2 (i : S32x256x256.Idx) (q : dot_S32x16x256_S32x16x256_S32x256x256_1_1_2_2_0_0.contr.Idx) :
    (dot_S32x16x256_S32x16x256_S32x256x256_1_1_2_2_0_0.rhsIdx i q 2).val = (i 2).val := by
  unfold DotDims.rhsIdx
  rw [dif_neg (show ¬(2 : Fin S32x16x256.rank) ∈ dot_S32x16x256_S32x16x256_S32x256x256_1_1_2_2_0_0.rhsBatch by decide), dif_pos (show (2 : Fin S32x16x256.rank) ∈ dot_S32x16x256_S32x16x256_S32x256x256_1_1_2_2_0_0.rhsNonContracting by decide)]
  rfl

theorem lhs3_0 (i : S32x256x16.Idx) (q : dot_S32x256x256_S32x16x256_S32x256x16_2_2_1_1_0_0.contr.Idx) :
    (dot_S32x256x256_S32x16x256_S32x256x16_2_2_1_1_0_0.lhsIdx i q 0).val = (i 0).val := by
  unfold DotDims.lhsIdx
  rw [dif_pos (show (0 : Fin S32x256x256.rank) ∈ dot_S32x256x256_S32x16x256_S32x256x16_2_2_1_1_0_0.lhsBatch by decide)]
  rfl

theorem lhs3_1 (i : S32x256x16.Idx) (q : dot_S32x256x256_S32x16x256_S32x256x16_2_2_1_1_0_0.contr.Idx) :
    (dot_S32x256x256_S32x16x256_S32x256x16_2_2_1_1_0_0.lhsIdx i q 1).val = (i 1).val := by
  unfold DotDims.lhsIdx
  rw [dif_neg (show ¬(1 : Fin S32x256x256.rank) ∈ dot_S32x256x256_S32x16x256_S32x256x16_2_2_1_1_0_0.lhsBatch by decide), dif_pos (show (1 : Fin S32x256x256.rank) ∈ dot_S32x256x256_S32x16x256_S32x256x16_2_2_1_1_0_0.lhsNonContracting by decide)]
  rfl

theorem lhs3_2 (i : S32x256x16.Idx) (q : dot_S32x256x256_S32x16x256_S32x256x16_2_2_1_1_0_0.contr.Idx) :
    (dot_S32x256x256_S32x16x256_S32x256x16_2_2_1_1_0_0.lhsIdx i q 2).val = (q ⟨0, by decide⟩).val :=
  dot_S32x256x256_S32x16x256_S32x256x16_2_2_1_1_0_0.lhsIdx_val_of_single rfl i q

theorem rhs3_0 (i : S32x256x16.Idx) (q : dot_S32x256x256_S32x16x256_S32x256x16_2_2_1_1_0_0.contr.Idx) :
    (dot_S32x256x256_S32x16x256_S32x256x16_2_2_1_1_0_0.rhsIdx i q 0).val = (i 0).val := by
  unfold DotDims.rhsIdx
  rw [dif_pos (show (0 : Fin S32x16x256.rank) ∈ dot_S32x256x256_S32x16x256_S32x256x16_2_2_1_1_0_0.rhsBatch by decide)]
  rfl

theorem rhs3_1 (i : S32x256x16.Idx) (q : dot_S32x256x256_S32x16x256_S32x256x16_2_2_1_1_0_0.contr.Idx) :
    (dot_S32x256x256_S32x16x256_S32x256x16_2_2_1_1_0_0.rhsIdx i q 1).val = (i 2).val := by
  unfold DotDims.rhsIdx
  rw [dif_neg (show ¬(1 : Fin S32x16x256.rank) ∈ dot_S32x256x256_S32x16x256_S32x256x16_2_2_1_1_0_0.rhsBatch by decide), dif_pos (show (1 : Fin S32x16x256.rank) ∈ dot_S32x256x256_S32x16x256_S32x256x16_2_2_1_1_0_0.rhsNonContracting by decide)]
  rfl

theorem rhs3_2 (i : S32x256x16.Idx) (q : dot_S32x256x256_S32x16x256_S32x256x16_2_2_1_1_0_0.contr.Idx) :
    (dot_S32x256x256_S32x16x256_S32x256x16_2_2_1_1_0_0.rhsIdx i q 2).val = (q ⟨0, by decide⟩).val :=
  dot_S32x256x256_S32x16x256_S32x256x16_2_2_1_1_0_0.rhsIdx_val_of_single rfl i q

/-! ## Layout operations at coordinates -/

/-- A 512 × 256 array read as 32 × 16 × 256: (b, p, e) is row 16·b + p, column e. -/
theorem cast_512x256_32x16x256 {α : Type} (v : S512x256.Idx → α) (h : S512x256.ShapeCasts S32x16x256)
    (b : Fin 32) (p : Fin 16) (e : Fin 256) (R : Fin 512) (hR : R.val = 16 * b.val + p.val) :
    shapeCast S32x16x256 v h (ix3 b p e) = v (ix2 R e) :=
  shapeCast_apply v h _ _ (by
    rw [Shape.rowMajor_val_two, Shape.rowMajor_val_three]
    show R.val * 256 + e.val = (b.val * 16 + p.val) * 256 + e.val
    omega)

/-- A 32 × 256 array given a trailing unit axis and broadcast along it to 32 × 256 × 256 reads, at (b, e, f), the array at (b, e). -/
theorem keepdims_apply {α : Type} (M : S32x256.Idx → α) (h1 : S32x256.ShapeCasts S32x256x1) (h2 : S32x256x1.Broadcasts S32x256x256)
    (b : Fin 32) (e f : Fin 256) :
    broadcastTo S32x256x256 (shapeCast S32x256x1 M h1) h2 (ix3 b e f) = M (ix2 b e) := by
  refine (broadcastTo_apply _ h2 (ix3 b e f) (ix3 b e (0 : Fin 1)) fun a => ?_).trans ?_
  · match a with
    | ⟨0, _⟩ => rfl
    | ⟨1, _⟩ => rfl
    | ⟨2, _⟩ => rfl
  · exact shapeCast_apply M h1 _ _ (by
      rw [Shape.rowMajor_val_two, Shape.rowMajor_val_three]
      show b.val * 256 + e.val = (b.val * 256 + e.val) * 1 + 0
      omega)

/-! ## The two lane reductions -/

/-- A fold of the maximum from the bottom element is the supremum. -/
theorem fold_max_bot_eq_sup {ι : Type} [DecidableEq ι] (s : Finset ι) (f : ι → EReal) : s.fold max ⊥ f = s.sup f := by
  induction s using Finset.induction_on with
  | empty => rfl
  | insert a s ha ih => rw [Finset.fold_insert ha, Finset.sup_insert, ih]

/-- The row maximum over the last axis, at (b, e): the supremum of the row. -/
theorem rowmax_apply (v : FVec Ideal S32x256x256 .f32) (h : S32x256x256.Reduces [2] S32x256) (hφ : FKind.Formats .f32)
    (hacc : (0xFF800000#32 : BitVec 32) = FKind.maximumf.neutral .f32 hφ) (b : Fin 32) (e : Fin 256) :
    multiReduction .maximumf [2] S32x256 v 0xFF800000#32 h hφ hacc (ix2 b e) = Cert.Spec.rowmax (fun g : Fin 256 => (v (ix3 b e g) : EReal)) := by
  refine (Ideal.multiReduction_maximumf_single v _ h hφ hacc (ix2 b e)).trans ?_
  unfold Cert.Spec.rowmax
  rw [show (FloatOps.ofBits (F := Ideal) .f32 0xFF800000#32 : EReal) = ⊥ from Cert.Consts.ofBits_negInf]
  refine (fold_max_bot_eq_sup _ _).trans ?_
  refine congrArg (Finset.sup Finset.univ) (funext fun g => ?_)
  exact congrArg v (funext fun a => Fin.ext (by
    match a with
    | ⟨0, _⟩ => rfl
    | ⟨1, _⟩ => rfl
    | ⟨2, _⟩ => rfl))

/-- The row sum over the last axis, at (b, e). -/
theorem rowsum_apply (v : FVec Ideal S32x256x256 .f32) (h : S32x256x256.Reduces [2] S32x256) (hφ : FKind.Formats .f32)
    (hacc : (0x00000000#32 : BitVec 32) = FKind.add.neutral .f32 hφ) (b : Fin 32) (e : Fin 256) :
    multiReduction .add [2] S32x256 v 0x00000000#32 h hφ hacc (ix2 b e) = ∑ g : Fin 256, (v (ix3 b e g) : EReal) := by
  refine (Ideal.multiReduction_add_single v _ h hφ hacc (ix2 b e)).trans ?_
  refine Finset.sum_congr rfl fun g _ => ?_
  exact congrArg v (funext fun a => Fin.ext (by
    match a with
    | ⟨0, _⟩ => rfl
    | ⟨1, _⟩ => rfl
    | ⟨2, _⟩ => rfl))

/-! ## The three later payloads at an index -/

/-- The value operand: (b, p, f) is the third projection at row 16·b + p, column 512 + f. -/
theorem pay3_apply (x0 : Vec Ideal S32x4096 .f32) (x1 x3 x5 x7 : Vec Ideal S1x4096 .f32) (x22 : Vec Ideal S256x768 .bf16) (x24 : Vec Ideal S1x768 .f32)
    (b : Fin 32) (p : Fin 16) (f : Fin 256) (R : Fin 512) (hR : R.val = 16 * b.val + p.val) (c : Fin 768) (hc : c.val = 512 + f.val) :
    k1_pay3 x0 x1 x3 x5 x7 x22 x24 (ix3 b p f) = k1_pay2 x0 x1 x3 x5 x7 x22 x24 (ix2 R c) := by
  unfold k1_pay3
  generalize k1_pay2 x0 x1 x3 x5 x7 x22 x24 = Y
  refine (truncf_apply (φ := .f32) (ψ := .bf16) _ bitsLt_bf16_f32 _).trans ?_
  refine (cast_512x256_32x16x256 _ _ b p f R hR).trans ?_
  exact slice2_axis1_apply 512 Y _ R f c hc

set_option maxHeartbeats 400000 in
/-- The scaled scores: (b, e, f) is the sum over the 16 partitions of query (row 16·b + p, column e) times key
    (row 16·b + p, column 256 + f), times the literal 1/16. -/
theorem pay4_apply (x0 : Vec Ideal S32x4096 .f32) (x1 x3 x5 x7 : Vec Ideal S1x4096 .f32) (x22 : Vec Ideal S256x768 .bf16) (x24 : Vec Ideal S1x768 .f32)
    (b : Fin 32) (e f : Fin 256) :
    k1_pay4 x0 x1 x3 x5 x7 x22 x24 (ix3 b e f)
      = (∑ p : Fin 16, (k1_pay2 x0 x1 x3 x5 x7 x22 x24 (ix2 (⟨16 * b.val + p.val, by omega⟩ : Fin 512) (⟨e.val, by omega⟩ : Fin 768)) : EReal)
            * (k1_pay2 x0 x1 x3 x5 x7 x22 x24 (ix2 (⟨16 * b.val + p.val, by omega⟩ : Fin 512) (⟨256 + f.val, by omega⟩ : Fin 768)) : EReal))
          * Ideal.ofBits .f32 0x3D800000#32 := by
  unfold k1_pay4
  generalize k1_pay2 x0 x1 x3 x5 x7 x22 x24 = Y
  refine (mulf_apply _ _ _).trans (congrArg₂ (· * ·) ?_ rfl)
  refine (Ideal.matmul_constant_zero_apply _ none _ _ _).trans ?_
  rw [← Equiv.sum_comp (contrEquiv1 dot_S32x16x256_S32x16x256_S32x256x256_1_1_2_2_0_0 16 rfl rfl).symm]
  refine Finset.sum_congr rfl fun p _ => ?_
  have hk := contrEquiv1_symm_val dot_S32x16x256_S32x16x256_S32x256x256_1_1_2_2_0_0 16 rfl rfl p
  have el : dot_S32x16x256_S32x16x256_S32x256x256_1_1_2_2_0_0.lhsIdx (ix3 b e f) ((contrEquiv1 dot_S32x16x256_S32x16x256_S32x256x256_1_1_2_2_0_0 16 rfl rfl).symm p) = ix3 b p e := funext fun a => Fin.ext (by
    match a with
    | ⟨0, _⟩ => exact lhs2_0 _ _
    | ⟨1, _⟩ => exact (lhs2_1 _ _).trans hk
    | ⟨2, _⟩ => exact lhs2_2 _ _)
  have er : dot_S32x16x256_S32x16x256_S32x256x256_1_1_2_2_0_0.rhsIdx (ix3 b e f) ((contrEquiv1 dot_S32x16x256_S32x16x256_S32x256x256_1_1_2_2_0_0 16 rfl rfl).symm p) = ix3 b p f := funext fun a => Fin.ext (by
    match a with
    | ⟨0, _⟩ => exact rhs2_0 _ _
    | ⟨1, _⟩ => exact (rhs2_1 _ _).trans hk
    | ⟨2, _⟩ => exact rhs2_2 _ _)
  rw [el, er]
  refine congrArg₂ (· * ·) ?_ ?_
  · refine (truncf_apply (φ := .f32) (ψ := .bf16) _ bitsLt_bf16_f32 _).trans ?_
    refine (cast_512x256_32x16x256 _ _ b p e ⟨16 * b.val + p.val, by omega⟩ rfl).trans ?_
    exact slice2_axis1_apply 0 Y _ _ e ⟨e.val, by omega⟩ (Nat.zero_add _).symm
  · refine (truncf_apply (φ := .f32) (ψ := .bf16) _ bitsLt_bf16_f32 _).trans ?_
    refine (cast_512x256_32x16x256 _ _ b p f ⟨16 * b.val + p.val, by omega⟩ rfl).trans ?_
    exact slice2_axis1_apply 256 Y _ _ f ⟨256 + f.val, by omega⟩ rfl

/-- A score less its row's maximum, at (b, e, f). -/
theorem shifted_apply (v : FVec Ideal S32x256x256 .f32) (h1 : S32x256.ShapeCasts S32x256x1) (h2 : S32x256x1.Broadcasts S32x256x256)
    (hr : S32x256x256.Reduces [2] S32x256) (hφ : FKind.Formats .f32) (hacc : (0xFF800000#32 : BitVec 32) = FKind.maximumf.neutral .f32 hφ)
    (b : Fin 32) (e f : Fin 256) :
    subf v (broadcastTo S32x256x256 (shapeCast S32x256x1 (multiReduction .maximumf [2] S32x256 v 0xFF800000#32 hr hφ hacc) h1) h2) (ix3 b e f)
      = (v (ix3 b e f) : EReal) - Cert.Spec.rowmax (fun g : Fin 256 => (v (ix3 b e g) : EReal)) :=
  (subf_apply _ _ _).trans (congrArg₂ (· - ·) rfl ((keepdims_apply _ h1 h2 b e f).trans (rowmax_apply v hr hφ hacc b e)))

set_option maxHeartbeats 400000 in
/-- The stored block at (b, e, p): the soft-max of row (b, e) of the scores against the value operand. -/
theorem pay1_apply (v37 : FVec Ideal S32x16x256 .bf16) (v40 : FVec Ideal S32x256x256 .f32) (b : Fin 32) (e : Fin 256) (p : Fin 16) :
    k1_pay1 v37 v40 (ix3 b e p)
      = ∑ f : Fin 256, Cert.Spec.softmax (fun g : Fin 256 => (v40 (ix3 b e g) : EReal)) f * (v37 (ix3 b p f) : EReal) := by
  unfold k1_pay1
  refine (Ideal.matmul_constant_zero_apply _ none _ _ _).trans ?_
  rw [← Equiv.sum_comp (contrEquiv1 dot_S32x256x256_S32x16x256_S32x256x16_2_2_1_1_0_0 256 rfl rfl).symm]
  refine Finset.sum_congr rfl fun f _ => ?_
  have hk := contrEquiv1_symm_val dot_S32x256x256_S32x16x256_S32x256x16_2_2_1_1_0_0 256 rfl rfl f
  have el : dot_S32x256x256_S32x16x256_S32x256x16_2_2_1_1_0_0.lhsIdx (ix3 b e p) ((contrEquiv1 dot_S32x256x256_S32x16x256_S32x256x16_2_2_1_1_0_0 256 rfl rfl).symm f) = ix3 b e f := funext fun a => Fin.ext (by
    match a with
    | ⟨0, _⟩ => exact lhs3_0 _ _
    | ⟨1, _⟩ => exact lhs3_1 _ _
    | ⟨2, _⟩ => exact (lhs3_2 _ _).trans hk)
  have er : dot_S32x256x256_S32x16x256_S32x256x16_2_2_1_1_0_0.rhsIdx (ix3 b e p) ((contrEquiv1 dot_S32x256x256_S32x16x256_S32x256x16_2_2_1_1_0_0 256 rfl rfl).symm f) = ix3 b p f := funext fun a => Fin.ext (by
    match a with
    | ⟨0, _⟩ => exact rhs3_0 _ _
    | ⟨1, _⟩ => exact rhs3_1 _ _
    | ⟨2, _⟩ => exact (rhs3_2 _ _).trans hk)
  rw [el, er]
  refine congrArg₂ (· * ·) ?_ rfl
  refine (truncf_apply (φ := .f32) (ψ := .bf16) _ bitsLt_bf16_f32 _).trans ?_
  refine (divf_apply _ _ _).trans ?_
  unfold Cert.Spec.softmax
  refine congrArg₂ Ideal.div ?_ ?_
  · exact congrArg Ideal.exp (shifted_apply v40 _ _ _ _ _ b e f)
  · refine (keepdims_apply _ _ _ b e f).trans ?_
    refine (rowsum_apply _ _ _ _ b e).trans ?_
    exact Finset.sum_congr rfl fun g _ => congrArg Ideal.exp (shifted_apply v40 _ _ _ _ _ b e g)

/-! ## The payload against the specification -/

/-- One role's projection: the side-by-side product at row 16·b + p and the role's column for feature e is the
    specification's projection of the normalized array (the product taken in the other order). -/
theorem proj_of_pay2 (x0 : Vec Ideal S32x4096 .f32) (x1 x3 x5 x7 : Vec Ideal S1x4096 .f32) (x22 : Vec Ideal S256x768 .bf16) (x24 : Vec Ideal S1x768 .f32)
    (b : Fin 32) (p : Fin 16) (e : Fin 256) (c : Fin 768) (R : Fin 512) (hR : R.val = 16 * b.val + p.val)
    (X : Fin 4096 → Fin 4096 → EReal) (r : Fin 4096) (mean var γ β : Fin 4096 → EReal)
    (hX : ∀ j : Fin 4096, (x0 (ix2 b j) : EReal) = X r j)
    (hmean : ∀ j : Fin 4096, (x1 (ix2 (0 : Fin 1) j) : EReal) = mean j) (hvar : ∀ j : Fin 4096, (x3 (ix2 (0 : Fin 1) j) : EReal) = var j)
    (hγ : ∀ j : Fin 4096, (x5 (ix2 (0 : Fin 1) j) : EReal) = γ j) (hβ : ∀ j : Fin 4096, (x7 (ix2 (0 : Fin 1) j) : EReal) = β j)
    (W : Fin 256 → Fin 256 → EReal) (bias : Fin 256 → EReal)
    (hW : ∀ d : Fin 256, (x22 (ix2 d c) : EReal) = W e d) (hb : (x24 (ix2 (0 : Fin 1) c) : EReal) = bias e) :
    k1_pay2 x0 x1 x3 x5 x7 x22 x24 (ix2 R c) = Cert.Spec.proj (Cert.Spec.xn X mean var γ β) W bias r e p := by
  refine (pay2_apply x0 x1 x3 x5 x7 x22 x24 b p c R hR).trans ?_
  unfold Cert.Spec.proj
  refine congrArg₂ (· + ·) (Finset.sum_congr rfl fun d _ => ?_) hb
  rw [hW d, mul_comm]
  refine congrArg (W e d * ·) ?_
  unfold xnB Cert.Spec.xn Cert.Spec.col
  rw [hX, hmean, hvar, hγ, hβ]

set_option maxHeartbeats 400000 in
/-- THE STORED BLOCK AGAINST THE SPECIFICATION: at (b, e, p) it is the attention output at the row the block's row b
    is, of the arrays the seven blocks are read off. -/
theorem pay_apply (x0 : Vec Ideal S32x4096 .f32) (x1 x3 x5 x7 : Vec Ideal S1x4096 .f32) (x22 : Vec Ideal S256x768 .bf16) (x24 : Vec Ideal S1x768 .f32)
    (b : Fin 32) (e : Fin 256) (p : Fin 16)
    (X : Fin 4096 → Fin 4096 → EReal) (r : Fin 4096) (mean var γ β : Fin 4096 → EReal)
    (hX : ∀ j : Fin 4096, (x0 (ix2 b j) : EReal) = X r j)
    (hmean : ∀ j : Fin 4096, (x1 (ix2 (0 : Fin 1) j) : EReal) = mean j) (hvar : ∀ j : Fin 4096, (x3 (ix2 (0 : Fin 1) j) : EReal) = var j)
    (hγ : ∀ j : Fin 4096, (x5 (ix2 (0 : Fin 1) j) : EReal) = γ j) (hβ : ∀ j : Fin 4096, (x7 (ix2 (0 : Fin 1) j) : EReal) = β j)
    (Wq : Fin 256 → Fin 256 → EReal) (bq : Fin 256 → EReal) (Wk : Fin 256 → Fin 256 → EReal) (bk : Fin 256 → EReal)
    (Wv : Fin 256 → Fin 256 → EReal) (bv : Fin 256 → EReal)
    (hWq : ∀ e d : Fin 256, (x22 (ix2 d (⟨e.val, by omega⟩ : Fin 768)) : EReal) = Wq e d)
    (hWk : ∀ e d : Fin 256, (x22 (ix2 d (⟨256 + e.val, by omega⟩ : Fin 768)) : EReal) = Wk e d)
    (hWv : ∀ e d : Fin 256, (x22 (ix2 d (⟨512 + e.val, by omega⟩ : Fin 768)) : EReal) = Wv e d)
    (hbq : ∀ e : Fin 256, (x24 (ix2 (0 : Fin 1) (⟨e.val, by omega⟩ : Fin 768)) : EReal) = bq e)
    (hbk : ∀ e : Fin 256, (x24 (ix2 (0 : Fin 1) (⟨256 + e.val, by omega⟩ : Fin 768)) : EReal) = bk e)
    (hbv : ∀ e : Fin 256, (x24 (ix2 (0 : Fin 1) (⟨512 + e.val, by omega⟩ : Fin 768)) : EReal) = bv e) :
    k1_pay1 (k1_pay3 x0 x1 x3 x5 x7 x22 x24) (k1_pay4 x0 x1 x3 x5 x7 x22 x24) (ix3 b e p)
      = Cert.Spec.attnOut X mean var γ β Wq bq Wk bk Wv bv r e p := by
  refine (pay1_apply _ _ b e p).trans ?_
  unfold Cert.Spec.attnOut
  refine Finset.sum_congr rfl fun f _ => congrArg₂ (· * ·) ?_ ?_
  · refine congrArg (fun s => Cert.Spec.softmax s f) (funext fun g => ?_)
    refine (pay4_apply x0 x1 x3 x5 x7 x22 x24 b e g).trans ?_
    rw [Cert.Consts.mul_inv16]
    unfold Cert.Spec.score
    refine congrArg₂ Ideal.div (Finset.sum_congr rfl fun p' _ => congrArg₂ (· * ·) ?_ ?_) rfl
    · exact proj_of_pay2 x0 x1 x3 x5 x7 x22 x24 b p' e _ _ rfl X r mean var γ β hX hmean hvar hγ hβ Wq bq (hWq e) (hbq e)
    · exact proj_of_pay2 x0 x1 x3 x5 x7 x22 x24 b p' g _ _ rfl X r mean var γ β hX hmean hvar hγ hβ Wk bk (hWk g) (hbk g)
  · refine (pay3_apply x0 x1 x3 x5 x7 x22 x24 b p f ⟨16 * b.val + p.val, by omega⟩ rfl ⟨512 + f.val, by omega⟩ rfl).trans ?_
    exact proj_of_pay2 x0 x1 x3 x5 x7 x22 x24 b p f _ _ rfl X r mean var γ β hX hmean hvar hγ hβ Wv bv (hWv f) (hbv f)

/-! ## The region-entry contents as curried functions -/

section Array
variable (V : (c : Dev nD) → (b : Ref sig .tc) → Buf (Elt Ideal) ((c : Thread nD τ).loc b))

/-- The input array: row r, column j. -/
def entryX (c : Dev nD) (r j : Fin 4096) : EReal := (V c main_arg0 : S4096x4096.Idx → Elt Ideal .f32) (ix2 r j)
/-- The columns' means, variances, scales and shifts. -/
def entrymean (c : Dev nD) (j : Fin 4096) : EReal := (V c main_v28 : S1x4096.Idx → Elt Ideal .f32) (ix2 (0 : Fin 1) j)
def entryvar (c : Dev nD) (j : Fin 4096) : EReal := (V c main_v29 : S1x4096.Idx → Elt Ideal .f32) (ix2 (0 : Fin 1) j)
def entryγ (c : Dev nD) (j : Fin 4096) : EReal := (V c main_v0 : S1x4096.Idx → Elt Ideal .f32) (ix2 (0 : Fin 1) j)
def entryβ (c : Dev nD) (j : Fin 4096) : EReal := (V c main_v1 : S1x4096.Idx → Elt Ideal .f32) (ix2 (0 : Fin 1) j)
/-- The three roles' weights, side by side in the 256 × 768 array: output feature e, input feature d. -/
def entryWq (c : Dev nD) (e d : Fin 256) : EReal := (V c main_v6 : S256x768.Idx → Elt Ideal .bf16) (ix2 d (⟨e.val, by omega⟩ : Fin 768))
def entryWk (c : Dev nD) (e d : Fin 256) : EReal := (V c main_v6 : S256x768.Idx → Elt Ideal .bf16) (ix2 d (⟨256 + e.val, by omega⟩ : Fin 768))
def entryWv (c : Dev nD) (e d : Fin 256) : EReal := (V c main_v6 : S256x768.Idx → Elt Ideal .bf16) (ix2 d (⟨512 + e.val, by omega⟩ : Fin 768))
/-- The three roles' biases, side by side in the 1 × 768 array. -/
def entrybq (c : Dev nD) (e : Fin 256) : EReal := (V c main_v8 : S1x768.Idx → Elt Ideal .f32) (ix2 (0 : Fin 1) (⟨e.val, by omega⟩ : Fin 768))
def entrybk (c : Dev nD) (e : Fin 256) : EReal := (V c main_v8 : S1x768.Idx → Elt Ideal .f32) (ix2 (0 : Fin 1) (⟨256 + e.val, by omega⟩ : Fin 768))
def entrybv (c : Dev nD) (e : Fin 256) : EReal := (V c main_v8 : S1x768.Idx → Elt Ideal .f32) (ix2 (0 : Fin 1) (⟨512 + e.val, by omega⟩ : Fin 768))

/-- The whole output array as ONE function of the entry contents: the attention output, index by index. -/
def attnG (c : Dev nD) : S4096x256x16.Idx → EReal := fun i =>
  Cert.Spec.attnOut (entryX V c) (entrymean V c) (entryvar V c) (entryγ V c) (entryβ V c) (entryWq V c) (entrybq V c) (entryWk V c) (entrybk V c) (entryWv V c) (entrybv V c)
    ⟨(i 0).val, (i 0).isLt⟩ ⟨(i 1).val, (i 1).isLt⟩ ⟨(i 2).val, (i 2).isLt⟩

/-- It read at an index whose coordinates are r, e, p. -/
theorem attnG_apply (c : Dev nD) (i : S4096x256x16.Idx) (r : Fin 4096) (e : Fin 256) (p : Fin 16)
    (h0 : (i 0).val = r.val) (h1 : (i 1).val = e.val) (h2 : (i 2).val = p.val) :
    attnG V c i = Cert.Spec.attnOut (entryX V c) (entrymean V c) (entryvar V c) (entryγ V c) (entryβ V c) (entryWq V c) (entrybq V c) (entryWk V c) (entrybk V c) (entryWv V c) (entrybv V c) r e p := by
  obtain rfl : r = ⟨(i 0).val, (i 0).isLt⟩ := Fin.ext h0.symm
  obtain rfl : e = ⟨(i 1).val, (i 1).isLt⟩ := Fin.ext h1.symm
  obtain rfl : p = ⟨(i 2).val, (i 2).isLt⟩ := Fin.ext h2.symm
  rfl

/-! ## From blocks to the array -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid's 128 points: the input's and the output's row blocks are at the
    point's number, every other block index is zero. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 3) = t.val ∧ win1_7.index t (1 : Fin 3) = 0 ∧ win1_7.index t (2 : Fin 3) = 0 :=
  (by decide +kernel : ∀ t : Fin grid1.N, _)

/-- The input window's block at point t is rows 32·t … 32·t + 31 of the input. -/
theorem iblk_X (c : Dev nD) (t : Fin cfg1.N) (b : Fin 32) (j : Fin 4096) (r : Fin 4096) (hr : r.val = 32 * t.val + b.val) :
    ((iblk1 V c 0 t : Vec Ideal S32x4096 .f32) (ix2 b j) : EReal) = entryX V c r j := by
  have hi := idx_facts1 t
  unfold iblk1 entryX
  rw [View.read_apply]
  show (V c main_arg0 : S4096x4096.Idx → Elt Ideal .f32) _ = (V c main_arg0 : S4096x4096.Idx → Elt Ideal .f32) _
  congr 1
  funext a
  apply Fin.ext
  match a with
  | ⟨0, _⟩ => show win1_0.index t (0 : Fin 2) * 32 + 1 * b.val = r.val; omega
  | ⟨1, _⟩ => show win1_0.index t (1 : Fin 2) * 4096 + 1 * j.val = j.val; omega

/-- Window 1's block at any point is the whole array. -/
theorem iblk_mean (c : Dev nD) (t : Fin cfg1.N) (u : Fin 1) (j : Fin 4096) :
    ((iblk1 V c 1 t : Vec Ideal S1x4096 .f32) (ix2 u j) : EReal) = (V c main_v28 : S1x4096.Idx → Elt Ideal .f32) (ix2 u j) := by
  have hi := idx_facts1 t
  have hu : u.val = 0 := by omega
  unfold iblk1
  rw [View.read_apply]
  show (V c main_v28 : S1x4096.Idx → Elt Ideal .f32) _ = (V c main_v28 : S1x4096.Idx → Elt Ideal .f32) _
  congr 1
  funext a
  apply Fin.ext
  match a with
  | ⟨0, _⟩ => show win1_1.index t (0 : Fin 2) * 1 + 1 * u.val = u.val; omega
  | ⟨1, _⟩ => show win1_1.index t (1 : Fin 2) * 4096 + 1 * j.val = j.val; omega

/-- Window 2's block at any point is the whole array. -/
theorem iblk_var (c : Dev nD) (t : Fin cfg1.N) (u : Fin 1) (j : Fin 4096) :
    ((iblk1 V c 2 t : Vec Ideal S1x4096 .f32) (ix2 u j) : EReal) = (V c main_v29 : S1x4096.Idx → Elt Ideal .f32) (ix2 u j) := by
  have hi := idx_facts1 t
  have hu : u.val = 0 := by omega
  unfold iblk1
  rw [View.read_apply]
  show (V c main_v29 : S1x4096.Idx → Elt Ideal .f32) _ = (V c main_v29 : S1x4096.Idx → Elt Ideal .f32) _
  congr 1
  funext a
  apply Fin.ext
  match a with
  | ⟨0, _⟩ => show win1_2.index t (0 : Fin 2) * 1 + 1 * u.val = u.val; omega
  | ⟨1, _⟩ => show win1_2.index t (1 : Fin 2) * 4096 + 1 * j.val = j.val; omega

/-- Window 3's block at any point is the whole array. -/
theorem iblk_γ (c : Dev nD) (t : Fin cfg1.N) (u : Fin 1) (j : Fin 4096) :
    ((iblk1 V c 3 t : Vec Ideal S1x4096 .f32) (ix2 u j) : EReal) = (V c main_v0 : S1x4096.Idx → Elt Ideal .f32) (ix2 u j) := by
  have hi := idx_facts1 t
  have hu : u.val = 0 := by omega
  unfold iblk1
  rw [View.read_apply]
  show (V c main_v0 : S1x4096.Idx → Elt Ideal .f32) _ = (V c main_v0 : S1x4096.Idx → Elt Ideal .f32) _
  congr 1
  funext a
  apply Fin.ext
  match a with
  | ⟨0, _⟩ => show win1_3.index t (0 : Fin 2) * 1 + 1 * u.val = u.val; omega
  | ⟨1, _⟩ => show win1_3.index t (1 : Fin 2) * 4096 + 1 * j.val = j.val; omega

/-- Window 4's block at any point is the whole array. -/
theorem iblk_β (c : Dev nD) (t : Fin cfg1.N) (u : Fin 1) (j : Fin 4096) :
    ((iblk1 V c 4 t : Vec Ideal S1x4096 .f32) (ix2 u j) : EReal) = (V c main_v1 : S1x4096.Idx → Elt Ideal .f32) (ix2 u j) := by
  have hi := idx_facts1 t
  have hu : u.val = 0 := by omega
  unfold iblk1
  rw [View.read_apply]
  show (V c main_v1 : S1x4096.Idx → Elt Ideal .f32) _ = (V c main_v1 : S1x4096.Idx → Elt Ideal .f32) _
  congr 1
  funext a
  apply Fin.ext
  match a with
  | ⟨0, _⟩ => show win1_4.index t (0 : Fin 2) * 1 + 1 * u.val = u.val; omega
  | ⟨1, _⟩ => show win1_4.index t (1 : Fin 2) * 4096 + 1 * j.val = j.val; omega

/-- Window 5's block at any point is the whole weight array. -/
theorem iblk_W (c : Dev nD) (t : Fin cfg1.N) (d : Fin 256) (k : Fin 768) :
    ((iblk1 V c 5 t : Vec Ideal S256x768 .bf16) (ix2 d k) : EReal) = (V c main_v6 : S256x768.Idx → Elt Ideal .bf16) (ix2 d k) := by
  have hi := idx_facts1 t
  unfold iblk1
  rw [View.read_apply]
  show (V c main_v6 : S256x768.Idx → Elt Ideal .bf16) _ = (V c main_v6 : S256x768.Idx → Elt Ideal .bf16) _
  congr 1
  funext a
  apply Fin.ext
  match a with
  | ⟨0, _⟩ => show win1_5.index t (0 : Fin 2) * 256 + 1 * d.val = d.val; omega
  | ⟨1, _⟩ => show win1_5.index t (1 : Fin 2) * 768 + 1 * k.val = k.val; omega

/-- Window 6's block at any point is the whole bias array. -/
theorem iblk_bias (c : Dev nD) (t : Fin cfg1.N) (u : Fin 1) (k : Fin 768) :
    ((iblk1 V c 6 t : Vec Ideal S1x768 .f32) (ix2 u k) : EReal) = (V c main_v8 : S1x768.Idx → Elt Ideal .f32) (ix2 u k) := by
  have hi := idx_facts1 t
  have hu : u.val = 0 := by omega
  unfold iblk1
  rw [View.read_apply]
  show (V c main_v8 : S1x768.Idx → Elt Ideal .f32) _ = (V c main_v8 : S1x768.Idx → Elt Ideal .f32) _
  congr 1
  funext a
  apply Fin.ext
  match a with
  | ⟨0, _⟩ => show win1_6.index t (0 : Fin 2) * 1 + 1 * u.val = u.val; omega
  | ⟨1, _⟩ => show win1_6.index t (1 : Fin 2) * 768 + 1 * k.val = k.val; omega

set_option maxHeartbeats 1000000 in
/-- WHAT POINT t WRITES BACK is block t of the attention output of the entry contents. -/
theorem flushed7_eq (c : Dev nD) (t : Fin cfg1.N) :
    (dat1 V c).flushed 7 t = ((cfg1.win 7).blk t).view.read (Elt Ideal) (attnG V c) := by
  show (cfg1.win 7).cut (grid1.coords t) ((dat1 V c).after 7 t) = _
  rw [after1_7]
  unfold out1_7
  rw [View.canon_unit_zero hz3]
  simp only [View.ld_unit_zero (S := S32x4096) hz2, View.ld_unit_zero (S := S1x4096) hz2, View.ld_unit_zero (S := S256x768) hz2, View.ld_unit_zero (S := S1x768) hz2]
  have hi := idx_facts1 t
  have ht : t.val < 128 := Nat.lt_of_lt_of_eq t.isLt N_1
  funext y
  obtain ⟨b, e, p, rfl⟩ : ∃ (b : Fin 32) (e : Fin 256) (p : Fin 16), y = ix3 b e p := ⟨y 0, y 1, y 2, eq_ix3 (n0 := 32) (n1 := 256) (n2 := 16) y⟩
  rw [View.read_apply]
  refine (pay_apply (iblk1 V c 0 t) (iblk1 V c 1 t) (iblk1 V c 2 t) (iblk1 V c 3 t) (iblk1 V c 4 t) (iblk1 V c 5 t) (iblk1 V c 6 t) b e p
    (entryX V c) ⟨32 * t.val + b.val, by omega⟩ (entrymean V c) (entryvar V c) (entryγ V c) (entryβ V c)
    (fun j => iblk_X V c t b j _ rfl) (fun j => iblk_mean V c t 0 j) (fun j => iblk_var V c t 0 j) (fun j => iblk_γ V c t 0 j) (fun j => iblk_β V c t 0 j)
    (entryWq V c) (entrybq V c) (entryWk V c) (entrybk V c) (entryWv V c) (entrybv V c)
    (fun e d => iblk_W V c t d _) (fun e d => iblk_W V c t d _) (fun e d => iblk_W V c t d _)
    (fun e => iblk_bias V c t 0 _) (fun e => iblk_bias V c t 0 _) (fun e => iblk_bias V c t 0 _)).trans ?_
  refine (attnG_apply V c _ ⟨32 * t.val + b.val, by omega⟩ e p ?_ ?_ ?_).symm
  · show win1_7.index t (0 : Fin 3) * 32 + 1 * b.val = 32 * t.val + b.val; omega
  · show win1_7.index t (1 : Fin 3) * 256 + 1 * e.val = e.val; omega
  · show win1_7.index t (2 : Fin 3) * 16 + 1 * p.val = p.val; omega

/-- An index of the output array is in point t's block iff each coordinate is in the block's range on its axis. -/
theorem mem_blk7 (t : Fin cfg1.N) (i : S4096x256x16.Idx) :
    i ∈ ((cfg1.win 7).blk t).view.set ↔ ∀ a : Fin 3, win1_7.index t a * S32x256x16.size a ≤ (i a).val ∧ (i a).val < win1_7.index t a * S32x256x16.size a + S32x256x16.size a := by
  show i ∈ ((View.whole main_v30).slice (win1_7.rect t)).set ↔ _
  rw [View.set_slice_whole, Rect.mem_set_unit]
  exact Iff.rfl

/-- THE ARRAY after the region: the attention output of the entry contents, everywhere (row r is in block r / 32). -/
theorem final7 (c : Dev nD) : (dat1 V c).arrAt 7 cfg1.N = attnG V c :=
  (dat1 V c).arrAt_eq_of_cover 7 (attnG V c) (fun t _ => flushed7_eq V c t) fun i => by
    have h0 : (i 0).val < 4096 := (i 0).isLt
    have h1 : (i 1).val < 256 := (i 1).isLt
    have h2 : (i 2).val < 16 := (i 2).isLt
    refine ⟨⟨(i 0).val / 32, Nat.lt_of_lt_of_eq (by omega : (i 0).val / 32 < 128) N_1.symm⟩, flush1_7 _, ?_⟩
    have hi := idx_facts1 ⟨(i 0).val / 32, Nat.lt_of_lt_of_eq (by omega : (i 0).val / 32 < 128) N_1.symm⟩
    rw [mem_blk7]
    intro a
    match a with
    | ⟨0, _⟩ => show win1_7.index _ (0 : Fin 3) * 32 ≤ (i 0).val ∧ (i 0).val < win1_7.index _ (0 : Fin 3) * 32 + 32; rw [hi.2.2.2.2.2.2.2.2.2.2.2.2.2.2.1]; show (i 0).val / 32 * 32 ≤ (i 0).val ∧ (i 0).val < (i 0).val / 32 * 32 + 32; omega
    | ⟨1, _⟩ => show win1_7.index _ (1 : Fin 3) * 256 ≤ (i 1).val ∧ (i 1).val < win1_7.index _ (1 : Fin 3) * 256 + 256; rw [hi.2.2.2.2.2.2.2.2.2.2.2.2.2.2.2.1]; omega
    | ⟨2, _⟩ => show win1_7.index _ (2 : Fin 3) * 16 ≤ (i 2).val ∧ (i 2).val < win1_7.index _ (2 : Fin 3) * 16 + 16; rw [hi.2.2.2.2.2.2.2.2.2.2.2.2.2.2.2.2]; omega

/-- THE VALUE of region 1: after the region the output array holds, at (r, e, p), the attention output of the
    region-entry contents. -/
theorem attn_value (c : Dev nD) (r : Fin 4096) (e : Fin 256) (p : Fin 16) :
    (dat1 (F := Ideal) V c).arrAt 7 cfg1.N (ix3 r e p)
      = Cert.Spec.attnOut (entryX V c) (entrymean V c) (entryvar V c) (entryγ V c) (entryβ V c) (entryWq V c) (entrybq V c) (entryWk V c) (entrybk V c) (entryWv V c) (entrybv V c) r e p :=
  (congrFun (final7 V c) (ix3 r e p)).trans (attnG_apply V c (ix3 r e p) r e p rfl rfl rfl)

end Array

end Cert.KernelIdeal.Hand

end
-- ==== Proof.StatsLaw.lean ====
/-
  The batch statistics, computed two ways. The kernel adds the column sums of the two halves of the batch and scales by 2⁻¹²; it takes the
  variance as the mean of squares less the squared mean, clamped at zero. The reference divides the whole column's sum by 4096 and takes the
  mean of the squared deviations. The means agree on every extended real (a sum regrouped; dividing by 4096 is multiplying by 2⁻¹²). The
  variances agree where the column's entries are real numbers: Σ (a − μ)² = Σ a² − N μ² when N μ = Σ a, and that is non-negative, so the clamp
  does nothing. With an infinite entry the two differ, which is why the claim's precondition asks for finite inputs.
-/
import proofs.«113718_j18957985645187_2_alg».proof.Proof.Spec
import proofs.«113718_j18957985645187_2_alg».proof.Proof.Consts
import Idealize.ShloMosaic.PureOps.Ideal.Laws

noncomputable section

namespace Cert.StatsLaw

open Idealize.ShloMosaic

/-- The coercion of the reals into the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `r` of half `k` of the batch. -/
def row (k : Fin 2) (r : Fin 2048) : Fin 4096 := ⟨2048 * k.val + r.val, by omega⟩

/-- A sum over the 4096 rows is the sum over the first 2048 plus the sum over the last 2048. -/
theorem sum_halves {M : Type} [AddCommMonoid M] (f : Fin 4096 → M) :
    ∑ r : Fin 4096, f r = (∑ r : Fin 2048, f (row 0 r)) + ∑ r : Fin 2048, f (row 1 r) := by
  have h := Fin.sum_univ_add (a := 2048) (b := 2048) (fun i : Fin (2048 + 2048) => f i)
  refine h.trans ?_
  congr 1

/-- Half `k`'s column sum and column sum of squares. -/
def kSum (x : Fin 4096 → Fin 4096 → EReal) (k : Fin 2) (j : Fin 4096) : EReal := ∑ r : Fin 2048, x (row k r) j
def kSumSq (x : Fin 4096 → Fin 4096 → EReal) (k : Fin 2) (j : Fin 4096) : EReal := ∑ r : Fin 2048, x (row k r) j * x (row k r) j

/-- The kernel's column mean. -/
def kMean (x : Fin 4096 → Fin 4096 → EReal) (j : Fin 4096) : EReal :=
  (kSum x 0 j + kSum x 1 j) * Ideal.ofBits .f32 0x39800000#32
/-- The kernel's column variance. -/
def kVar (x : Fin 4096 → Fin 4096 → EReal) (j : Fin 4096) : EReal :=
  max ((kSumSq x 0 j + kSumSq x 1 j) * Ideal.ofBits .f32 0x39800000#32 - kMean x j * kMean x j) (Ideal.ofBits .f32 0x00000000#32)

/-- The two means are one extended real, whatever the entries. -/
theorem kMean_eq (x : Fin 4096 → Fin 4096 → EReal) (j : Fin 4096) : kMean x j = Cert.Spec.refMean x j := by
  unfold kMean kSum Cert.Spec.refMean Cert.Spec.c4096
  rw [Cert.Consts.mul_inv4096, ← sum_halves (fun r => x r j)]

/-- Over the reals: the mean of squares less the squared mean is the mean of the squared deviations, and the clamp at zero leaves it. -/
theorem real_var (n : ℕ) (N : ℝ) (hN : (n : ℝ) = N) (hN0 : 0 < N) (a : Fin n → ℝ) :
    max ((∑ r, a r * a r) * (1 / N) - ((∑ r, a r) * (1 / N)) * ((∑ r, a r) * (1 / N))) 0
      = (∑ r, (a r - (∑ r', a r') * (1 / N)) * (a r - (∑ r', a r') * (1 / N))) * (1 / N) := by
  have hN' : N ≠ 0 := ne_of_gt hN0
  set S := ∑ r, a r with hSdef
  set μ := S * (1 / N) with hμ
  have hS : S = N * μ := by rw [hμ]; field_simp
  have key : ∑ r, (a r - μ) * (a r - μ) = (∑ r, a r * a r) - N * μ * μ := by
    have h1 : ∀ r, (a r - μ) * (a r - μ) = a r * a r - 2 * μ * a r + μ * μ := fun r => by ring
    simp only [h1, Finset.sum_add_distrib, Finset.sum_sub_distrib, ← Finset.mul_sum, Finset.sum_const, Finset.card_univ,
      Fintype.card_fin, nsmul_eq_mul]
    rw [← hSdef, hN, hS]; ring
  rw [key]
  have hnn : 0 ≤ ((∑ r, a r * a r) - N * μ * μ) * (1 / N) := by
    rw [← key]
    exact mul_nonneg (Finset.sum_nonneg fun r _ => mul_self_nonneg _) (by positivity)
  have e : (∑ r, a r * a r) * (1 / N) - μ * μ = ((∑ r, a r * a r) - N * μ * μ) * (1 / N) := by field_simp
  rw [e, max_eq_left hnn]

/-- The same over the extended reals, at real entries. -/
theorem ereal_var (n : ℕ) (N : ℝ) (hN : (n : ℝ) = N) (hN0 : 0 < N) (a : Fin n → ℝ) :
    max ((∑ r, (a r : EReal) * (a r : EReal)) * ((1 / N : ℝ) : EReal)
          - ((∑ r, (a r : EReal)) * ((1 / N : ℝ) : EReal)) * ((∑ r, (a r : EReal)) * ((1 / N : ℝ) : EReal))) 0
      = (∑ r, ((a r : EReal) - (∑ r', (a r' : EReal)) * ((1 / N : ℝ) : EReal))
            * ((a r : EReal) - (∑ r', (a r' : EReal)) * ((1 / N : ℝ) : EReal))) * ((1 / N : ℝ) : EReal) := by
  have h := real_var n N hN hN0 a
  have hmax : ∀ u : ℝ, max (u : EReal) 0 = ((max u 0 : ℝ) : EReal) := fun u => by
    rw [← EReal.coe_zero]; exact (EReal.coe_strictMono.monotone.map_max).symm
  simp only [← EReal.coe_mul, ← coe_sum, ← EReal.coe_sub]
  rw [hmax, h]

/-- The two variances are one extended real where the column's entries are real numbers. -/
theorem kVar_eq (x : Fin 4096 → Fin 4096 → EReal) (j : Fin 4096) (hfin : ∀ r, ∃ a : ℝ, x r j = (a : EReal)) :
    kVar x j = Cert.Spec.refVar x j := by
  choose a ha using hfin
  unfold kVar Cert.Spec.refVar
  rw [kMean_eq]
  unfold kSumSq Cert.Spec.refMean Cert.Spec.c4096
  rw [← sum_halves (fun r => x r j * x r j), Ideal.ofBits_zero_f32, Cert.Consts.ofBits_inv4096, Cert.Consts.ofBits_4096]
  simp only [Ideal.div_coe (by norm_num : (4096 : ℝ) ≠ 0), ha]
  exact ereal_var 4096 4096 (by norm_num) (by norm_num) a

end Cert.StatsLaw

end
-- ==== Proof.KI.KernelValue.lean ====
/-
  The kernel program's result, entry by entry, as the specification's function of the launched arguments at the reference's statistics.

  The attention kernel's output array is the specification's attention output of what that kernel was handed. What it was handed is: x as
  launched; γ and β as launched (a vector read as a one-row matrix); the k-th weight matrix's entry (e, d) at column 256 k + e of row d of
  the fused weights, the k-th bias vector's entry e at column 256 k + e of the fused biases; and the kernel's own mean and variance of each
  column, which are the reference's — the mean always, the variance because x is finite.
-/
import proofs.«113718_j18957985645187_2_alg».proof.Proof.KI.Entries
import proofs.«113718_j18957985645187_2_alg».proof.Proof.KI.HostIndex
import proofs.«113718_j18957985645187_2_alg».proof.Proof.KI.StatsValue
import proofs.«113718_j18957985645187_2_alg».proof.Proof.KI.AttnValue
import proofs.«113718_j18957985645187_2_alg».proof.Proof.StatsLaw

set_option maxRecDepth 16384

noncomputable section

namespace Cert.KernelIdeal.Hand

open Cert.KernelIdeal
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The launched arguments as functions of coordinates -/

def argX (r j : Fin 4096) : EReal := (m ((c : Thread nD τ).loc main_arg0) : S4096x4096.Idx → EReal) (ix2 r j)
def argWq (e d : Fin 256) : EReal := (m ((c : Thread nD τ).loc main_arg1) : S256x256.Idx → EReal) (ix2 e d)
def argbq (e : Fin 256) : EReal := (m ((c : Thread nD τ).loc main_arg2) : S256.Idx → EReal) (ix1 e)
def argWk (e d : Fin 256) : EReal := (m ((c : Thread nD τ).loc main_arg3) : S256x256.Idx → EReal) (ix2 e d)
def argbk (e : Fin 256) : EReal := (m ((c : Thread nD τ).loc main_arg4) : S256.Idx → EReal) (ix1 e)
def argWv (e d : Fin 256) : EReal := (m ((c : Thread nD τ).loc main_arg5) : S256x256.Idx → EReal) (ix2 e d)
def argbv (e : Fin 256) : EReal := (m ((c : Thread nD τ).loc main_arg6) : S256.Idx → EReal) (ix1 e)
def argγ (j : Fin 4096) : EReal := (m ((c : Thread nD τ).loc main_arg7) : S4096.Idx → EReal) (ix1 j)
def argβ (j : Fin 4096) : EReal := (m ((c : Thread nD τ).loc main_arg8) : S4096.Idx → EReal) (ix1 j)

/-! ## What the attention kernel is handed -/

theorem entryX_eq : entryX (ent1 m ρ) c = argX m c := by
  funext r j; unfold entryX argX; rw [ent1_x]

theorem entryγ_eq : entryγ (ent1 m ρ) c = argγ m c := by
  funext j; unfold entryγ argγ; rw [ent1_gamma]; exact row4096_apply _ j

theorem entryβ_eq : entryβ (ent1 m ρ) c = argβ m c := by
  funext j; unfold entryβ argβ; rw [ent1_beta]; exact row4096_apply _ j

theorem entryWq_eq : entryWq (ent1 m ρ) c = argWq m c := by
  funext e d; unfold entryWq argWq; rw [ent1_weights]
  exact weights_apply _ _ _ 0 d e _ (by show e.val = 256 * 0 + e.val; omega)

theorem entryWk_eq : entryWk (ent1 m ρ) c = argWk m c := by
  funext e d; unfold entryWk argWk; rw [ent1_weights]
  exact weights_apply _ _ _ 1 d e _ (by show 256 + e.val = 256 * 1 + e.val; omega)

theorem entryWv_eq : entryWv (ent1 m ρ) c = argWv m c := by
  funext e d; unfold entryWv argWv; rw [ent1_weights]
  exact weights_apply _ _ _ 2 d e _ (by show 512 + e.val = 256 * 2 + e.val; omega)

theorem entrybq_eq : entrybq (ent1 m ρ) c = argbq m c := by
  funext e; unfold entrybq argbq; rw [ent1_biases]
  exact biases_apply _ _ _ 0 e _ (by show e.val = 256 * 0 + e.val; omega)

theorem entrybk_eq : entrybk (ent1 m ρ) c = argbk m c := by
  funext e; unfold entrybk argbk; rw [ent1_biases]
  exact biases_apply _ _ _ 1 e _ (by show 256 + e.val = 256 * 1 + e.val; omega)

theorem entrybv_eq : entrybv (ent1 m ρ) c = argbv m c := by
  funext e; unfold entrybv argbv; rw [ent1_biases]
  exact biases_apply _ _ _ 2 e _ (by show 512 + e.val = 256 * 2 + e.val; omega)

/-- The kernel's column means are the reference's. -/
theorem entrymean_eq : entrymean (ent1 m ρ) c = Cert.Spec.refMean (argX m c) := by
  funext j
  unfold entrymean
  rw [ent1_mean]
  refine (row4096_apply _ j).trans ?_
  rw [kMeanVec_apply, stats_sum, stats_sum]
  simp only [Stats.xarr_eq, ent0_x]
  exact Cert.StatsLaw.kMean_eq (argX m c) j

/-- The kernel's column variances are the reference's, x being finite. -/
theorem entryvar_eq (hfin : ∀ r j : Fin 4096, ∃ a : ℝ, argX m c r j = (a : EReal)) :
    entryvar (ent1 m ρ) c = Cert.Spec.refVar (argX m c) := by
  funext j
  unfold entryvar
  rw [ent1_var]
  refine (row4096_apply _ j).trans ?_
  rw [kVarVec_apply, kMeanVec_apply, stats_sum, stats_sum, stats_sumsq, stats_sumsq]
  simp only [Stats.xarr_eq, ent0_x]
  exact Cert.StatsLaw.kVar_eq (argX m c) j (fun r => hfin r j)

/-! ## The result -/

theorem kernel_value (hfin : ∀ r j : Fin 4096, ∃ a : ℝ, argX m c r j = (a : EReal)) (r : Fin 4096) (e : Fin 256) (p : Fin 16) :
    (bnd5 m ρ c main_v32 : S4096x4096.Idx → EReal) (ix2 r (Cert.Spec.flat e p))
      = Cert.Spec.result (argX m c) (Cert.Spec.refMean (argX m c)) (Cert.Spec.refVar (argX m c)) (argγ m c) (argβ m c)
          (argWq m c) (argbq m c) (argWk m c) (argbk m c) (argWv m c) (argbv m c) r e p := by
  rw [result_eq]
  refine (result_apply _ _ r e p).trans ?_
  unfold Cert.Spec.result
  rw [attn_value, entryX_eq, entrymean_eq, entryvar_eq m ρ c hfin, entryγ_eq, entryβ_eq, entryWq_eq, entrybq_eq, entryWk_eq, entrybk_eq,
    entryWv_eq, entrybv_eq]
  rfl

end Cert.KernelIdeal.Hand

end
-- ==== Proof.RefValue.lean ====
/-
  The reference program, read index by index, is the specification.

  The reference is a straight line of array operations: per column of x the mean and the mean of squared deviations; the
  normalized array (x − mean) · (var + ε)^(−1/2) · γ + β; its 4096 columns regrouped as 16 partitions of 256 features; one
  256 × 256 linear map per role applied to every partition of every row; the row's 256 × 256 scores, each the inner
  product over the 16 partitions divided by 16; every row of scores shifted by its maximum, exponentiated and divided by
  its sum; the resulting weights applied to the values; the output regrouped so that feature e of partition p is column
  16 e + p; and x added back. Each named intermediate below is that operation's array at explicit coordinates, written
  with the specification's own functions, so that the last one is the specification's result.

  Two facts about positions carry the regroupings: ((16 r + p) · 256 + d) splits as row r and column 256 p + d, and
  (4096 r + 16 e + p) splits as row r, feature e, partition p. Everything else is reading a sum, a quotient or a
  broadcast at one index. The row maximum is a fold of max from −∞, which is the supremum over the row.
-/
import proofs.«113718_j18957985645187_2_alg».proof.Proof.Gen.ReferenceIdeal.Read
import proofs.«113718_j18957985645187_2_alg».proof.Proof.Spec
import proofs.«113718_j18957985645187_2_alg».proof.Proof.Consts
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-! ## The arguments read by coordinates -/

/-- A 4096 × 4096 array read by row and column. -/
def mat4096 (x : (⟨S4096x4096, .f32⟩ : BufTy).Contents (Elt Ideal)) (r j : Fin 4096) : EReal := x (ix2 r j)
/-- A 256 × 256 weight matrix read by output and input feature. -/
def mat256 (w : (⟨S256x256, .f32⟩ : BufTy).Contents (Elt Ideal)) (e d : Fin 256) : EReal := w (ix2 e d)
/-- A bias vector of 256 entries read by feature. -/
def vec256 (b : (⟨S256, .f32⟩ : BufTy).Contents (Elt Ideal)) (e : Fin 256) : EReal := b (ix1 e)
/-- A per-column vector of 4096 entries read by column. -/
def vec4096 (g : (⟨S4096, .f32⟩ : BufTy).Contents (Elt Ideal)) (j : Fin 4096) : EReal := g (ix1 j)

variable (x0 : (⟨S4096x4096, .f32⟩ : BufTy).Contents (Elt Ideal))
  (x1 : (⟨S256x256, .f32⟩ : BufTy).Contents (Elt Ideal)) (x2 : (⟨S256, .f32⟩ : BufTy).Contents (Elt Ideal))
  (x3 : (⟨S256x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 x8 : (⟨S4096, .f32⟩ : BufTy).Contents (Elt Ideal))

/-! ## The batch statistics -/

/-- Summing a column: the reduced index j with row k put back is (k, j). -/
theorem idx_v0 (j k : Fin 4096) : idx_main_v0 (ix1 j) k = ix2 k j := by
  funext a; match a with | ⟨0, _⟩ => rfl | ⟨1, _⟩ => rfl

/-- The reference's mean of column j. -/
theorem mean_eq (j : Fin 4096) :
    val_main_v2 (F := Ideal) x0 (ix1 j) = Cert.Spec.refMean (mat4096 x0) j := by
  rw [val_main_v2_apply, val_main_v0_apply, val_main_v1_apply, val_main_cst_apply, val_main_cst_0_apply]
  simp only [Ideal.hostDivf_def, Ideal.ofBits_def, Ideal.ofBits_zero_f32, zero_add, idx_v0]
  rfl

/-- A per-column vector broadcast down the rows is read, at (r, j), at j. -/
theorem idx_v3_v4 (r j : Fin 4096) : idx_main_v3 (idx_main_v4 (ix2 r j)) = ix1 j := by
  funext a; match a with | ⟨0, _⟩ => rfl

/-- The deviation of entry (r, j) from its column's mean. -/
theorem dev_eq (r j : Fin 4096) :
    val_main_v5 (F := Ideal) x0 (ix2 r j) = mat4096 x0 r j - Cert.Spec.refMean (mat4096 x0) j := by
  rw [val_main_v5_apply, val_main_v4_apply, val_main_v3_apply, idx_v3_v4, mean_eq]
  rfl

theorem idx_v7 (j k : Fin 4096) : idx_main_v7 (ix1 j) k = ix2 k j := by
  funext a; match a with | ⟨0, _⟩ => rfl | ⟨1, _⟩ => rfl

/-- The reference's variance of column j: the mean of the squared deviations. -/
theorem var_eq (j : Fin 4096) :
    val_main_v9 (F := Ideal) x0 (ix1 j) = Cert.Spec.refVar (mat4096 x0) j := by
  rw [val_main_v9_apply, val_main_v7_apply, val_main_v8_apply, val_main_cst_1_apply, val_main_cst_2_apply]
  simp only [Ideal.hostDivf_def, Ideal.ofBits_def, Ideal.ofBits_zero_f32, zero_add, idx_v7, val_main_v6_apply, dev_eq,
    Ideal.mulf_def]
  rfl

/-! ## The normalized array -/

theorem idx_v10_v11 (r j : Fin 4096) : idx_main_v10 (idx_main_v11 (ix2 r j)) = ix1 j := by
  funext a; match a with | ⟨0, _⟩ => rfl
theorem idx_v16_v17 (r j : Fin 4096) : idx_main_v16 (idx_main_v17 (ix2 r j)) = ix1 j := by
  funext a; match a with | ⟨0, _⟩ => rfl
theorem idx_v19_v20 (r j : Fin 4096) : idx_main_v19 (idx_main_v20 (ix2 r j)) = ix1 j := by
  funext a; match a with | ⟨0, _⟩ => rfl
theorem idx_v22_v23 (r j : Fin 4096) : idx_main_v22 (idx_main_v23 (ix2 r j)) = ix1 j := by
  funext a; match a with | ⟨0, _⟩ => rfl

/-- Column j's scale: the reciprocal square root of its regularized variance. -/
theorem rstd_eq (j : Fin 4096) :
    val_main_v15 (F := Ideal) x0 (ix1 j) = Ideal.rsqrt (Cert.Spec.refVar (mat4096 x0) j + Cert.Spec.eps) := by
  rw [val_main_v15_apply, val_main_v14_apply, val_main_v13_apply, val_main_cst_3_apply, var_eq]
  rfl

/-- The normalized array, with the reference's own mean and variance. -/
abbrev refXn : Fin 4096 → Fin 4096 → EReal :=
  Cert.Spec.xn (mat4096 x0) (Cert.Spec.refMean (mat4096 x0)) (Cert.Spec.refVar (mat4096 x0)) (vec4096 x7) (vec4096 x8)

theorem xn_eq (r j : Fin 4096) :
    val_main_v24 (F := Ideal) x0 x7 x8 (ix2 r j) = refXn x0 x7 x8 r j := by
  rw [val_main_v24_apply, val_main_v21_apply, val_main_v18_apply, val_main_v12_apply, val_main_v11_apply,
    val_main_v10_apply, idx_v10_v11, mean_eq, val_main_v17_apply, val_main_v16_apply, idx_v16_v17, rstd_eq,
    val_main_v20_apply, val_main_v19_apply, idx_v19_v20, val_main_v23_apply, val_main_v22_apply, idx_v22_v23]
  rfl

/-- The reshape to [4096, 16, 256] reads feature d of partition p at column 256 p + d. -/
theorem idx_v25 (r : Fin 4096) (p : Fin 16) (d : Fin 256) : idx_main_v25 (ix3 r p d) = ix2 r (Cert.Spec.col p d) := by
  have hr := r.isLt; have hp := p.isLt; have hd := d.isLt
  funext a; apply Fin.ext
  match a with
  | ⟨0, _⟩ => show ((r.val * 16 + p.val) * 256 + d.val) / 4096 = r.val; omega
  | ⟨1, _⟩ => show ((r.val * 16 + p.val) * 256 + d.val) % 4096 = 256 * p.val + d.val; omega

theorem xn3_eq (r : Fin 4096) (p : Fin 16) (d : Fin 256) :
    val_main_v25 (F := Ideal) x0 x7 x8 (ix3 r p d) = refXn x0 x7 x8 r (Cert.Spec.col p d) := by
  rw [val_main_v25_apply, idx_v25, xn_eq]

/-! ## Queries, keys and values -/

/-- The transpose [256, 4096, 16] → [4096, 256, 16] reads (r, e, p) at (e, r, p). -/
theorem idx_v27 (r : Fin 4096) (e : Fin 256) (p : Fin 16) : idx_main_v27 (ix3 r e p) = ix3 e r p := by
  funext a; match a with | ⟨0, _⟩ => rfl | ⟨1, _⟩ => rfl | ⟨2, _⟩ => rfl
theorem idx_v32 (r : Fin 4096) (e : Fin 256) (p : Fin 16) : idx_main_v32 (ix3 r e p) = ix3 e r p := by
  funext a; match a with | ⟨0, _⟩ => rfl | ⟨1, _⟩ => rfl | ⟨2, _⟩ => rfl
theorem idx_v37 (r : Fin 4096) (e : Fin 256) (p : Fin 16) : idx_main_v37 (ix3 r e p) = ix3 e r p := by
  funext a; match a with | ⟨0, _⟩ => rfl | ⟨1, _⟩ => rfl | ⟨2, _⟩ => rfl

/-- The contraction over input feature k pairs weight (e, k) with entry (r, p, k) of the regrouped array. -/
theorem lidx_v26 (e : Fin 256) (r : Fin 4096) (p : Fin 16) (k : Fin 256) : lidx_main_v26 (ix3 e r p) k = ix2 e k := by
  funext a; match a with | ⟨0, _⟩ => rfl | ⟨1, _⟩ => rfl
theorem ridx_v26 (e : Fin 256) (r : Fin 4096) (p : Fin 16) (k : Fin 256) : ridx_main_v26 (ix3 e r p) k = ix3 r p k := by
  funext a; match a with | ⟨0, _⟩ => rfl | ⟨1, _⟩ => rfl | ⟨2, _⟩ => rfl
theorem lidx_v31 (e : Fin 256) (r : Fin 4096) (p : Fin 16) (k : Fin 256) : lidx_main_v31 (ix3 e r p) k = ix2 e k := by
  funext a; match a with | ⟨0, _⟩ => rfl | ⟨1, _⟩ => rfl
theorem ridx_v31 (e : Fin 256) (r : Fin 4096) (p : Fin 16) (k : Fin 256) : ridx_main_v31 (ix3 e r p) k = ix3 r p k := by
  funext a; match a with | ⟨0, _⟩ => rfl | ⟨1, _⟩ => rfl | ⟨2, _⟩ => rfl
theorem lidx_v36 (e : Fin 256) (r : Fin 4096) (p : Fin 16) (k : Fin 256) : lidx_main_v36 (ix3 e r p) k = ix2 e k := by
  funext a; match a with | ⟨0, _⟩ => rfl | ⟨1, _⟩ => rfl
theorem ridx_v36 (e : Fin 256) (r : Fin 4096) (p : Fin 16) (k : Fin 256) : ridx_main_v36 (ix3 e r p) k = ix3 r p k := by
  funext a; match a with | ⟨0, _⟩ => rfl | ⟨1, _⟩ => rfl | ⟨2, _⟩ => rfl

/-- A bias broadcast over rows and partitions is read, at (r, e, p), at e. -/
theorem idx_v28_v29 (r : Fin 4096) (e : Fin 256) (p : Fin 16) : idx_main_v28 (idx_main_v29 (ix3 r e p)) = ix1 e := by
  funext a; match a with | ⟨0, _⟩ => rfl
theorem idx_v33_v34 (r : Fin 4096) (e : Fin 256) (p : Fin 16) : idx_main_v33 (idx_main_v34 (ix3 r e p)) = ix1 e := by
  funext a; match a with | ⟨0, _⟩ => rfl
theorem idx_v38_v39 (r : Fin 4096) (e : Fin 256) (p : Fin 16) : idx_main_v38 (idx_main_v39 (ix3 r e p)) = ix1 e := by
  funext a; match a with | ⟨0, _⟩ => rfl

/-- The queries, keys and values: one linear map per role applied to every partition of every normalized row. -/
abbrev refQ : Fin 4096 → Fin 256 → Fin 16 → EReal := Cert.Spec.proj (refXn x0 x7 x8) (mat256 x1) (vec256 x2)
abbrev refK : Fin 4096 → Fin 256 → Fin 16 → EReal := Cert.Spec.proj (refXn x0 x7 x8) (mat256 x3) (vec256 x4)
abbrev refV : Fin 4096 → Fin 256 → Fin 16 → EReal := Cert.Spec.proj (refXn x0 x7 x8) (mat256 x5) (vec256 x6)

theorem q_eq (r : Fin 4096) (e : Fin 256) (p : Fin 16) :
    val_main_v30 (F := Ideal) x0 x1 x2 x7 x8 (ix3 r e p) = refQ x0 x1 x2 x7 x8 r e p := by
  rw [val_main_v30_apply, val_main_v27_apply, idx_v27, val_main_v26_apply, val_main_v29_apply, val_main_v28_apply,
    idx_v28_v29]
  simp only [lidx_v26, ridx_v26, xn3_eq]
  rfl

theorem k_eq (r : Fin 4096) (e : Fin 256) (p : Fin 16) :
    val_main_v35 (F := Ideal) x0 x3 x4 x7 x8 (ix3 r e p) = refK x0 x3 x4 x7 x8 r e p := by
  rw [val_main_v35_apply, val_main_v32_apply, idx_v32, val_main_v31_apply, val_main_v34_apply, val_main_v33_apply,
    idx_v33_v34]
  simp only [lidx_v31, ridx_v31, xn3_eq]
  rfl

theorem v_eq (r : Fin 4096) (e : Fin 256) (p : Fin 16) :
    val_main_v40 (F := Ideal) x0 x5 x6 x7 x8 (ix3 r e p) = refV x0 x5 x6 x7 x8 r e p := by
  rw [val_main_v40_apply, val_main_v37_apply, idx_v37, val_main_v36_apply, val_main_v39_apply, val_main_v38_apply,
    idx_v38_v39]
  simp only [lidx_v36, ridx_v36, xn3_eq]
  rfl

/-! ## The scores -/

/-- The contraction over partition k pairs query (r, e, k) with key (r, f, k). -/
theorem lidx_v41 (r : Fin 4096) (e f : Fin 256) (k : Fin 16) : lidx_main_v41 (ix3 r e f) k = ix3 r e k := by
  funext a; match a with | ⟨0, _⟩ => rfl | ⟨1, _⟩ => rfl | ⟨2, _⟩ => rfl
theorem ridx_v41 (r : Fin 4096) (e f : Fin 256) (k : Fin 16) : ridx_main_v41 (ix3 r e f) k = ix3 r f k := by
  funext a; match a with | ⟨0, _⟩ => rfl | ⟨1, _⟩ => rfl | ⟨2, _⟩ => rfl

/-- Row r's scores of query feature e against every key feature. -/
abbrev refScore (r : Fin 4096) (e : Fin 256) : Fin 256 → EReal :=
  fun f => Cert.Spec.score (refQ x0 x1 x2 x7 x8) (refK x0 x3 x4 x7 x8) r e f

theorem score_eq (r : Fin 4096) (e f : Fin 256) :
    val_main_v43 (F := Ideal) x0 x1 x2 x3 x4 x7 x8 (ix3 r e f) = refScore x0 x1 x2 x3 x4 x7 x8 r e f := by
  rw [val_main_v43_apply, val_main_v41_apply, val_main_v42_apply, val_main_cst_4_apply]
  simp only [lidx_v41, ridx_v41, q_eq, k_eq]
  rfl

/-! ## The row maximum -/

/-- Reducing the last axis: the reduced index (r, e) with key feature k put back is (r, e, k). -/
theorem lift_v44 (h : S4096x256x256.Reduces [2] S4096x256) (r : Fin 4096) (e : Fin 256)
    (k : Fin (S4096x256x256.size 2)) : h.lift (ix2 r e) k = ix3 r e (⟨k.val, k.isLt⟩ : Fin 256) := by
  funext c; apply Fin.ext
  fin_cases c <;> rfl

set_option maxHeartbeats 400000 in
/-- From −∞, the reduction by max along the last axis of a [4096, 256, 256] array is, at (r, e), the supremum of row
    (r, e): max is commutative and associative, so the fold runs over the row's 256 entries in any order, and a fold of
    max from the bottom element is the supremum. -/
theorem reduce_max_row (y : FVec Ideal S4096x256x256 .f32) (r : Fin 4096) (e : Fin 256) :
    Host.reduce (FloatOps.maximumf (F := Ideal) (φ := .f32)) y (val_main_cst_5 (F := Ideal))
        reducesTo_S4096x256x256_S4096x256_d2 h_S_ (ix2 r e)
      = Finset.univ.sup fun k : Fin 256 => y (ix3 r e k) := by
  have h : S4096x256x256.Reduces [2] S4096x256 := by decide
  rw [Host.reduce_eq_fold_single (FloatOps.maximumf (F := Ideal) (φ := .f32)) y _
    reducesTo_S4096x256x256_S4096x256_d2 h h_S_, val_main_cst_5_apply]
  have hf : (y ∘ h.lift (ix2 r e)) = fun k : Fin 256 => y (ix3 r e k) :=
    funext fun k => congrArg y (lift_v44 h r e k)
  show Finset.fold max (Ideal.ofBits .f32 0xFF800000#32) (y ∘ h.lift (ix2 r e)) Finset.univ = _
  rw [Cert.Consts.ofBits_negInf]
  exact congrArg (fun g => Finset.fold max (⊥ : EReal) g (Finset.univ : Finset (Fin 256))) hf

set_option maxHeartbeats 400000 in
/-- The maximum of row (r, e) of the scores. -/
theorem max_eq (r : Fin 4096) (e : Fin 256) :
    val_main_v44 (F := Ideal) x0 x1 x2 x3 x4 x7 x8 (ix2 r e)
      = Cert.Spec.rowmax (refScore x0 x1 x2 x3 x4 x7 x8 r e) := by
  unfold val_main_v44
  refine (reduce_max_row _ r e).trans ?_
  exact congrArg (Finset.sup Finset.univ) (funext fun k => score_eq x0 x1 x2 x3 x4 x7 x8 r e k)

/-- The reference takes the maximum of −∞ and the fold once more: nothing changes. -/
theorem rowmax_eq (r : Fin 4096) (e : Fin 256) :
    val_main_v46 (F := Ideal) x0 x1 x2 x3 x4 x7 x8 (ix2 r e)
      = Cert.Spec.rowmax (refScore x0 x1 x2 x3 x4 x7 x8 r e) := by
  rw [val_main_v46_apply, val_main_v45_apply, val_main_cst_6_apply, max_eq]
  show max (Ideal.ofBits .f32 0xFF800000#32) _ = _
  rw [Cert.Consts.ofBits_negInf, max_eq_right bot_le]

/-! ## The soft-max -/

/-- A per-row value broadcast along the key axis is read, at (r, e, f), at (r, e). -/
theorem idx_v47_v48 (r : Fin 4096) (e f : Fin 256) : idx_main_v47 (idx_main_v48 (ix3 r e f)) = ix2 r e := by
  funext a; match a with | ⟨0, _⟩ => rfl | ⟨1, _⟩ => rfl
theorem idx_v52_v53 (r : Fin 4096) (e f : Fin 256) : idx_main_v52 (idx_main_v53 (ix3 r e f)) = ix2 r e := by
  funext a; match a with | ⟨0, _⟩ => rfl | ⟨1, _⟩ => rfl

/-- Each score, shifted by its row's maximum and exponentiated. -/
theorem exp_eq (r : Fin 4096) (e f : Fin 256) :
    val_main_v50 (F := Ideal) x0 x1 x2 x3 x4 x7 x8 (ix3 r e f)
      = Ideal.exp (refScore x0 x1 x2 x3 x4 x7 x8 r e f - Cert.Spec.rowmax (refScore x0 x1 x2 x3 x4 x7 x8 r e)) := by
  rw [val_main_v50_apply, val_main_v49_apply, val_main_v48_apply, val_main_v47_apply, idx_v47_v48, score_eq, rowmax_eq]
  rfl

/-- Summing a row: the reduced index (r, e) with key feature k put back is (r, e, k). -/
theorem idx_v51 (r : Fin 4096) (e k : Fin 256) : idx_main_v51 (ix2 r e) k = ix3 r e k := by
  funext a; match a with | ⟨0, _⟩ => rfl | ⟨1, _⟩ => rfl | ⟨2, _⟩ => rfl

/-- The sum of a row's shifted exponentials. -/
theorem rowsum_eq (r : Fin 4096) (e : Fin 256) :
    val_main_v51 (F := Ideal) x0 x1 x2 x3 x4 x7 x8 (ix2 r e)
      = ∑ g : Fin 256, Ideal.exp (refScore x0 x1 x2 x3 x4 x7 x8 r e g
          - Cert.Spec.rowmax (refScore x0 x1 x2 x3 x4 x7 x8 r e)) := by
  rw [val_main_v51_apply, val_main_cst_7_apply]
  simp only [Ideal.ofBits_def, Ideal.ofBits_zero_f32, zero_add, idx_v51, exp_eq]

/-- The attention weights: each shifted exponential over its row's sum. -/
theorem attn_eq (r : Fin 4096) (e f : Fin 256) :
    val_main_v54 (F := Ideal) x0 x1 x2 x3 x4 x7 x8 (ix3 r e f)
      = Cert.Spec.softmax (refScore x0 x1 x2 x3 x4 x7 x8 r e) f := by
  rw [val_main_v54_apply, exp_eq, val_main_v53_apply, val_main_v52_apply, idx_v52_v53, rowsum_eq]
  rfl

/-! ## The output and the result -/

/-- The contraction over key feature k pairs weight (r, e, k) with value (r, k, p). -/
theorem lidx_v55 (r : Fin 4096) (e : Fin 256) (p : Fin 16) (k : Fin 256) : lidx_main_v55 (ix3 r e p) k = ix3 r e k := by
  funext a; match a with | ⟨0, _⟩ => rfl | ⟨1, _⟩ => rfl | ⟨2, _⟩ => rfl
theorem ridx_v55 (r : Fin 4096) (e : Fin 256) (p : Fin 16) (k : Fin 256) : ridx_main_v55 (ix3 r e p) k = ix3 r k p := by
  funext a; match a with | ⟨0, _⟩ => rfl | ⟨1, _⟩ => rfl | ⟨2, _⟩ => rfl

/-- The attention output before the residual. -/
theorem out_eq (r : Fin 4096) (e : Fin 256) (p : Fin 16) :
    val_main_v55 (F := Ideal) x0 x1 x2 x3 x4 x5 x6 x7 x8 (ix3 r e p)
      = Cert.Spec.attnOut (mat4096 x0) (Cert.Spec.refMean (mat4096 x0)) (Cert.Spec.refVar (mat4096 x0)) (vec4096 x7)
          (vec4096 x8) (mat256 x1) (vec256 x2) (mat256 x3) (vec256 x4) (mat256 x5) (vec256 x6) r e p := by
  rw [val_main_v55_apply]
  simp only [lidx_v55, ridx_v55, attn_eq, v_eq]
  rfl

/-- The reshape to [4096, 4096] reads column 16 e + p at feature e of partition p. -/
theorem idx_v56 (r : Fin 4096) (e : Fin 256) (p : Fin 16) :
    idx_main_v56 (ix2 r (Cert.Spec.flat e p)) = ix3 r e p := by
  have hr := r.isLt; have he := e.isLt; have hp := p.isLt
  funext a; apply Fin.ext
  match a with
  | ⟨0, _⟩ => show (r.val * 4096 + (16 * e.val + p.val)) / 4096 = r.val; omega
  | ⟨1, _⟩ => show (r.val * 4096 + (16 * e.val + p.val)) / 16 % 256 = e.val; omega
  | ⟨2, _⟩ => show (r.val * 4096 + (16 * e.val + p.val)) % 16 = p.val; omega

/-- THE REFERENCE IS THE SPECIFICATION: at row r and column 16 e + p the reference's result is the specification's,
    with the reference's own mean and variance. -/
theorem ref_value (x0 : (⟨S4096x4096, .f32⟩ : BufTy).Contents (Elt Ideal))
    (x1 : (⟨S256x256, .f32⟩ : BufTy).Contents (Elt Ideal)) (x2 : (⟨S256, .f32⟩ : BufTy).Contents (Elt Ideal))
    (x3 : (⟨S256x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 x8 : (⟨S4096, .f32⟩ : BufTy).Contents (Elt Ideal)) (r : Fin 4096) (e : Fin 256) (p : Fin 16) :
    Cert.ReferenceIdeal.Read.val_main_v57 (F := Ideal) x0 x1 x2 x3 x4 x5 x6 x7 x8 (ValueIdx.ix2 r (Cert.Spec.flat e p))
      = Cert.Spec.result (mat4096 x0) (Cert.Spec.refMean (mat4096 x0)) (Cert.Spec.refVar (mat4096 x0)) (vec4096 x7)
          (vec4096 x8) (mat256 x1) (vec256 x2) (mat256 x3) (vec256 x4) (mat256 x5) (vec256 x6) r e p := by
  rw [val_main_v57_apply, val_main_v56_apply, idx_v56, out_eq]
  rfl

end Cert.ReferenceIdeal.RefValue

end
-- ==== Proof.Finite.lean ====
/-
  What the precondition gives: every entry of x is a real number. The printed predicate is a conjunction of nine "all entries have
  absolute value below +∞"; the first conjunct is x's. An extended real whose absolute value max(x, −x) is below +∞ is neither
  infinity, so it is a real.
-/
import proofs.«113718_j18957985645187_2_alg».proof.Pre_finite_inputs
import proofs.«113718_j18957985645187_2_alg».proof.Proof.Consts
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.Pre_finite_inputs

/-- An extended real whose absolute value is below +∞ is a real number. -/
theorem real_of_abs_lt_top (x : EReal) (h : max x (-x) < ⊤) : ∃ a : ℝ, x = (a : EReal) := by
  induction x using EReal.rec with
  | bot => exact absurd h (by simp)
  | coe a => exact ⟨a, rfl⟩
  | top => exact absurd h (by simp)

/-- Under the precondition every entry of the first argument is a real number. -/
theorem x_real [Cert.Pre_finite_inputs.Facts] (x0 : FVec Ideal S4096x4096 .f32) (x1 : FVec Ideal S256x256 .f32) (x2 : FVec Ideal S256 .f32)
    (x3 : FVec Ideal S256x256 .f32) (x4 : FVec Ideal S256 .f32) (x5 : FVec Ideal S256x256 .f32) (x6 : FVec Ideal S256 .f32)
    (x7 : FVec Ideal S4096 .f32) (x8 : FVec Ideal S4096 .f32)
    (h : fn (F := Ideal) x0 x1 x2 x3 x4 x5 x6 x7 x8 = fun _ => 1#1) (i : S4096x4096.Idx) : ∃ a : ℝ, x0 i = (a : EReal) := by
  have h0 := congrFun h ValueIdx.ix0
  dsimp only [fn, fn_part1, fn_part2] at h0
  simp only [andi, IntOp.andi_eq_one] at h0
  haveI : Subsingleton S_.Idx := ⟨fun a b => funext fun d => d.elim0⟩
  have e := Host.reduce_andi_all _ _ _ _ ValueIdx.ix0 h0.1.1.1.1.1.1.1.1 i
  have e' : Ideal.cmp .olt (max (x0 i) (-(x0 i))) (Ideal.ofBits .f32 0x7F800000#32) = 1#1 := e
  rw [Cert.Consts.ofBits_posInf] at e'
  have hlt : max (x0 i) (-(x0 i)) < ⊤ := by
    unfold Ideal.cmp at e'
    by_contra hn
    simp [hn] at e'
  exact real_of_abs_lt_top _ hlt

end Cert.Finite

end
-- ==== Proof.lean ====
/-
  The kernel's program and the reference compute the same function of their nine arguments over the extended reals, given finite inputs.

  Both normalize x by its columns' batch statistics, apply one shared linear map per role (query, key, value) to each of the 16 partitions of
  every row, soft-max the 256 × 256 score matrix of each row, apply it to the values and add x back. The kernel computes the statistics in a
  first kernel region (column sums and sums of squares, accumulated over the two halves of the batch) and takes the variance as the mean of
  squares less the squared mean; the reference takes the mean of squared deviations. On finite data these agree (Proof/StatsLaw.lean); all
  else is the same sums in another arrangement: a fused projection against three einsums, the kernel's row blocks against whole arrays, a
  product with 2⁻⁴ against a division by 16.

  The three frame claims: the kernel's two programs by the run of their @main as five segments (Proof/K/Run.lean, Proof/KI/Run.lean); the
  reference's by its generated run. No operation was rewritten by the idealization, so that claim is trivial.
-/
import proofs.«113718_j18957985645187_2_alg».proof.Defs
import proofs.«113718_j18957985645187_2_alg».proof.Proof.Gen.Kernel
import proofs.«113718_j18957985645187_2_alg».proof.Proof.Gen.KernelIdeal
import proofs.«113718_j18957985645187_2_alg».proof.Proof.Gen.ReferenceIdeal
import proofs.«113718_j18957985645187_2_alg».proof.Proof.Gen.Pre_finite_inputs
import proofs.«113718_j18957985645187_2_alg».proof.Proof.Gen.ReferenceIdeal.Run
import proofs.«113718_j18957985645187_2_alg».proof.Proof.Gen.ReferenceIdeal.Read
import proofs.«113718_j18957985645187_2_alg».proof.Proof.K.Run
import proofs.«113718_j18957985645187_2_alg».proof.Proof.KI.Run
import proofs.«113718_j18957985645187_2_alg».proof.Proof.KI.KernelValue
import proofs.«113718_j18957985645187_2_alg».proof.Proof.RefValue
import proofs.«113718_j18957985645187_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Under the precondition the kernel program's result array is the reference's composed term of the same arguments: at row r, column
    16 e + p both are the specification's value — the kernel's by the run's last boundary read back (Proof/KI/KernelValue.lean), the
    reference's by its operations read one at a time (Proof/RefValue.lean). Every column is 16 e + p for e its quotient and p its remainder by 16. -/
theorem kernel_eq_ref (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_KernelIdeal (hPre_finite_inputs := Cert.Pre_finite_inputs.Gen.facts) m) :
    Cert.KernelIdeal.Hand.bnd5 (F := Ideal) m ρ c Cert.KernelIdeal.main_v32
      = Cert.ReferenceIdeal.Read.val_main_v57 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  funext i
  obtain ⟨r, j, rfl⟩ : ∃ (r : Fin 4096) (j : Fin 4096), i = ValueIdx.ix2 r j := ⟨i 0, i 1, ValueIdx.eq_ix2 i⟩
  obtain ⟨e, p, rfl⟩ : ∃ (e : Fin 256) (p : Fin 16), j = Cert.Spec.flat e p :=
    ⟨⟨j.val / 16, by have := j.isLt; omega⟩, ⟨j.val % 16, by omega⟩,
      Fin.ext (by show j.val = 16 * (j.val / 16) + j.val % 16; omega)⟩
  haveI : Cert.Pre_finite_inputs.Facts := Cert.Pre_finite_inputs.Gen.facts
  have hfin : ∀ r j : Fin 4096, ∃ a : ℝ, Cert.KernelIdeal.Hand.argX m c r j = (a : EReal) :=
    fun r j => Cert.Finite.x_real _ _ _ _ _ _ _ _ _ (hpre c) (ValueIdx.ix2 r j)
  rw [Cert.ReferenceIdeal.RefValue.ref_value]
  exact Cert.KernelIdeal.Hand.kernel_value m ρ c hfin r e p

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.bnd5 (F := Ideal) m ρ c Cert.KernelIdeal.main_v32, ?_, ?_⟩
  · exact (θ_run Cert.KernelIdeal.defs _ _).mono (fun r h c =>
      ⟨h c _ (Cert.KernelIdeal.Hand.mem_uc Cert.KernelIdeal.main_v32 (by decide)),
       (h c _ (Cert.KernelIdeal.Hand.mem_uc Cert.KernelIdeal.main_arg0 (by decide))).trans (Cert.KernelIdeal.Hand.bnd5_main_arg0 m ρ c),
       (h c _ (Cert.KernelIdeal.Hand.mem_uc Cert.KernelIdeal.main_arg1 (by decide))).trans (Cert.KernelIdeal.Hand.bnd5_main_arg1 m ρ c),
       (h c _ (Cert.KernelIdeal.Hand.mem_uc Cert.KernelIdeal.main_arg2 (by decide))).trans (Cert.KernelIdeal.Hand.bnd5_main_arg2 m ρ c),
       (h c _ (Cert.KernelIdeal.Hand.mem_uc Cert.KernelIdeal.main_arg3 (by decide))).trans (Cert.KernelIdeal.Hand.bnd5_main_arg3 m ρ c),
       (h c _ (Cert.KernelIdeal.Hand.mem_uc Cert.KernelIdeal.main_arg4 (by decide))).trans (Cert.KernelIdeal.Hand.bnd5_main_arg4 m ρ c),
       (h c _ (Cert.KernelIdeal.Hand.mem_uc Cert.KernelIdeal.main_arg5 (by decide))).trans (Cert.KernelIdeal.Hand.bnd5_main_arg5 m ρ c),
       (h c _ (Cert.KernelIdeal.Hand.mem_uc Cert.KernelIdeal.main_arg6 (by decide))).trans (Cert.KernelIdeal.Hand.bnd5_main_arg6 m ρ c),
       (h c _ (Cert.KernelIdeal.Hand.mem_uc Cert.KernelIdeal.main_arg7 (by decide))).trans (Cert.KernelIdeal.Hand.bnd5_main_arg7 m ρ c),
       (h c _ (Cert.KernelIdeal.Hand.mem_uc Cert.KernelIdeal.main_arg8 (by decide))).trans (Cert.KernelIdeal.Hand.bnd5_main_arg8 m ρ c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v57_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    exact (kernel_eq_ref m ρ c hpre).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
